-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S64x1024 .f32) (main_arg8 : FVec F S64 .f32) (main_arg9 : FVec F S1024x64 .f32) (main_arg10 : FVec F S1024 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1024x64 .f32 := Host.absf main_arg9
  let main_cst_16 : FVec F S_ .f32 := constant S_ .f32 0x7F800000#32
  let main_v45 : FVec F S1024x64 .f32 := broadcastInDim S1024x64 ![] bcast_S_S1024x64 main_cst_16
  let main_v46 : IVec S1024x64 1 := cmpf .olt main_v44 main_v45
  let main_c_17 : IVec S_ 1 := constantI S_ 1 1#1
  let main_v47 : IVec S_ 1 := (fun x v => Host.reduce IntOp.andi x v reducesTo_S1024x64_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S64 .f32) (main_arg5 : FVec F S64x1024 .f32) (main_arg6 : FVec F S64 .f32) (main_arg7 : FVec F S64x1024 .f32) (main_arg8 : FVec F S64 .f32) (main_arg9 : FVec F S1024x64 .f32) (main_arg10 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x4096x1024 .f32) (main_arg1 : FVec F S8x4096x1024 .f32) (main_arg2 : FVec F S8x4096x1024 .f32) (main_arg3 : FVec F S64x1024 .f32) (main_arg4 : FVec F S64 .f32) (main_arg5 : FVec F S64x1024 .f32) (main_arg6 : FVec F S64 .f32) (main_arg7 : FVec F S64x1024 .f32) (main_arg8 : FVec F S64 .f32) (main_arg9 : FVec F S1024x64 .f32) (main_arg10 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_v13 main_v16
-- ==== Kernel.lean ====
abbrev S8x4096x1024 : Shape := ⟨3, ![8, 4096, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S8x1x64 : Shape := ⟨3, ![8, 1, 64]⟩
abbrev S1x1024x1024 : Shape := ⟨3, ![1, 1024, 1024]⟩
abbrev S1x1x64 : Shape := ⟨3, ![1, 1, 64]⟩
abbrev S1x64 : Shape := ⟨2, ![1, 64]⟩
abbrev S1024x1024 : Shape := ⟨2, ![1024, 1024]⟩
abbrev S1x1024 : Shape := ⟨2, ![1, 1024]⟩

abbrev nBuf : Space → Nat
  | .hbm => 21
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1024x64, .f32⟩
  | .hbm, ⟨10, _⟩ => ⟨S1024, .f32⟩
  | .hbm, ⟨11, _⟩ => ⟨S1024x64, .f32⟩
  | .hbm, ⟨12, _⟩ => ⟨S1024x64, .bf16⟩
  | .hbm, ⟨13, _⟩ => ⟨S1024x64, .f32⟩
  | .hbm, ⟨14, _⟩ => ⟨S1024x64, .bf16⟩
  | .hbm, ⟨15, _⟩ => ⟨S1024x64, .f32⟩
  | .hbm, ⟨16, _⟩ => ⟨S1024x64, .bf16⟩
  | .hbm, ⟨17, _⟩ => ⟨S64x1024, .f32⟩
  | .hbm, ⟨18, _⟩ => ⟨S64x1024, .bf16⟩
  | .hbm, ⟨19, _⟩ => ⟨S8x1x64, .f32⟩
  | .hbm, ⟨20, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x64, .bf16⟩
  | .local _ .vmem, ⟨5, _⟩ => ⟨S64, .f32⟩
  | .local _ .vmem, ⟨6, _⟩ => ⟨S1024x64, .bf16⟩
  | .local _ .vmem, ⟨7, _⟩ => ⟨S64, .f32⟩
  | .local _ .vmem, ⟨8, _⟩ => ⟨S1x1x64, .f32⟩
  | .local _ .vmem, ⟨9, _⟩ => ⟨S1x1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1x64, .f32⟩
  | .local _ .vmem, ⟨16, _⟩ => ⟨S1x1x64, .f32⟩
  | .local _ .vmem, ⟨17, _⟩ => ⟨S1024x64, .bf16⟩
  | .local _ .vmem, ⟨18, _⟩ => ⟨S64, .f32⟩
  | .local _ .vmem, ⟨19, _⟩ => ⟨S64x1024, .bf16⟩
  | .local _ .vmem, ⟨20, _⟩ => ⟨S1024, .f32⟩
  | .local _ .vmem, ⟨21, _⟩ => ⟨S1x1024x1024, .f32⟩
  | .local _ .vmem, ⟨22, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_28 : BitVec 32 := 0#32
  let v54 : BitVec 1 := Scalar.cmpi .ne v53 c0_i32_28
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  transposes_S64x1024_S1024x64_1_0 : S64x1024.Transposes [1, 0] S1024x64
  bitsLt_bf16_f32 : FTy.bits .bf16 < FTy.bits .f32
  transposes_S1024x64_S64x1024_1_0 : S1024x64.Transposes [1, 0] S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S64 : S1024x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S8x1x64.size a
  hwx0_6 : ∀ i : grid0.Coords, EltTy.bits .f32 = 32 ∨ (Rect.block (s := S8x1x64) S1x1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x4096x1024.size a
  hwx1_0 : ∀ i : grid1.Coords, EltTy.bits .f32 = 32 ∨ (Rect.block (s := S8x4096x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S8x1x64.size a
  hwx1_1 : ∀ i : grid1.Coords, EltTy.bits .f32 = 32 ∨ (Rect.block (s := S8x1x64) S1x1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .bf16 = 32 ∨ (Rect.block (s := S1024x64) S1024x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1024.size a ≤ S64x1024.size a
  hwx1_4 : ∀ i : grid1.Coords, EltTy.bits .bf16 = 32 ∨ (Rect.block (s := S64x1024) S64x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1024.size a ≤ S8x4096x1024.size a
  hwx1_6 : ∀ i : grid1.Coords, EltTy.bits .f32 = 32 ∨ (Rect.block (s := S8x4096x1024) S1x1024x1024.size (cc1_transform_6 i) (hinb1_6 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S64x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S8x4096x64 : Shape := ⟨3, ![8, 4096, 64]⟩
abbrev S1x1x64 : Shape := ⟨3, ![1, 1, 64]⟩
abbrev S_ : Shape := ⟨0, ![]⟩
abbrev S8x64 : Shape := ⟨2, ![8, 64]⟩
abbrev S8x1x64 : Shape := ⟨3, ![8, 1, 64]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1024x64, .f32⟩
  | .hbm, ⟨10, _⟩ => ⟨S1024, .f32⟩
  | .hbm, ⟨11, _⟩ => ⟨S8x4096x64, .f32⟩
  | .hbm, ⟨12, _⟩ => ⟨S1x1x64, .f32⟩
  | .hbm, ⟨13, _⟩ => ⟨S8x4096x64, .f32⟩
  | .hbm, ⟨14, _⟩ => ⟨S8x4096x64, .f32⟩
  | .hbm, ⟨15, _⟩ => ⟨S8x4096x64, .f32⟩
  | .hbm, ⟨16, _⟩ => ⟨S1x1x64, .f32⟩
  | .hbm, ⟨17, _⟩ => ⟨S8x4096x64, .f32⟩
  | .hbm, ⟨18, _⟩ => ⟨S8x4096x64, .f32⟩
  | .hbm, ⟨19, _⟩ => ⟨S8x4096x64, .f32⟩
  | .hbm, ⟨20, _⟩ => ⟨S1x1x64, .f32⟩
  | .hbm, ⟨21, _⟩ => ⟨S8x4096x64, .f32⟩
  | .hbm, ⟨22, _⟩ => ⟨S8x4096x64, .f32⟩
  | .hbm, ⟨23, _⟩ => ⟨S_, .f32⟩
  | .hbm, ⟨24, _⟩ => ⟨S8x64, .f32⟩
  | .hbm, ⟨25, _⟩ => ⟨S_, .f32⟩
  | .hbm, ⟨26, _⟩ => ⟨S8x64, .f32⟩
  | .hbm, ⟨27, _⟩ => ⟨S8x64, .f32⟩
  | .hbm, ⟨28, _⟩ => ⟨S8x1x64, .f32⟩
  | .hbm, ⟨29, _⟩ => ⟨S8x4096x64, .f32⟩
  | .hbm, ⟨30, _⟩ => ⟨S8x4096x64, .f32⟩
  | .hbm, ⟨31, _⟩ => ⟨S8x4096x64, .f32⟩
  | .hbm, ⟨32, _⟩ => ⟨S_, .f32⟩
  | .hbm, ⟨33, _⟩ => ⟨S8x64, .f32⟩
  | .hbm, ⟨34, _⟩ => ⟨S8x1x64, .f32⟩
  | .hbm, ⟨35, _⟩ => ⟨S8x4096x64, .f32⟩
  | .hbm, ⟨36, _⟩ => ⟨S8x4096x64, .f32⟩
  | .hbm, ⟨37, _⟩ => ⟨S8x4096x64, .f32⟩
  | .hbm, ⟨38, _⟩ => ⟨S_, .f32⟩
  | .hbm, ⟨39, _⟩ => ⟨S8x64, .f32⟩
  | .hbm, ⟨40, _⟩ => ⟨S8x1x64, .f32⟩
  | .hbm, ⟨41, _⟩ => ⟨S8x4096x64, .f32⟩
  | .hbm, ⟨42, _⟩ => ⟨S8x4096x64, .f32⟩
  | .hbm, ⟨43, _⟩ => ⟨S_, .f32⟩
  | .hbm, ⟨44, _⟩ => ⟨S8x4096x64, .f32⟩
  | .hbm, ⟨45, _⟩ => ⟨S8x4096x64, .f32⟩
  | .hbm, ⟨46, _⟩ => ⟨S_, .f32⟩
  | .hbm, ⟨47, _⟩ => ⟨S8x4096x64, .f32⟩
  | .hbm, ⟨48, _⟩ => ⟨S8x4096x64, .f32⟩
  | .hbm, ⟨49, _⟩ => ⟨S8x4096x64, .f32⟩
  | .hbm, ⟨50, _⟩ => ⟨S8x4096x64, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  reducesTo_S8x4096x64_S8x64_d1 : S8x4096x64.ReducesTo [1] S8x64
  h_S_ : 0 < S_.numel
  bcast_S_S8x64 : S_.BroadcastsInDim S8x64 (![] : Fin 0 → Fin S8x64.rank)
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  bcast_S_S8x4096x64 : S_.BroadcastsInDim S8x4096x64 (![] : Fin 0 → Fin S8x4096x64.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S64x1024_S8x4096x64_2_1_01_0_n_n_wf : DotDims.WF S8x4096x1024 S64x1024 S8x4096x64 [2] [1] [0, 1] [0] [] []
  dot_S8x4096x64_S1024x64_S8x4096x1024_2_1_01_0_n_n_wf : DotDims.WF S8x4096x64 S1024x64 S8x4096x1024 [2] [1] [0, 1] [0] [] []

variable [Facts₀]

def dot_S8x4096x1024_S64x1024_S8x4096x64_2_1_01_0_n_n : DotDims S8x4096x1024 S64x1024 S8x4096x64 where
  lhsContracting := [2]
  rhsContracting := [1]
  lhsNonContracting := [0, 1]
  rhsNonContracting := [0]
  lhsBatch := []
  rhsBatch := []
  wf := dot_S8x4096x1024_S64x1024_S8x4096x64_2_1_01_0_n_n_wf
def dot_S8x4096x64_S1024x64_S8x4096x1024_2_1_01_0_n_n : DotDims S8x4096x64 S1024x64 S8x4096x1024 where
  lhsContracting := [2]
  rhsContracting := [1]
  lhsNonContracting := [0, 1]
  rhsNonContracting := [0]
  lhsBatch := []
  rhsBatch := []
  wf := dot_S8x4096x64_S1024x64_S8x4096x1024_2_1_01_0_n_n_wf

class Facts : Prop extends Facts₀ where

variable [Facts]
-- ==== Proof.Kernel.PoolCases.lean ====
/-
  The pooling kernel's control cases and what its run is stated over.

  The grid is 8 batches by 4 sequence tiles, the tile coordinate innermost: point t is batch t / 4, tile t % 4.
  The body has two conditionals on the tile coordinate: at tile 0 it resets the three running rows (maximum,
  normaliser, weighted sum) before using them; at tile 3 it divides the weighted sum by the normaliser and stores
  the quotient into the output block. So a point is in one of three cases: the first tile of a batch (reset, no
  output), a middle tile (neither), the last tile (output, no reset). The output block is written back only
  after a last tile; elsewhere its buffer is handed back as found.
-/
import proofs.«103350_j47931835023376_2_alg».proof.Proof.Gen.Kernel.Launch
import proofs.«103350_j47931835023376_2_alg».proof.Proof.Gen.Kernel.Skeleton
import proofs.«103350_j47931835023376_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first tile of its batch": the body's first conditional, from the tile coordinate. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch": the body's second conditional. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- At a first tile the output window is idle and its block is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At a middle tile likewise. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- At a last tile the output window is live: the body stores the quotient into it. -/
theorem liveAt0_6_C : ∀ t : Fin cfg0.N, ¬cond0_0 (grid0.coords t) → cond0_1 (grid0.coords t) → cfg0.idle 6 (grid0.coords t) = false := by decide +kernel

/-! ## The memrefs a point is run on -/

/-- One staging buffer of the output window, through which its contents are stated. -/
abbrev VO0_6 : View sig .tc .vmem S1x1x64 .f32 := (Memref.whole cc0_stg6_0 : Memref sig .tc .vmem S1x1x64 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The three running rows: the maximum, the normaliser, the weighted sum — whole scoped buffers of the kernel's own. -/
abbrev scM0_0 : Memref sig .tc .vmem S1x64 .f32 := Memref.whole cc0_scratch0
abbrev scM0_1 : Memref sig .tc .vmem S1x64 .f32 := Memref.whole cc0_scratch1
abbrev scM0_2 : Memref sig .tc .vmem S1x64 .f32 := Memref.whole cc0_scratch2
abbrev VS0_0 : View sig .tc .vmem S1x64 .f32 := scM0_0.view
abbrev VS0_1 : View sig .tc .vmem S1x64 .f32 := scM0_1.view
abbrev VS0_2 : View sig .tc .vmem S1x64 .f32 := scM0_2.view

/-- The scoped buffers this region never touches (the other region's staging buffers), each whole at some contents. -/
def Others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before its first point: the three running rows at anything, the untouched scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Others (F := F) c) ∗ (∃ r, prngReg c r)) := by
  unfold Pipeline.ΦA Others; rw [scopedRest0_eq]; simp only [scM0_0, scM0_1, scM0_2, owns_whole]; try rfl

end Cert.Kernel.Pool

end
-- ==== Proof.Kernel.PoolRunA.lean ====
/-
  The pooling kernel's body run at the first tile of a batch (reset taken, output not taken).

  On whole memrefs — the six inputs at their contents, the output block at contents handed back untouched, the three running
  rows at anything (this case overwrites them before reading them) — the body runs to its continuation holding the inputs as they were,
  the output block as it was, and each running row with this point's stores written. The lists of stored pieces are
  found by the symbolic run; what they hold is read off them later.
-/
import proofs.«103350_j47931835023376_2_alg».proof.Proof.Kernel.PoolCases

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at the first tile of a batch (reset taken, output not taken), with the run. -/
noncomputable def kernelRun0_A (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Pool

end
-- ==== Proof.Kernel.PoolRunB.lean ====
/-
  The pooling kernel's body run at a middle tile (neither conditional taken).

  On whole memrefs — the six inputs at their contents, the output block at contents handed back untouched, the three running
  rows at what the point before left — the body runs to its continuation holding the inputs as they were,
  the output block as it was, and each running row with this point's stores written. The lists of stored pieces are
  found by the symbolic run; what they hold is read off them later.
-/
import proofs.«103350_j47931835023376_2_alg».proof.Proof.Kernel.PoolRunA

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at a middle tile (neither conditional taken), with the run. -/
noncomputable def kernelRun0_B (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Pool

end
-- ==== Proof.Kernel.PoolRunC.lean ====
/-
  The pooling kernel's body run at the last tile of a batch (reset not taken, output taken).

  On whole memrefs — the six inputs at their contents, the output block at anything, the three running
  rows at what the point before left — the body runs to its continuation holding the inputs as they were,
  the output block with the stored quotient written, and each running row with this point's stores written. The lists of stored pieces are
  found by the symbolic run; what they hold is read off them later.
-/
import proofs.«103350_j47931835023376_2_alg».proof.Proof.Kernel.PoolRunB

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at the last tile of a batch (reset not taken, output taken), with the run. -/
noncomputable def kernelRun0_C (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Pool

end
-- ==== Proof.Kernel.PoolRegion.lean ====
/-
  The pooling region point by point.

  What the output block's buffer and the three running rows (maximum, normaliser, weighted sum) hold after the body
  at each grid point, as a recursion over the points: a first tile starts from nothing (it resets the rows), every
  other tile continues from what the point before left in the rows. The region's invariant carries the three rows at
  exactly those contents from one point to the next; the proof data put each input's buffer at its block and the
  output's at the recursion's first component; the body obligation at a point is the case's run applied to them.
-/
import proofs.«103350_j47931835023376_2_alg».proof.Proof.Kernel.PoolRunC

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stored pieces cover their buffers -/

/-- Case A's stored pieces of running row 0 cover it. -/
theorem scover0_A_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
/-- Case A's stored pieces of running row 1 cover it. -/
theorem scover0_A_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
/-- Case A's stored pieces of running row 2 cover it. -/
theorem scover0_A_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1x64.size (by sl_kernel_rfl) y
/-- Case B's stored pieces of running row 0 cover it. -/
theorem scover0_B_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1x64.size (by sl_kernel_rfl) y
/-- Case B's stored pieces of running row 1 cover it. -/
theorem scover0_B_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1x64.size (by sl_kernel_rfl) y
/-- Case B's stored pieces of running row 2 cover it. -/
theorem scover0_B_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1x64.size (by sl_kernel_rfl) y
/-- Case C's stored pieces of running row 0 cover it. -/
theorem scover0_C_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1x64.size (by sl_kernel_rfl) y
/-- Case C's stored pieces of running row 1 cover it. -/
theorem scover0_C_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1x64.size (by sl_kernel_rfl) y
/-- Case C's stored pieces of running row 2 cover it. -/
theorem scover0_C_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1x64.size (by sl_kernel_rfl) y
/-- At a last tile the stored pieces of the output block cover it. -/
theorem cover0_C_6 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S1x1x64.size (by sl_kernel_rfl) y

/-! ## What a point leaves, case by case -/

/-- What a point of case A leaves: (the output block's buffer, the three running rows), each read back from its stored pieces. -/
def runA (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
def ptA (c : Dev nD) (t : Fin cfg0.N) (h0 : t.val % 4 = 0) (h1 : ¬t.val % 4 = 3) : Vec F S1x1x64 .f32 × Vec F S1x64 .f32 × Vec F S1x64 .f32 × Vec F S1x64 .f32 :=
  (VO0_6.read (Elt F) (VO0_6.writes (Elt F) VO0_6.junk (runA V c t h0 h1).1),
   VS0_0.read (Elt F) (VS0_0.writes (Elt F) VS0_0.junk (runA V c t h0 h1).2.1),
   VS0_1.read (Elt F) (VS0_1.writes (Elt F) VS0_1.junk (runA V c t h0 h1).2.2.1),
   VS0_2.read (Elt F) (VS0_2.writes (Elt F) VS0_2.junk (runA V c t h0 h1).2.2.2.1))
/-- What a point of case B leaves: (the output block's buffer, the three running rows), each read back from its stored pieces. -/
def runB (c : Dev nD) (t : Fin cfg0.N) (h0 : ¬t.val % 4 = 0) (h1 : ¬t.val % 4 = 3) (p : Vec F S1x64 .f32 × Vec F S1x64 .f32 × Vec F S1x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.1 p.2.1 p.2.2
def ptB (c : Dev nD) (t : Fin cfg0.N) (h0 : ¬t.val % 4 = 0) (h1 : ¬t.val % 4 = 3) (p : Vec F S1x64 .f32 × Vec F S1x64 .f32 × Vec F S1x64 .f32) : Vec F S1x1x64 .f32 × Vec F S1x64 .f32 × Vec F S1x64 .f32 × Vec F S1x64 .f32 :=
  (VO0_6.read (Elt F) (VO0_6.writes (Elt F) VO0_6.junk (runB V c t h0 h1 p).1),
   VS0_0.read (Elt F) (VS0_0.writes (Elt F) VS0_0.junk (runB V c t h0 h1 p).2.1),
   VS0_1.read (Elt F) (VS0_1.writes (Elt F) VS0_1.junk (runB V c t h0 h1 p).2.2.1),
   VS0_2.read (Elt F) (VS0_2.writes (Elt F) VS0_2.junk (runB V c t h0 h1 p).2.2.2.1))
/-- What a point of case C leaves: (the output block's buffer, the three running rows), each read back from its stored pieces. -/
def runC (c : Dev nD) (t : Fin cfg0.N) (h0 : ¬t.val % 4 = 0) (h1 : t.val % 4 = 3) (p : Vec F S1x64 .f32 × Vec F S1x64 .f32 × Vec F S1x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
def ptC (c : Dev nD) (t : Fin cfg0.N) (h0 : ¬t.val % 4 = 0) (h1 : t.val % 4 = 3) (p : Vec F S1x64 .f32 × Vec F S1x64 .f32 × Vec F S1x64 .f32) : Vec F S1x1x64 .f32 × Vec F S1x64 .f32 × Vec F S1x64 .f32 × Vec F S1x64 .f32 :=
  (VO0_6.read (Elt F) (VO0_6.writes (Elt F) VO0_6.junk (runC V c t h0 h1 p).1),
   VS0_0.read (Elt F) (VS0_0.writes (Elt F) VS0_0.junk (runC V c t h0 h1 p).2.1),
   VS0_1.read (Elt F) (VS0_1.writes (Elt F) VS0_1.junk (runC V c t h0 h1 p).2.2.1),
   VS0_2.read (Elt F) (VS0_2.writes (Elt F) VS0_2.junk (runC V c t h0 h1 p).2.2.2.1))

/-! ## The accumulation over the points -/

/-- What the output block's buffer and the three running rows hold after the body at position `n`: the case the
    position is in, run at the point's memrefs and input blocks, the rows continued from position `n - 1`. -/
def outsAt0 (c : Dev nD) : (n : ℕ) → n < cfg0.N → Vec F S1x1x64 .f32 × Vec F S1x64 .f32 × Vec F S1x64 .f32 × Vec F S1x64 .f32
  | 0, hn => ptA V c ⟨0, hn⟩ (Nat.zero_mod _) (fun h => absurd (show 0 % 4 = 3 from h) (by decide))
  | n + 1, hn =>
    if h0 : (n + 1) % 4 = 0 then
      if h1 : (n + 1) % 4 = 3 then False.elim (by omega)
      else ptA V c ⟨n + 1, hn⟩ h0 h1
    else
      if h1 : (n + 1) % 4 = 3 then ptC V c ⟨n + 1, hn⟩ h0 h1 (outsAt0 c n (Nat.lt_of_succ_lt hn)).2
      else ptB V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = ptA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ptB V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = ptC V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: the class's invariant (every scoped buffer at anything). Afterwards: the three running rows
    at what the point before left, the untouched scoped buffers, the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ Others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ Others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2 ∗ Others (F := F) c) ∗ (∃ r, prngReg c r)) := by
  cases n with
  | zero => exact absurd rfl hz
  | succ n => rfl

/-! ## The proof data -/

/-- The pooling pipeline's proof data on core `c`: the arrays as the region finds them; after the body at a point each
    input's buffer at its block and the output's at the accumulation's first component; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region

end Cert.Kernel.Pool

end
-- ==== Proof.Kernel.PoolBody.lean ====
/-
  The pooling region's body obligation.

  At a point the body is handed each input's buffer at its block, the output block's buffer, and the invariant: the
  three running rows at what the point before left (at anything before the first point). The point's case applies
  its run; the rows come back at this point's contents, the output block's buffer at the stored quotient after a last
  tile and untouched elsewhere. Nothing is owed.
-/
import proofs.«103350_j47931835023376_2_alg».proof.Proof.Kernel.PoolRegion

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the case the point is in applies its run. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold ptA runA; (try dsimp only)
      by_cases hz : t.val = 0
      · rw [PhiS_castSucc V c t, PhiS_zero V c _ _ hz, PhiA0_eq]
        iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HOth Hg]
        · isplitl [HS0 HS1 HS2 HOth]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HOth Hg]
        · isplitl [HS0 HS1 HS2 HOth]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold ptC runC; (try dsimp only)
      rw [PhiS_castSucc V c t, PhiS_pos V c _ _ hz]
      iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 HOth Hg]
      · isplitl [HS0 HS1 HS2 HOth]
        ·
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold ptB runB; (try dsimp only)
      rw [PhiS_castSucc V c t, PhiS_pos V c _ _ hz]
      iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HOth Hg]
      · isplitl [HS0 HS1 HS2 HOth]
        ·
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the rows' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HOth⟩, Hg⟩
  isplitl [HS0 HS1 HS2 HOth]
  · isplitl [HS0]; · iexists _; iexact HS0
    isplitl [HS1]; · iexists _; iexact HS1
    isplitl [HS2]; · iexists _; iexact HS2
    iexact HOth
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Pool

end
-- ==== Proof.Kernel.GateRegion.lean ====
/- The frame half of REGION 1 of @main — custom_call 1, the gate kernel (pipeline 1, grid 8×4) — at the
   TensorCore's buffer contents when the region is entered (a PARAMETER V), at any float model F.
   The body has one control case and every load and store is a whole literal rectangle: what it leaves in
   its output window's staging buffer is a closed function of the six input blocks at the point (the payload of
   its one store), and what it finds in each input's staging buffer is that window's block at the point, fetched
   there or not. Stated here: each window's block at a point (iblk1), the output buffer after the body (out1_6)
   and that it is the store's payload (out1_6_eq), the body's triple (sound_kernel1), the proof data (dat1) and
   the body obligation at every point (body_obligation1). -/
import proofs.«103350_j47931835023376_2_alg».proof.Proof.Gen.Kernel.Launch
import proofs.«103350_j47931835023376_2_alg».proof.Proof.Gen.Kernel.Skeleton
import proofs.«103350_j47931835023376_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Gate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is V's (hA) and whose body leaves the block in place (hafter): unfetched, the block index
    has not moved since the point before, so the block kept from there is this point's. The windows are uncut and
    never idle. One statement per input window: the query block (fetched at every point), the pooled weights
    (fetched when the batch changes), and the four operands fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer, through the rectangle of the buffer's own sizes at offset zero -/

abbrev r1_q : Rect S1x1024x1024 := Rect.unit (s := S1x1024x1024) ![0, 0, 0] S1x1024x1024.size inb_S1x1024x1024_S1x1024x1024_0_0_0
abbrev r1_w : Rect S1x1x64 := Rect.unit (s := S1x1x64) ![0, 0, 0] S1x1x64.size inb_S1x1x64_S1x1x64_0_0_0
abbrev r1_wq : Rect S1024x64 := Rect.unit (s := S1024x64) ![0, 0] S1024x64.size inb_S1024x64_S1024x64_0_0
abbrev r1_bq : Rect S64 := Rect.unit (s := S64) ![0] S64.size inb_S64_S64_0
abbrev r1_wp : Rect S64x1024 := Rect.unit (s := S64x1024) ![0, 0] S64x1024.size inb_S64x1024_S64x1024_0_0
abbrev r1_bp : Rect S1024 := Rect.unit (s := S1024) ![0] S1024.size inb_S1024_S1024_0

/-! ## What the body leaves in the output window's buffer -/

/-- Window 6's staging buffer after the body, from the input windows' blocks (x0 the query block, x1 the pooled
    weights, x2 and x3 the first projection's matrix and bias, x4 and x5 the second's): its one store as a piece
    over the payload of the six loads. -/
def out1_6 (x0 : Vec F S1x1024x1024 .f32) (x1 : Vec F S1x1x64 .f32) (x2 : Vec F S1024x64 .bf16) (x3 : Vec F S64 .f32) (x4 : Vec F S64x1024 .bf16) (x5 : Vec F S1024 .f32) : Vec F S1x1024x1024 .f32 :=
  View.canon [⟨r1_q, k1_pay1 (View.ld x0 r1_q) (View.ld x2 r1_wq) (View.ld x3 r1_bq) (View.ld x1 r1_w) (View.ld x4 r1_wp) (View.ld x5 r1_bp)⟩]

/-- Its store is the whole buffer, so it covers it. -/
theorem cover1_6 (p0 : Vec F S1x1024x1024 .f32) (y : S1x1024x1024.Idx) :
    ∃ pc ∈ ([⟨r1_q, p0⟩] : List (View.Piece (Elt F) S1x1024x1024 .f32)), y ∈ pc.1.set :=
  View.cover_of_tiled [⟨r1_q, p0⟩] S1x1024x1024.size (by rfl) y

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One store through the whole buffer leaves its payload, and a load through a whole buffer reads its contents:
    the output buffer after the body is the payload of the six blocks. -/
theorem out1_6_eq (x0 : Vec F S1x1024x1024 .f32) (x1 : Vec F S1x1x64 .f32) (x2 : Vec F S1024x64 .bf16) (x3 : Vec F S64 .f32) (x4 : Vec F S64x1024 .bf16) (x5 : Vec F S1024 .f32) :
    out1_6 x0 x1 x2 x3 x4 x5 = k1_pay1 x0 x2 x3 x1 x4 x5 := by
  unfold out1_6
  rw [View.canon_unit_zero hz3]
  rw [View.ld_unit_zero (S := S1x1024x1024) hz3, View.ld_unit_zero (S := S1024x64) hz2, View.ld_unit_zero (S := S64) hz1,
    View.ld_unit_zero (S := S1x1x64) hz3, View.ld_unit_zero (S := S64x1024) hz2, View.ld_unit_zero (S := S1024) hz1]

/-! ## The body's triple -/

set_option maxHeartbeats 1000000 in
/-- The kernel body on whole staging memrefs, the inputs' at read contents xW and the output's at anything, runs to
    the continuation holding the inputs' as they were and the output's at out1_6 of the inputs': the printed
    function is its skeleton, seven whole-buffer loads (the last of the output buffer, its value unused) and one
    whole-buffer store of the payload. -/
theorem sound_kernel1 (c : Dev nD) (E : Set ℕ) (i : grid1.Coords)
    (arg2 : Memref sig .tc .vmem S1x1024x1024 .f32) (harg2 : arg2.IsWhole) (arg3 : Memref sig .tc .vmem S1x1x64 .f32) (harg3 : arg3.IsWhole)
    (arg4 : Memref sig .tc .vmem S1024x64 .bf16) (harg4 : arg4.IsWhole) (arg5 : Memref sig .tc .vmem S64 .f32) (harg5 : arg5.IsWhole)
    (arg6 : Memref sig .tc .vmem S64x1024 .bf16) (harg6 : arg6.IsWhole) (arg7 : Memref sig .tc .vmem S1024 .f32) (harg7 : arg7.IsWhole)
    (arg8 : Memref sig .tc .vmem S1x1024x1024 .f32) (harg8 : arg8.IsWhole)
    (x0 : Vec F S1x1024x1024 .f32) (x1 : Vec F S1x1x64 .f32) (x2 : Vec F S1024x64 .bf16) (x3 : Vec F S64 .f32) (x4 : Vec F S64x1024 .bf16) (x5 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__gate_kernel i arg2 harg2 arg3 harg3 arg4 harg4 arg5 harg5 arg6 harg6 arg7 harg7 arg8 harg8) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core c: the arrays as the region finds them (V); after the body at point t
    each input's buffer at its block and the output's at out1_6 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gate

end
-- ==== Proof.Kernel.WholeRun.lean ====
/-
  The whole program's run.

  @main is three items: a stretch of host operations (each weight matrix transposed and its format changed), the
  pooling region, the gating region. Between items a core holds every unscoped buffer at a named valuation: the launch
  memory; then the host stretch applied to it; then, after a region, its windows' arrays at what the region's
  write-backs leave and every other buffer as before. No item writes an argument array, so each argument reads back
  through the valuations to the launch memory; the gating region's output array is the program's result.
-/
import proofs.«103350_j47931835023376_2_alg».proof.Proof.Kernel.PoolBody
import proofs.«103350_j47931835023376_2_alg».proof.Proof.Kernel.GateRegion
import proofs.«103350_j47931835023376_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- After the host stretch (the pooling region's entry). -/
abbrev W1 : Dev nD → Valuation τ sig (Elt F) := fun c => Gen.V1 m c
abbrev V1 : (c : Dev nD) → (b : Ref sig .tc) → Buf (Elt F) ((c : Thread nD τ).loc b) := fun c b => W1 m c b
/-- At the pooling region's exit: its arrays at what its write-backs leave, every other buffer as entered. -/
def W2 (c : Dev nD) : Valuation τ sig (Elt F) :=
  Pipeline.withArrays spec0 c (W1 m c) fun w => (Pool.dat0 (V1 m) c).arrAt w cfg0.N
theorem W2_arr (c : Dev nD) (w : Fin cfg0.W) :
    W2 m c (Proc.devRef .tc (Pipeline.arrRef spec0 w)) = (Pool.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pool.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the gating region's exit (the end of @main). -/
def W3 (c : Dev nD) : Valuation τ sig (Elt F) :=
  Pipeline.withArrays spec1 c (W2 m c) fun w => (Gate.dat1 (V2 m) c).arrAt w cfg1.N
theorem W3_arr (c : Dev nD) (w : Fin cfg1.W) :
    W3 m c (Proc.devRef .tc (Pipeline.arrRef spec1 w)) = (Gate.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Gate.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The program's result array at the end: what the gating region's write-backs leave in it. -/
theorem W3_result (c : Dev nD) : W3 m c (Proc.devRef .tc main_v9) = (Gate.dat1 (V2 m) c).arrAt 6 cfg1.N :=
  W3_arr m c 6

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Gate.dat1 (V2 m) c).arrAt_in 0 rfl _).trans (Gate.A_eq1 (V2 m) c 0))
    _ = W1 m c (Proc.devRef .tc main_arg0) := W2_of_ne m c main_arg0 (by decide)
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((Pool.dat0 (V1 m) c).arrAt_in 0 rfl _).trans (Pool.A_eq0 (V1 m) c 0))
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((Pool.dat0 (V1 m) c).arrAt_in 1 rfl _).trans (Pool.A_eq0 (V1 m) c 1))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 3).trans (((Gate.dat1 (V2 m) c).arrAt_in 3 rfl _).trans (Gate.A_eq1 (V2 m) c 3))
    _ = W1 m c (Proc.devRef .tc main_arg4) := W2_of_ne m c main_arg4 (by decide)
    _ = m ((c : Thread nD τ).loc main_arg4) := (Gen.V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (Gen.V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 3).trans (((Pool.dat0 (V1 m) c).arrAt_in 3 rfl _).trans (Pool.A_eq0 (V1 m) c 3))
    _ = m ((c : Thread nD τ).loc main_arg6) := (Gen.V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (Gen.V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 5).trans (((Pool.dat0 (V1 m) c).arrAt_in 5 rfl _).trans (Pool.A_eq0 (V1 m) c 5))
    _ = m ((c : Thread nD τ).loc main_arg8) := (Gen.V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (Gen.V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 5).trans (((Gate.dat1 (V2 m) c).arrAt_in 5 rfl _).trans (Gate.A_eq1 (V2 m) c 5))
    _ = W1 m c (Proc.devRef .tc main_arg10) := W2_of_ne m c main_arg10 (by decide)
    _ = m ((c : Thread nD τ).loc main_arg10) := (Gen.V1_of m c main_arg10 (by decide)).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Pool.dat0 (V1 m) c
  | ⟨1, _⟩ => fun c => Gate.dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Pool.hin0 (V1 m) c)
    unfold Pipeline.ΦA
    iintro ⟨Hp, -, Hr⟩
    isplitl [Hr]; · iexact Hr
    iexact Hp
  hout c := by
    rw [Pipeline.ownSems0_none]
    refine Idealize.SL.BI.BIBase.Entails.trans (Pool.hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, with the result named: every argument array ends as launched, and the result array holds what the gating
    region's write-backs leave. -/
theorem run_result : θ_run defs (onTc (τ := τ) (main (F := F))) ⟨m, fun _ => 0, ρ⟩ (fun r => ∀ c : Dev nD,
      r.2.mem ((c.tc : Thread nD τ).loc main_v9) = (Gate.dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_uc main_v9 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c => (h c).2) (run_result m ρ)

end Cert.Kernel.Whole

end
-- ==== Proof.KernelIdeal.PoolCases.lean ====
/-
  The pooling kernel's control cases and what its run is stated over.

  The grid is 8 batches by 4 sequence tiles, the tile coordinate innermost: point t is batch t / 4, tile t % 4.
  The body has two conditionals on the tile coordinate: at tile 0 it resets the three running rows (maximum,
  normaliser, weighted sum) before using them; at tile 3 it divides the weighted sum by the normaliser and stores
  the quotient into the output block. So a point is in one of three cases: the first tile of a batch (reset, no
  output), a middle tile (neither), the last tile (output, no reset). The output block is written back only
  after a last tile; elsewhere its buffer is handed back as found.
-/
import proofs.«103350_j47931835023376_2_alg».proof.Proof.Gen.KernelIdeal.Launch
import proofs.«103350_j47931835023376_2_alg».proof.Proof.Gen.KernelIdeal.Skeleton
import proofs.«103350_j47931835023376_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "This is the first tile of its batch": the body's first conditional, from the tile coordinate. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile of its batch": the body's second conditional. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- At a first tile the output window is idle and its block is not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At a middle tile likewise. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- At a last tile the output window is live: the body stores the quotient into it. -/
theorem liveAt0_6_C : ∀ t : Fin cfg0.N, ¬cond0_0 (grid0.coords t) → cond0_1 (grid0.coords t) → cfg0.idle 6 (grid0.coords t) = false := by decide +kernel

/-! ## The memrefs a point is run on -/

/-- One staging buffer of the output window, through which its contents are stated. -/
abbrev VO0_6 : View sig .tc .vmem S1x1x64 .f32 := (Memref.whole cc0_stg6_0 : Memref sig .tc .vmem S1x1x64 .f32).view
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The three running rows: the maximum, the normaliser, the weighted sum — whole scoped buffers of the kernel's own. -/
abbrev scM0_0 : Memref sig .tc .vmem S1x64 .f32 := Memref.whole cc0_scratch0
abbrev scM0_1 : Memref sig .tc .vmem S1x64 .f32 := Memref.whole cc0_scratch1
abbrev scM0_2 : Memref sig .tc .vmem S1x64 .f32 := Memref.whole cc0_scratch2
abbrev VS0_0 : View sig .tc .vmem S1x64 .f32 := scM0_0.view
abbrev VS0_1 : View sig .tc .vmem S1x64 .f32 := scM0_1.view
abbrev VS0_2 : View sig .tc .vmem S1x64 .f32 := scM0_2.view

/-- The scoped buffers this region never touches (the other region's staging buffers), each whole at some contents. -/
def Others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before its first point: the three running rows at anything, the untouched scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ Others (F := F) c) ∗ (∃ r, prngReg c r)) := by
  unfold Pipeline.ΦA Others; rw [scopedRest0_eq]; simp only [scM0_0, scM0_1, scM0_2, owns_whole]; try rfl

end Cert.KernelIdeal.Pool

end
-- ==== Proof.KernelIdeal.PoolRunA.lean ====
/-
  The pooling kernel's body run at the first tile of a batch (reset taken, output not taken).

  On whole memrefs — the six inputs at their contents, the output block at contents handed back untouched, the three running
  rows at anything (this case overwrites them before reading them) — the body runs to its continuation holding the inputs as they were,
  the output block as it was, and each running row with this point's stores written. The lists of stored pieces are
  found by the symbolic run; what they hold is read off them later.
-/
import proofs.«103350_j47931835023376_2_alg».proof.Proof.KernelIdeal.PoolCases

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at the first tile of a batch (reset taken, output not taken), with the run. -/
noncomputable def kernelRun0_A (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Pool

end
-- ==== Proof.KernelIdeal.PoolRunB.lean ====
/-
  The pooling kernel's body run at a middle tile (neither conditional taken).

  On whole memrefs — the six inputs at their contents, the output block at contents handed back untouched, the three running
  rows at what the point before left — the body runs to its continuation holding the inputs as they were,
  the output block as it was, and each running row with this point's stores written. The lists of stored pieces are
  found by the symbolic run; what they hold is read off them later.
-/
import proofs.«103350_j47931835023376_2_alg».proof.Proof.KernelIdeal.PoolRunA

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at a middle tile (neither conditional taken), with the run. -/
noncomputable def kernelRun0_B (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Pool

end
-- ==== Proof.KernelIdeal.PoolRunC.lean ====
/-
  The pooling kernel's body run at the last tile of a batch (reset not taken, output taken).

  On whole memrefs — the six inputs at their contents, the output block at anything, the three running
  rows at what the point before left — the body runs to its continuation holding the inputs as they were,
  the output block with the stored quotient written, and each running row with this point's stores written. The lists of stored pieces are
  found by the symbolic run; what they hold is read off them later.
-/
import proofs.«103350_j47931835023376_2_alg».proof.Proof.KernelIdeal.PoolRunB

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The stored pieces (last first) of the output block and of the three running rows at the last tile of a batch (reset not taken, output taken), with the run. -/
noncomputable def kernelRun0_C (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    Σ' (L6 : List (View.Piece (Elt F) S1x1x64 .f32)) (LS0 : List (View.Piece (Elt F) S1x64 .f32)) (LS1 : List (View.Piece (Elt F) S1x64 .f32)), { LS2 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Pool

end
-- ==== Proof.KernelIdeal.PoolRegion.lean ====
/-
  The pooling region point by point.

  What the output block's buffer and the three running rows (maximum, normaliser, weighted sum) hold after the body
  at each grid point, as a recursion over the points: a first tile starts from nothing (it resets the rows), every
  other tile continues from what the point before left in the rows. The region's invariant carries the three rows at
  exactly those contents from one point to the next; the proof data put each input's buffer at its block and the
  output's at the recursion's first component; the body obligation at a point is the case's run applied to them.
-/
import proofs.«103350_j47931835023376_2_alg».proof.Proof.KernelIdeal.PoolRunC

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stored pieces cover their buffers -/

/-- Case A's stored pieces of running row 0 cover it. -/
theorem scover0_A_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
/-- Case A's stored pieces of running row 1 cover it. -/
theorem scover0_A_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
/-- Case A's stored pieces of running row 2 cover it. -/
theorem scover0_A_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (y : S1x64.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1x64.size (by sl_kernel_rfl) y
/-- Case B's stored pieces of running row 0 cover it. -/
theorem scover0_B_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1x64.size (by sl_kernel_rfl) y
/-- Case B's stored pieces of running row 1 cover it. -/
theorem scover0_B_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1x64.size (by sl_kernel_rfl) y
/-- Case B's stored pieces of running row 2 cover it. -/
theorem scover0_B_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1x64.size (by sl_kernel_rfl) y
/-- Case C's stored pieces of running row 0 cover it. -/
theorem scover0_C_0 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1x64.size (by sl_kernel_rfl) y
/-- Case C's stored pieces of running row 1 cover it. -/
theorem scover0_C_1 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1x64.size (by sl_kernel_rfl) y
/-- Case C's stored pieces of running row 2 cover it. -/
theorem scover0_C_2 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1x64.size (by sl_kernel_rfl) y
/-- At a last tile the stored pieces of the output block cover it. -/
theorem cover0_C_6 (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S1x1x64.size (by sl_kernel_rfl) y

/-! ## What a point leaves, case by case -/

/-- What a point of case A leaves: (the output block's buffer, the three running rows), each read back from its stored pieces. -/
def runA (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
def ptA (c : Dev nD) (t : Fin cfg0.N) (h0 : t.val % 4 = 0) (h1 : ¬t.val % 4 = 3) : Vec F S1x1x64 .f32 × Vec F S1x64 .f32 × Vec F S1x64 .f32 × Vec F S1x64 .f32 :=
  (VO0_6.read (Elt F) (VO0_6.writes (Elt F) VO0_6.junk (runA V c t h0 h1).1),
   VS0_0.read (Elt F) (VS0_0.writes (Elt F) VS0_0.junk (runA V c t h0 h1).2.1),
   VS0_1.read (Elt F) (VS0_1.writes (Elt F) VS0_1.junk (runA V c t h0 h1).2.2.1),
   VS0_2.read (Elt F) (VS0_2.writes (Elt F) VS0_2.junk (runA V c t h0 h1).2.2.2.1))
/-- What a point of case B leaves: (the output block's buffer, the three running rows), each read back from its stored pieces. -/
def runB (c : Dev nD) (t : Fin cfg0.N) (h0 : ¬t.val % 4 = 0) (h1 : ¬t.val % 4 = 3) (p : Vec F S1x64 .f32 × Vec F S1x64 .f32 × Vec F S1x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.1 p.2.1 p.2.2
def ptB (c : Dev nD) (t : Fin cfg0.N) (h0 : ¬t.val % 4 = 0) (h1 : ¬t.val % 4 = 3) (p : Vec F S1x64 .f32 × Vec F S1x64 .f32 × Vec F S1x64 .f32) : Vec F S1x1x64 .f32 × Vec F S1x64 .f32 × Vec F S1x64 .f32 × Vec F S1x64 .f32 :=
  (VO0_6.read (Elt F) (VO0_6.writes (Elt F) VO0_6.junk (runB V c t h0 h1 p).1),
   VS0_0.read (Elt F) (VS0_0.writes (Elt F) VS0_0.junk (runB V c t h0 h1 p).2.1),
   VS0_1.read (Elt F) (VS0_1.writes (Elt F) VS0_1.junk (runB V c t h0 h1 p).2.2.1),
   VS0_2.read (Elt F) (VS0_2.writes (Elt F) VS0_2.junk (runB V c t h0 h1 p).2.2.2.1))
/-- What a point of case C leaves: (the output block's buffer, the three running rows), each read back from its stored pieces. -/
def runC (c : Dev nD) (t : Fin cfg0.N) (h0 : ¬t.val % 4 = 0) (h1 : t.val % 4 = 3) (p : Vec F S1x64 .f32 × Vec F S1x64 .f32 × Vec F S1x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
def ptC (c : Dev nD) (t : Fin cfg0.N) (h0 : ¬t.val % 4 = 0) (h1 : t.val % 4 = 3) (p : Vec F S1x64 .f32 × Vec F S1x64 .f32 × Vec F S1x64 .f32) : Vec F S1x1x64 .f32 × Vec F S1x64 .f32 × Vec F S1x64 .f32 × Vec F S1x64 .f32 :=
  (VO0_6.read (Elt F) (VO0_6.writes (Elt F) VO0_6.junk (runC V c t h0 h1 p).1),
   VS0_0.read (Elt F) (VS0_0.writes (Elt F) VS0_0.junk (runC V c t h0 h1 p).2.1),
   VS0_1.read (Elt F) (VS0_1.writes (Elt F) VS0_1.junk (runC V c t h0 h1 p).2.2.1),
   VS0_2.read (Elt F) (VS0_2.writes (Elt F) VS0_2.junk (runC V c t h0 h1 p).2.2.2.1))

/-! ## The accumulation over the points -/

/-- What the output block's buffer and the three running rows hold after the body at position `n`: the case the
    position is in, run at the point's memrefs and input blocks, the rows continued from position `n - 1`. -/
def outsAt0 (c : Dev nD) : (n : ℕ) → n < cfg0.N → Vec F S1x1x64 .f32 × Vec F S1x64 .f32 × Vec F S1x64 .f32 × Vec F S1x64 .f32
  | 0, hn => ptA V c ⟨0, hn⟩ (Nat.zero_mod _) (fun h => absurd (show 0 % 4 = 3 from h) (by decide))
  | n + 1, hn =>
    if h0 : (n + 1) % 4 = 0 then
      if h1 : (n + 1) % 4 = 3 then False.elim (by omega)
      else ptA V c ⟨n + 1, hn⟩ h0 h1
    else
      if h1 : (n + 1) % 4 = 3 then ptC V c ⟨n + 1, hn⟩ h0 h1 (outsAt0 c n (Nat.lt_of_succ_lt hn)).2
      else ptB V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = ptA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ptB V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = ptC V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point: the class's invariant (every scoped buffer at anything). Afterwards: the three running rows
    at what the point before left, the untouched scoped buffers, the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ Others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ Others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2 ∗ Others (F := F) c) ∗ (∃ r, prngReg c r)) := by
  cases n with
  | zero => exact absurd rfl hz
  | succ n => rfl

/-! ## The proof data -/

/-- The pooling pipeline's proof data on core `c`: the arrays as the region finds them; after the body at a point each
    input's buffer at its block and the output's at the accumulation's first component; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Region

end Cert.KernelIdeal.Pool

end
-- ==== Proof.KernelIdeal.PoolBody.lean ====
/-
  The pooling region's body obligation.

  At a point the body is handed each input's buffer at its block, the output block's buffer, and the invariant: the
  three running rows at what the point before left (at anything before the first point). The point's case applies
  its run; the rows come back at this point's contents, the output block's buffer at the stored quotient after a last
  tile and untouched elsewhere. Nothing is owed.
-/
import proofs.«103350_j47931835023376_2_alg».proof.Proof.KernelIdeal.PoolRegion

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the case the point is in applies its run. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold ptA runA; (try dsimp only)
      by_cases hz : t.val = 0
      · rw [PhiS_castSucc V c t, PhiS_zero V c _ _ hz, PhiA0_eq]
        iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HOth Hg]
        · isplitl [HS0 HS1 HS2 HOth]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HOth Hg]
        · isplitl [HS0 HS1 HS2 HOth]
          ·
            isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact HOth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold ptC runC; (try dsimp only)
      rw [PhiS_castSucc V c t, PhiS_pos V c _ _ hz]
      iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 HOth Hg]
      · isplitl [HS0 HS1 HS2 HOth]
        ·
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold ptB runB; (try dsimp only)
      rw [PhiS_castSucc V c t, PhiS_pos V c _ _ hz]
      iintro ⟨⟨⟨HS0, HS1, HS2, HOth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HOth Hg]
      · isplitl [HS0 HS1 HS2 HOth]
        ·
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HOth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the rows' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HOth⟩, Hg⟩
  isplitl [HS0 HS1 HS2 HOth]
  · isplitl [HS0]; · iexists _; iexact HS0
    isplitl [HS1]; · iexists _; iexact HS1
    isplitl [HS2]; · iexists _; iexact HS2
    iexact HOth
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Pool

end
-- ==== Proof.KernelIdeal.GateRegion.lean ====
/- The frame half of REGION 1 of @main — custom_call 1, the gate kernel (pipeline 1, grid 8×4) — at the
   TensorCore's buffer contents when the region is entered (a PARAMETER V), at any float model F.
   The body has one control case and every load and store is a whole literal rectangle: what it leaves in
   its output window's staging buffer is a closed function of the six input blocks at the point (the payload of
   its one store), and what it finds in each input's staging buffer is that window's block at the point, fetched
   there or not. Stated here: each window's block at a point (iblk1), the output buffer after the body (out1_6)
   and that it is the store's payload (out1_6_eq), the body's triple (sound_kernel1), the proof data (dat1) and
   the body obligation at every point (body_obligation1). -/
import proofs.«103350_j47931835023376_2_alg».proof.Proof.Gen.KernelIdeal.Launch
import proofs.«103350_j47931835023376_2_alg».proof.Proof.Gen.KernelIdeal.Skeleton
import proofs.«103350_j47931835023376_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is V's (hA) and whose body leaves the block in place (hafter): unfetched, the block index
    has not moved since the point before, so the block kept from there is this point's. The windows are uncut and
    never idle. One statement per input window: the query block (fetched at every point), the pooled weights
    (fetched when the batch changes), and the four operands fetched once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer, through the rectangle of the buffer's own sizes at offset zero -/

abbrev r1_q : Rect S1x1024x1024 := Rect.unit (s := S1x1024x1024) ![0, 0, 0] S1x1024x1024.size inb_S1x1024x1024_S1x1024x1024_0_0_0
abbrev r1_w : Rect S1x1x64 := Rect.unit (s := S1x1x64) ![0, 0, 0] S1x1x64.size inb_S1x1x64_S1x1x64_0_0_0
abbrev r1_wq : Rect S1024x64 := Rect.unit (s := S1024x64) ![0, 0] S1024x64.size inb_S1024x64_S1024x64_0_0
abbrev r1_bq : Rect S64 := Rect.unit (s := S64) ![0] S64.size inb_S64_S64_0
abbrev r1_wp : Rect S64x1024 := Rect.unit (s := S64x1024) ![0, 0] S64x1024.size inb_S64x1024_S64x1024_0_0
abbrev r1_bp : Rect S1024 := Rect.unit (s := S1024) ![0] S1024.size inb_S1024_S1024_0

/-! ## What the body leaves in the output window's buffer -/

/-- Window 6's staging buffer after the body, from the input windows' blocks (x0 the query block, x1 the pooled
    weights, x2 and x3 the first projection's matrix and bias, x4 and x5 the second's): its one store as a piece
    over the payload of the six loads. -/
def out1_6 (x0 : Vec F S1x1024x1024 .f32) (x1 : Vec F S1x1x64 .f32) (x2 : Vec F S1024x64 .bf16) (x3 : Vec F S64 .f32) (x4 : Vec F S64x1024 .bf16) (x5 : Vec F S1024 .f32) : Vec F S1x1024x1024 .f32 :=
  View.canon [⟨r1_q, k1_pay1 (View.ld x0 r1_q) (View.ld x2 r1_wq) (View.ld x3 r1_bq) (View.ld x1 r1_w) (View.ld x4 r1_wp) (View.ld x5 r1_bp)⟩]

/-- Its store is the whole buffer, so it covers it. -/
theorem cover1_6 (p0 : Vec F S1x1024x1024 .f32) (y : S1x1024x1024.Idx) :
    ∃ pc ∈ ([⟨r1_q, p0⟩] : List (View.Piece (Elt F) S1x1024x1024 .f32)), y ∈ pc.1.set :=
  View.cover_of_tiled [⟨r1_q, p0⟩] S1x1024x1024.size (by rfl) y

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One store through the whole buffer leaves its payload, and a load through a whole buffer reads its contents:
    the output buffer after the body is the payload of the six blocks. -/
theorem out1_6_eq (x0 : Vec F S1x1024x1024 .f32) (x1 : Vec F S1x1x64 .f32) (x2 : Vec F S1024x64 .bf16) (x3 : Vec F S64 .f32) (x4 : Vec F S64x1024 .bf16) (x5 : Vec F S1024 .f32) :
    out1_6 x0 x1 x2 x3 x4 x5 = k1_pay1 x0 x2 x3 x1 x4 x5 := by
  unfold out1_6
  rw [View.canon_unit_zero hz3]
  rw [View.ld_unit_zero (S := S1x1024x1024) hz3, View.ld_unit_zero (S := S1024x64) hz2, View.ld_unit_zero (S := S64) hz1,
    View.ld_unit_zero (S := S1x1x64) hz3, View.ld_unit_zero (S := S64x1024) hz2, View.ld_unit_zero (S := S1024) hz1]

/-! ## The body's triple -/

set_option maxHeartbeats 1000000 in
/-- The kernel body on whole staging memrefs, the inputs' at read contents xW and the output's at anything, runs to
    the continuation holding the inputs' as they were and the output's at out1_6 of the inputs': the printed
    function is its skeleton, seven whole-buffer loads (the last of the output buffer, its value unused) and one
    whole-buffer store of the payload. -/
theorem sound_kernel1 (c : Dev nD) (E : Set ℕ) (i : grid1.Coords)
    (arg2 : Memref sig .tc .vmem S1x1024x1024 .f32) (harg2 : arg2.IsWhole) (arg3 : Memref sig .tc .vmem S1x1x64 .f32) (harg3 : arg3.IsWhole)
    (arg4 : Memref sig .tc .vmem S1024x64 .bf16) (harg4 : arg4.IsWhole) (arg5 : Memref sig .tc .vmem S64 .f32) (harg5 : arg5.IsWhole)
    (arg6 : Memref sig .tc .vmem S64x1024 .bf16) (harg6 : arg6.IsWhole) (arg7 : Memref sig .tc .vmem S1024 .f32) (harg7 : arg7.IsWhole)
    (arg8 : Memref sig .tc .vmem S1x1024x1024 .f32) (harg8 : arg8.IsWhole)
    (x0 : Vec F S1x1024x1024 .f32) (x1 : Vec F S1x1x64 .f32) (x2 : Vec F S1024x64 .bf16) (x3 : Vec F S64 .f32) (x4 : Vec F S64x1024 .bf16) (x5 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__gate_kernel i arg2 harg2 arg3 harg3 arg4 harg4 arg5 harg5 arg6 harg6 arg7 harg7 arg8 harg8) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core c: the arrays as the region finds them (V); after the body at point t
    each input's buffer at its block and the output's at out1_6 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gate

end
-- ==== Proof.KernelIdeal.WholeRun.lean ====
/-
  The whole program's run.

  @main is three items: a stretch of host operations (each weight matrix transposed and its format changed), the
  pooling region, the gating region. Between items a core holds every unscoped buffer at a named valuation: the launch
  memory; then the host stretch applied to it; then, after a region, its windows' arrays at what the region's
  write-backs leave and every other buffer as before. No item writes an argument array, so each argument reads back
  through the valuations to the launch memory; the gating region's output array is the program's result.
-/
import proofs.«103350_j47931835023376_2_alg».proof.Proof.KernelIdeal.PoolBody
import proofs.«103350_j47931835023376_2_alg».proof.Proof.KernelIdeal.GateRegion
import proofs.«103350_j47931835023376_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- After the host stretch (the pooling region's entry). -/
abbrev W1 : Dev nD → Valuation τ sig (Elt F) := fun c => Gen.V1 m c
abbrev V1 : (c : Dev nD) → (b : Ref sig .tc) → Buf (Elt F) ((c : Thread nD τ).loc b) := fun c b => W1 m c b
/-- At the pooling region's exit: its arrays at what its write-backs leave, every other buffer as entered. -/
def W2 (c : Dev nD) : Valuation τ sig (Elt F) :=
  Pipeline.withArrays spec0 c (W1 m c) fun w => (Pool.dat0 (V1 m) c).arrAt w cfg0.N
theorem W2_arr (c : Dev nD) (w : Fin cfg0.W) :
    W2 m c (Proc.devRef .tc (Pipeline.arrRef spec0 w)) = (Pool.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Pool.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the gating region's exit (the end of @main). -/
def W3 (c : Dev nD) : Valuation τ sig (Elt F) :=
  Pipeline.withArrays spec1 c (W2 m c) fun w => (Gate.dat1 (V2 m) c).arrAt w cfg1.N
theorem W3_arr (c : Dev nD) (w : Fin cfg1.W) :
    W3 m c (Proc.devRef .tc (Pipeline.arrRef spec1 w)) = (Gate.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Gate.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The program's result array at the end: what the gating region's write-backs leave in it. -/
theorem W3_result (c : Dev nD) : W3 m c (Proc.devRef .tc main_v9) = (Gate.dat1 (V2 m) c).arrAt 6 cfg1.N :=
  W3_arr m c 6

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Gate.dat1 (V2 m) c).arrAt_in 0 rfl _).trans (Gate.A_eq1 (V2 m) c 0))
    _ = W1 m c (Proc.devRef .tc main_arg0) := W2_of_ne m c main_arg0 (by decide)
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((Pool.dat0 (V1 m) c).arrAt_in 0 rfl _).trans (Pool.A_eq0 (V1 m) c 0))
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((Pool.dat0 (V1 m) c).arrAt_in 1 rfl _).trans (Pool.A_eq0 (V1 m) c 1))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 3).trans (((Gate.dat1 (V2 m) c).arrAt_in 3 rfl _).trans (Gate.A_eq1 (V2 m) c 3))
    _ = W1 m c (Proc.devRef .tc main_arg4) := W2_of_ne m c main_arg4 (by decide)
    _ = m ((c : Thread nD τ).loc main_arg4) := (Gen.V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (Gen.V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 3).trans (((Pool.dat0 (V1 m) c).arrAt_in 3 rfl _).trans (Pool.A_eq0 (V1 m) c 3))
    _ = m ((c : Thread nD τ).loc main_arg6) := (Gen.V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := (Gen.V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 5).trans (((Pool.dat0 (V1 m) c).arrAt_in 5 rfl _).trans (Pool.A_eq0 (V1 m) c 5))
    _ = m ((c : Thread nD τ).loc main_arg8) := (Gen.V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (Gen.V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 5).trans (((Gate.dat1 (V2 m) c).arrAt_in 5 rfl _).trans (Gate.A_eq1 (V2 m) c 5))
    _ = W1 m c (Proc.devRef .tc main_arg10) := W2_of_ne m c main_arg10 (by decide)
    _ = m ((c : Thread nD τ).loc main_arg10) := (Gen.V1_of m c main_arg10 (by decide)).trans rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Pool.dat0 (V1 m) c
  | ⟨1, _⟩ => fun c => Gate.dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Pool.hin0 (V1 m) c)
    unfold Pipeline.ΦA
    iintro ⟨Hp, -, Hr⟩
    isplitl [Hr]; · iexact Hr
    iexact Hp
  hout c := by
    rw [Pipeline.ownSems0_none]
    refine Idealize.SL.BI.BIBase.Entails.trans (Pool.hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    in every final state each unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, with the result named: every argument array ends as launched, and the result array holds what the gating
    region's write-backs leave. -/
theorem run_result : θ_run defs (onTc (τ := τ) (main (F := F))) ⟨m, fun _ => 0, ρ⟩ (fun r => ∀ c : Dev nD,
      r.2.mem ((c.tc : Thread nD τ).loc main_v9) = (Gate.dat1 (V2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_uc main_v9 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c)⟩) (run_all m ρ)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c => (h c).2) (run_result m ρ)

end Cert.KernelIdeal.Whole

end
-- ==== Proof.KernelIdeal.HostGlue.lean ====
/-
  What the host stretch leaves, read at an index.

  Before the first region the program transposes each weight matrix and changes its storage format; over the extended
  reals the format change is the identity.  So the transposed projection weights read, at (d, h), the argument at
  (h, d), and the transposed output weights read, at (h, δ), the argument at (δ, h).
-/
import proofs.«103350_j47931835023376_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Final

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The transposed query weights as the host stretch leaves them. -/
theorem v1_eq : (Gen.V1 m c (Proc.devRef .tc main_v1) : S1024x64.Idx → EReal)
    = truncf (F := Ideal) .bf16
        (transpose S1024x64 [1, 0] (m ((c : Thread nD τ).loc main_arg3)) transposes_S64x1024_S1024x64_1_0)
        bitsLt_bf16_f32 := by
  dsimp only [Gen.V1, Gen.V0, Gen.hostOps0]
  after_results

/-- At (d, h) they read the argument at (h, d). -/
theorem v1_apply (d : Fin 1024) (h : Fin 64) :
    Gen.V1 m c (Proc.devRef .tc main_v1) (ix2 d h) = m ((c : Thread nD τ).loc main_arg3) (ix2 h d) := by
  refine (congrFun (v1_eq m c) (ix2 d h)).trans ?_
  exact transpose_ix2_apply _ _ d h

/-- The transposed key weights as the host stretch leaves them. -/
theorem v3_eq : (Gen.V1 m c (Proc.devRef .tc main_v3) : S1024x64.Idx → EReal)
    = truncf (F := Ideal) .bf16
        (transpose S1024x64 [1, 0] (m ((c : Thread nD τ).loc main_arg5)) transposes_S64x1024_S1024x64_1_0)
        bitsLt_bf16_f32 := by
  dsimp only [Gen.V1, Gen.V0, Gen.hostOps0]
  after_results

/-- At (d, h) they read the argument at (h, d). -/
theorem v3_apply (d : Fin 1024) (h : Fin 64) :
    Gen.V1 m c (Proc.devRef .tc main_v3) (ix2 d h) = m ((c : Thread nD τ).loc main_arg5) (ix2 h d) := by
  refine (congrFun (v3_eq m c) (ix2 d h)).trans ?_
  exact transpose_ix2_apply _ _ d h

/-- The transposed value weights as the host stretch leaves them. -/
theorem v5_eq : (Gen.V1 m c (Proc.devRef .tc main_v5) : S1024x64.Idx → EReal)
    = truncf (F := Ideal) .bf16
        (transpose S1024x64 [1, 0] (m ((c : Thread nD τ).loc main_arg7)) transposes_S64x1024_S1024x64_1_0)
        bitsLt_bf16_f32 := by
  dsimp only [Gen.V1, Gen.V0, Gen.hostOps0]
  after_results

/-- At (d, h) they read the argument at (h, d). -/
theorem v5_apply (d : Fin 1024) (h : Fin 64) :
    Gen.V1 m c (Proc.devRef .tc main_v5) (ix2 d h) = m ((c : Thread nD τ).loc main_arg7) (ix2 h d) := by
  refine (congrFun (v5_eq m c) (ix2 d h)).trans ?_
  exact transpose_ix2_apply _ _ d h

/-- The transposed output weights as the host stretch leaves them. -/
theorem v7_eq : (Gen.V1 m c (Proc.devRef .tc main_v7) : S64x1024.Idx → EReal)
    = truncf (F := Ideal) .bf16
        (transpose S64x1024 [1, 0] (m ((c : Thread nD τ).loc main_arg9)) transposes_S1024x64_S64x1024_1_0)
        bitsLt_bf16_f32 := by
  dsimp only [Gen.V1, Gen.V0, Gen.hostOps0]
  after_results

/-- At (h, δ) they read the argument at (δ, h). -/
theorem v7_apply (h : Fin 64) (δ : Fin 1024) :
    Gen.V1 m c (Proc.devRef .tc main_v7) (ix2 h δ) = m ((c : Thread nD τ).loc main_arg9) (ix2 δ h) := by
  refine (congrFun (v7_eq m c) (ix2 h δ)).trans ?_
  exact transpose_ix2_apply _ _ h δ

end Cert.KernelIdeal.Final

end
-- ==== Proof.Spec.lean ====
/-
  What both programs compute, index by index, over the extended reals.

  Three sequences x ∈ [8, 4096, 1024] (query, key, value) are each projected onto 64 hidden units,
  `proj x W b (β, n, h) = Σ_d x(β, n, d) · W(h, d) + b(h)`.  For each batch β and unit h the key column
  `k n = proj key Wk bk (β, n, h)` is turned into softmax weights over the 4096 rows,
  `exp (k n − M) / S` with `M = max_n k n` and `S = Σ_n exp (k n − M)`, and the value column is pooled with
  them: `pool k v = Σ_n (exp (k n − M) / S) · v n`.  The result at (β, n, δ) gates the pooled row by the logistic
  of the query's projection and maps it back to 1024 features:
  `Σ_h (logistic (proj query Wq bq (β, n, h)) · pooled (β, h)) · Wp(δ, h) + bp(δ)`.

  The second half of the file is the same pooled value computed tile by tile: the 4096 rows in four tiles of 1024,
  carrying a running maximum `m`, a running normaliser `l` and a running weighted sum `acc`, each rescaled by
  `exp (m_old − m_new)` when the maximum moves; the pooled value is then `acc / l`.  That the two agree (for real
  columns) is `online_eq_pool`, proved in its own module.
-/
import Idealize.ShloMosaic.PureOps.Ideal
import Idealize.ShloMosaic.Lib.ValueIdx

noncomputable section

namespace Cert.PoolGate

open Idealize.ShloMosaic Idealize.ShloMosaic.ValueIdx

/-- A [8, 4096, 1024] array of extended reals. -/
abbrev Seq : Type := (⟨3, ![8, 4096, 1024]⟩ : Shape).Idx → EReal
/-- A [64, 1024] weight matrix, a [64] bias, the [1024, 64] output matrix and its [1024] bias. -/
abbrev Wt : Type := (⟨2, ![64, 1024]⟩ : Shape).Idx → EReal
abbrev Bias : Type := (⟨1, ![64]⟩ : Shape).Idx → EReal
abbrev WtOut : Type := (⟨2, ![1024, 64]⟩ : Shape).Idx → EReal
abbrev BiasOut : Type := (⟨1, ![1024]⟩ : Shape).Idx → EReal

/-- Row (β, n) of `x` against row `h` of `W`, plus the bias: `Σ_d x(β, n, d) · W(h, d) + b(h)`. -/
def proj (x : Seq) (W : Wt) (b : Bias) (β : Fin 8) (n : Fin 4096) (h : Fin 64) : EReal :=
  (∑ d : Fin 1024, x (ix3 β n d) * W (ix2 h d)) + b (ix1 h)

/-- The maximum of a column over its 4096 rows (from −∞). -/
def colMax (k : Fin 4096 → EReal) : EReal := (Finset.univ : Finset (Fin 4096)).fold max ⊥ k

/-- The normaliser `Σ_n exp (k n − max k)`. -/
def colSum (k : Fin 4096 → EReal) : EReal := ∑ n : Fin 4096, Ideal.exp (k n - colMax k)

/-- The softmax-weighted pooled value of a column: `Σ_n (exp (k n − max k) / colSum k) · v n`. -/
def pool (k v : Fin 4096 → EReal) : EReal :=
  ∑ n : Fin 4096, Ideal.div (Ideal.exp (k n - colMax k)) (colSum k) * v n

/-- The pooled value of batch β at hidden unit h. -/
def pooled (key value : Seq) (Wk : Wt) (bk : Bias) (Wv : Wt) (bv : Bias) (β : Fin 8) (h : Fin 64) : EReal :=
  pool (fun n => proj key Wk bk β n h) (fun n => proj value Wv bv β n h)

/-- The result at (β, n, δ). -/
def outAt (query key value : Seq) (Wq : Wt) (bq : Bias) (Wk : Wt) (bk : Bias) (Wv : Wt) (bv : Bias)
    (Wp : WtOut) (bp : BiasOut) (β : Fin 8) (n : Fin 4096) (δ : Fin 1024) : EReal :=
  (∑ h : Fin 64, (Ideal.logistic (proj query Wq bq β n h) * pooled key value Wk bk Wv bv β h) * Wp (ix2 δ h))
    + bp (ix1 δ)

/-- The whole result array. -/
def out (query key value : Seq) (Wq : Wt) (bq : Bias) (Wk : Wt) (bk : Bias) (Wv : Wt) (bv : Bias)
    (Wp : WtOut) (bp : BiasOut) : Seq :=
  fun i => outAt query key value Wq bq Wk bk Wv bv Wp bp (i 0) (i 1) (i 2)

/-! ## The same pooled value, tile by tile -/

/-- Row `r` of tile `T` of a column: row `1024·T + r`. -/
def tile (k : Fin 4096 → EReal) (T : Fin 4) (r : Fin 1024) : EReal :=
  k ⟨1024 * T.val + r.val, by have := T.isLt; have := r.isLt; omega⟩

/-- One tile absorbed into the running (maximum, normaliser, weighted sum): the maximum moves to
    `m' = max m (max over the tile)`, the two sums are rescaled by `exp (m − m')` and the tile's terms
    `exp (k r − m')` and `exp (k r − m') · v r` are added. -/
def step (k v : Fin 1024 → EReal) (s : EReal × EReal × EReal) : EReal × EReal × EReal :=
  let m' := max s.1 ((Finset.univ : Finset (Fin 1024)).fold max ⊥ k)
  (m', Ideal.exp (s.1 - m') * s.2.1 + ∑ r : Fin 1024, Ideal.exp (k r - m'),
       Ideal.exp (s.1 - m') * s.2.2 + ∑ r : Fin 1024, Ideal.exp (k r - m') * v r)

/-- The running triple after the first `t` tiles, from (−∞, 0, 0). -/
def online (k v : Fin 4096 → EReal) : (t : ℕ) → t ≤ 4 → EReal × EReal × EReal
  | 0, _ => (⊥, 0, 0)
  | t + 1, ht => step (tile k ⟨t, ht⟩) (tile v ⟨t, ht⟩) (online k v t (Nat.le_of_succ_le ht))

/-- The pooled value as the tiles leave it: weighted sum over normaliser after all four tiles. -/
def onlinePool (k v : Fin 4096 → EReal) : EReal :=
  Ideal.div (online k v 4 le_rfl).2.2 (online k v 4 le_rfl).2.1

end Cert.PoolGate

end
-- ==== Proof.TileSpec.lean ====
/-
  One grid point's share of the computation, over the blocks a point sees.

  A point holds one tile of a sequence, a [1, 1024, 1024] block `x`, the transposed weights `WT` ∈ [1024, 64]
  and a bias `b` ∈ [64]; its projection is `tileProj x WT b r h = Σ_d x(0, r, d) · WT(d, h) + b(h)`.
  The gate's point then forms, for row r and output feature δ,
  `Σ_h (logistic (tileProj q WqT bq r h) · w(0, 0, h)) · WpT(h, δ) + bp(δ)`.
-/
import proofs.«103350_j47931835023376_2_alg».proof.Proof.Spec

noncomputable section

namespace Cert.PoolGate

open Idealize.ShloMosaic Idealize.ShloMosaic.ValueIdx

/-- Row `r` of a [1, 1024, 1024] block against column `h` of the transposed weights, plus the bias. -/
def tileProj (x : (⟨3, ![1, 1024, 1024]⟩ : Shape).Idx → EReal) (WT : (⟨2, ![1024, 64]⟩ : Shape).Idx → EReal)
    (b : (⟨1, ![64]⟩ : Shape).Idx → EReal) (r : Fin 1024) (h : Fin 64) : EReal :=
  (∑ d : Fin 1024, x (ix3 0 r d) * WT (ix2 d h)) + b (ix1 h)

/-- The gate's point at row `r`, output feature `δ`: the logistic of the query's projection times the pooled row,
    mapped through the transposed output weights, plus the output bias. -/
def gateTile (q : (⟨3, ![1, 1024, 1024]⟩ : Shape).Idx → EReal) (w : (⟨3, ![1, 1, 64]⟩ : Shape).Idx → EReal)
    (WqT : (⟨2, ![1024, 64]⟩ : Shape).Idx → EReal) (bq : (⟨1, ![64]⟩ : Shape).Idx → EReal)
    (WpT : (⟨2, ![64, 1024]⟩ : Shape).Idx → EReal) (bp : (⟨1, ![1024]⟩ : Shape).Idx → EReal)
    (r : Fin 1024) (δ : Fin 1024) : EReal :=
  (∑ h : Fin 64, (Ideal.logistic (tileProj q WqT bq r h) * w (ix3 0 0 h)) * WpT (ix2 h δ)) + bp (ix1 δ)

/-! ## The two regions' results over whole arrays, with the weights as the kernel holds them (transposed) -/

/-- Row (β, n) of `x` against column `h` of transposed weights `WT` ∈ [1024, 64], plus the bias. -/
def projT (x : Seq) (WT : (⟨2, ![1024, 64]⟩ : Shape).Idx → EReal) (b : Bias) (β : Fin 8) (n : Fin 4096) (h : Fin 64) : EReal :=
  (∑ d : Fin 1024, x (ix3 β n d) * WT (ix2 d h)) + b (ix1 h)

/-- The pooled value of batch β at unit h as the tiles leave it: the running sums after the four tiles of the key and
    value columns, weighted sum over normaliser. -/
def poolAt (key value : Seq) (WkT : (⟨2, ![1024, 64]⟩ : Shape).Idx → EReal) (bk : Bias)
    (WvT : (⟨2, ![1024, 64]⟩ : Shape).Idx → EReal) (bv : Bias) (β : Fin 8) (h : Fin 64) : EReal :=
  onlinePool (fun n => projT key WkT bk β n h) (fun n => projT value WvT bv β n h)

/-- The gate's result at (β, n, δ) from the query, a pooled array `w` ∈ [8, 1, 64] and the transposed weights. -/
def gateAt (q : Seq) (w : (⟨3, ![8, 1, 64]⟩ : Shape).Idx → EReal) (WqT : (⟨2, ![1024, 64]⟩ : Shape).Idx → EReal) (bq : Bias)
    (WpT : (⟨2, ![64, 1024]⟩ : Shape).Idx → EReal) (bp : BiasOut) (β : Fin 8) (n : Fin 4096) (δ : Fin 1024) : EReal :=
  (∑ h : Fin 64, (Ideal.logistic (projT q WqT bq β n h) * w (ix3 β 0 h)) * WpT (ix2 h δ)) + bp (ix1 δ)

end Cert.PoolGate

end
-- ==== Proof.KernelIdeal.GateValue.lean ====
/- The value of REGION 1 of @main — the gate kernel — over the extended reals.
   First the body's payload read at an index: with the six blocks a point sees, the output block at (0, r, δ) is
   Σ_h (logistic (Σ_d q(0, r, d) · WqT(d, h) + bq(h)) · w(0, 0, h)) · WpT(h, δ) + bp(δ): the two contractions are
   sums over their one contracted axis, the casts between [1, a, b] and [a, b] and the row broadcasts only move the
   index, and rounding to bf16 is the identity over the extended reals. Then the array the region leaves: every point
   writes back the block of ONE whole-array function of the arrays the region finds, and the 32 blocks cover the array. -/
import proofs.«103350_j47931835023376_2_alg».proof.Proof.KernelIdeal.GateRegion
import proofs.«103350_j47931835023376_2_alg».proof.Proof.TileSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.GateValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The two contractions at an index -/

/-- The first contraction's operand indices: the left operand's row is the output's row, -/
theorem lhsQ_0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- its column the contracted coordinate; -/
theorem lhsQ_1 (j : S1024x64.Idx) (q : dot_S1024x1024_S1024x64_S1024x64_1_0_0_1_n_n.contr.Idx) :
    (dot_S1024x1024_S1024x64_S1024x64_1_0_0_1_n_n.lhsIdx j q 1).val = (q ⟨0, by decide⟩).val :=
  dot_S1024x1024_S1024x64_S1024x64_1_0_0_1_n_n.lhsIdx_val_of_single rfl j q
/-- the right operand's row is the contracted coordinate, -/
theorem rhsQ_0 (j : S1024x64.Idx) (q : dot_S1024x1024_S1024x64_S1024x64_1_0_0_1_n_n.contr.Idx) :
    (dot_S1024x1024_S1024x64_S1024x64_1_0_0_1_n_n.rhsIdx j q 0).val = (q ⟨0, by decide⟩).val :=
  dot_S1024x1024_S1024x64_S1024x64_1_0_0_1_n_n.rhsIdx_val_of_single rfl j q
/-- its column the output's column. -/
theorem rhsQ_1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A [1024, 1024] by [1024, 64] contraction into the zero accumulator, at (r, h): Σ_d lhs(r, d) · rhs(d, h). -/
theorem matmulQ_apply (lhs : FVec Ideal S1024x1024 .bf16) (rhs : FVec Ideal S1024x64 .bf16) (r : Fin 1024) (h : Fin 64) :
    matmul dot_S1024x1024_S1024x64_S1024x64_1_0_0_1_n_n none lhs rhs (constant (F := Ideal) S1024x64 .f32 0x00000000#32) (ix2 r h)
      = ∑ d : Fin 1024, lhs (ix2 r d) * rhs (ix2 d h) := by
  refine (Ideal.matmul_constant_zero_apply dot_S1024x1024_S1024x64_S1024x64_1_0_0_1_n_n none lhs rhs (ix2 r h)).trans ?_
  rw [← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 r h) ((ValueIdx.contrEquiv1 dot_S1024x1024_S1024x64_S1024x64_1_0_0_1_n_n 1024 rfl rfl).symm k) = ix2 r k := funext fun a => Fin.ext (by
    match a with
    | ⟨0, _⟩ => exact lhsQ_0 _ _
    | ⟨1, _⟩ => exact (lhsQ_1 _ _).trans hk)
  have er : dot_S1024x1024_S1024x64_S1024x64_1_0_0_1_n_n.rhsIdx (ix2 r h) ((ValueIdx.contrEquiv1 dot_S1024x1024_S1024x64_S1024x64_1_0_0_1_n_n 1024 rfl rfl).symm k) = ix2 k h := funext fun a => Fin.ext (by
    match a with
    | ⟨0, _⟩ => exact (rhsQ_0 _ _).trans hk
    | ⟨1, _⟩ => exact rhsQ_1 _ _)
  rw [el, er]

/-- The second contraction's operand indices, likewise. -/
theorem lhsP_0 (j : S1024x1024.Idx) (q : dot_S1024x64_S64x1024_S1024x1024_1_0_0_1_n_n.contr.Idx) :
    (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhsP_1 (j : S1024x1024.Idx) (q : dot_S1024x64_S64x1024_S1024x1024_1_0_0_1_n_n.contr.Idx) :
    (dot_S1024x64_S64x1024_S1024x1024_1_0_0_1_n_n.lhsIdx j q 1).val = (q ⟨0, by decide⟩).val :=
  dot_S1024x64_S64x1024_S1024x1024_1_0_0_1_n_n.lhsIdx_val_of_single rfl j q
theorem rhsP_0 (j : S1024x1024.Idx) (q : dot_S1024x64_S64x1024_S1024x1024_1_0_0_1_n_n.contr.Idx) :
    (dot_S1024x64_S64x1024_S1024x1024_1_0_0_1_n_n.rhsIdx j q 0).val = (q ⟨0, by decide⟩).val :=
  dot_S1024x64_S64x1024_S1024x1024_1_0_0_1_n_n.rhsIdx_val_of_single rfl j q
theorem rhsP_1 (j : S1024x1024.Idx) (q : dot_S1024x64_S64x1024_S1024x1024_1_0_0_1_n_n.contr.Idx) :
    (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A [1024, 64] by [64, 1024] contraction into the zero accumulator, at (r, δ): Σ_h lhs(r, h) · rhs(h, δ). -/
theorem matmulP_apply (lhs : FVec Ideal S1024x64 .bf16) (rhs : FVec Ideal S64x1024 .bf16) (r : Fin 1024) (δ : Fin 1024) :
    matmul dot_S1024x64_S64x1024_S1024x1024_1_0_0_1_n_n none lhs rhs (constant (F := Ideal) S1024x1024 .f32 0x00000000#32) (ix2 r δ)
      = ∑ h : Fin 64, lhs (ix2 r h) * rhs (ix2 h δ) := by
  refine (Ideal.matmul_constant_zero_apply dot_S1024x64_S64x1024_S1024x1024_1_0_0_1_n_n none lhs rhs (ix2 r δ)).trans ?_
  rw [← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 r δ) ((ValueIdx.contrEquiv1 dot_S1024x64_S64x1024_S1024x1024_1_0_0_1_n_n 64 rfl rfl).symm k) = ix2 r k := funext fun a => Fin.ext (by
    match a with
    | ⟨0, _⟩ => exact lhsP_0 _ _
    | ⟨1, _⟩ => exact (lhsP_1 _ _).trans hk)
  have er : dot_S1024x64_S64x1024_S1024x1024_1_0_0_1_n_n.rhsIdx (ix2 r δ) ((ValueIdx.contrEquiv1 dot_S1024x64_S64x1024_S1024x1024_1_0_0_1_n_n 64 rfl rfl).symm k) = ix2 k δ := funext fun a => Fin.ext (by
    match a with
    | ⟨0, _⟩ => exact (rhsP_0 _ _).trans hk
    | ⟨1, _⟩ => exact rhsP_1 _ _)
  rw [el, er]

/-! ## The payload at an index -/

/-- Rounding to bf16 is the identity over the extended reals. -/
theorem trunc_bf16_apply {s : Shape} (a : FVec Ideal s .f32) (i : s.Idx) :
    (truncf .bf16 a bitsLt_bf16_f32 : FVec Ideal s .bf16) i = a i := rfl

/-- The logistic of a vector at an index. -/
theorem logistic_apply {s : Shape} (a : FVec Ideal s .f32) (i : s.Idx) : logistic a i = Ideal.logistic (a i) := rfl

/-- The first projection of the payload at (r, h): the query block's row r against column h of the transposed
    weights, plus the bias. -/
theorem proj_apply (v0 : Vec Ideal S1x1024x1024 .f32) (v3 : Vec Ideal S1024x64 .bf16) (v5 : Vec Ideal S64 .f32) (r : Fin 1024) (h : Fin 64) :
    (addf (matmul dot_S1024x1024_S1024x64_S1024x64_1_0_0_1_n_n none
          (truncf .bf16 (shapeCast S1024x1024 v0 shapeCasts_S1x1024x1024_S1024x1024 : FVec Ideal S1024x1024 .f32) bitsLt_bf16_f32 : FVec Ideal S1024x1024 .bf16)
          (shapeCast S1024x64 v3 shapeCasts_S1024x64_S1024x64 : FVec Ideal S1024x64 .bf16) (constant (F := Ideal) S1024x64 .f32 0x00000000#32))
        (broadcastTo S1024x64 (shapeCast S1x64 v5 shapeCasts_S64_S1x64 : FVec Ideal S1x64 .f32) broadcasts_S1x64_S1024x64) : FVec Ideal S1024x64 .f32) (ix2 r h)
      = Cert.PoolGate.tileProj v0 v3 v5 r h := by
  refine (addf_apply _ _ _).trans ?_
  unfold Cert.PoolGate.tileProj
  refine congrArg₂ (· + ·) ?_ ?_
  · refine (matmulQ_apply _ _ r h).trans ?_
    refine Finset.sum_congr rfl fun d _ => ?_
    refine congrArg₂ (· * ·) ?_ ?_
    · refine (trunc_bf16_apply _ _).trans ?_
      exact shapeCast_1ab_ab_apply v0 shapeCasts_S1x1024x1024_S1024x1024 r d
    · rw [shapeCast_self]
  · refine (broadcastTo_1b_ab_apply _ broadcasts_S1x64_S1024x64 r h).trans ?_
    exact shapeCast_a_1a_apply v5 shapeCasts_S64_S1x64 0 h

/-- THE PAYLOAD AT AN INDEX: the body's one store, at (0, r, δ) of the output block, is the gate's point over the six
    blocks. -/
theorem pay1_apply (v0 : Vec Ideal S1x1024x1024 .f32) (v3 : Vec Ideal S1024x64 .bf16) (v5 : Vec Ideal S64 .f32) (v10 : Vec Ideal S1x1x64 .f32) (v15 : Vec Ideal S64x1024 .bf16) (v17 : Vec Ideal S1024 .f32) (r δ : Fin 1024) :
    k1_pay1 (F := Ideal) v0 v3 v5 v10 v15 v17 (ValueIdx.ix3 0 r δ) = Cert.PoolGate.gateTile v0 v10 v3 v5 v15 v17 r δ := by
  unfold k1_pay1
  refine (shapeCast_ab_1ab_apply _ shapeCasts_S1024x1024_S1x1024x1024 0 r δ).trans ?_
  refine (addf_apply _ _ _).trans ?_
  unfold Cert.PoolGate.gateTile
  refine congrArg₂ (· + ·) ?_ ?_
  · refine (matmulP_apply _ _ r δ).trans ?_
    refine Finset.sum_congr rfl fun h _ => ?_
    refine congrArg₂ (· * ·) ?_ ?_
    · refine (trunc_bf16_apply _ _).trans ?_
      refine (mulf_apply _ _ _).trans ?_
      refine congrArg₂ (· * ·) ?_ ?_
      · refine (logistic_apply _ _).trans ?_
        exact congrArg Ideal.logistic (proj_apply v0 v3 v5 r h)
      · refine (broadcastTo_1b_ab_apply _ broadcasts_S1x64_S1024x64 r h).trans ?_
        exact shapeCast_1ab_ab_apply v10 shapeCasts_S1x1x64_S1x64 0 h
    · rw [shapeCast_self]
  · refine (broadcastTo_1b_ab_apply _ broadcasts_S1x1024_S1024x1024 r δ).trans ?_
    exact shapeCast_a_1a_apply v17 shapeCasts_S1024_S1x1024 0 δ

/-! ## From blocks to the array -/

/-- The gate's point over blocks that are the arrays read where the point's rectangle says is the gate's result over
    the arrays: row r of the query block is row n of batch β, the pooled block is batch β's row, the four operands
    fetched once are their whole arrays. -/
theorem tile_eq_at (q : Cert.PoolGate.Seq) (w : (⟨3, ![8, 1, 64]⟩ : Shape).Idx → EReal) (WqT : (⟨2, ![1024, 64]⟩ : Shape).Idx → EReal)
    (bq : Cert.PoolGate.Bias) (WpT : (⟨2, ![64, 1024]⟩ : Shape).Idx → EReal) (bp : Cert.PoolGate.BiasOut)
    (x0 : Vec Ideal S1x1024x1024 .f32) (x1 : Vec Ideal S1x1x64 .f32) (x2 : Vec Ideal S1024x64 .bf16) (x3 : Vec Ideal S64 .f32)
    (x4 : Vec Ideal S64x1024 .bf16) (x5 : Vec Ideal S1024 .f32) (β : Fin 8) (n : Fin 4096) (r δ : Fin 1024)
    (h0 : ∀ d : Fin 1024, x0 (ix3 0 r d) = q (ix3 β n d)) (h1 : ∀ h : Fin 64, x1 (ix3 0 0 h) = w (ix3 β 0 h))
    (h2 : ∀ (d : Fin 1024) (h : Fin 64), x2 (ix2 d h) = WqT (ix2 d h)) (h3 : ∀ h : Fin 64, x3 (ix1 h) = bq (ix1 h))
    (h4 : ∀ (h : Fin 64) (δ : Fin 1024), x4 (ix2 h δ) = WpT (ix2 h δ)) (h5 : ∀ δ : Fin 1024, x5 (ix1 δ) = bp (ix1 δ)) :
    Cert.PoolGate.gateTile x0 x1 x2 x3 x4 x5 r δ = Cert.PoolGate.gateAt q w WqT bq WpT bp β n δ := by
  unfold Cert.PoolGate.gateTile Cert.PoolGate.gateAt Cert.PoolGate.tileProj Cert.PoolGate.projT
  simp only [h0, h1, h2, h3, h4, h5]

/-- The gate's result does not see how its three coordinates are spelt. -/
theorem gateAt_congr (q : Cert.PoolGate.Seq) (w : (⟨3, ![8, 1, 64]⟩ : Shape).Idx → EReal) (WqT : (⟨2, ![1024, 64]⟩ : Shape).Idx → EReal)
    (bq : Cert.PoolGate.Bias) (WpT : (⟨2, ![64, 1024]⟩ : Shape).Idx → EReal) (bp : Cert.PoolGate.BiasOut)
    (β β' : Fin 8) (n n' : Fin 4096) (δ δ' : Fin 1024) (hβ : β.val = β'.val) (hn : n.val = n'.val) (hδ : δ.val = δ'.val) :
    Cert.PoolGate.gateAt q w WqT bq WpT bp β n δ = Cert.PoolGate.gateAt q w WqT bq WpT bp β' n' δ' := by
  obtain rfl := Fin.ext hβ; obtain rfl := Fin.ext hn; obtain rfl := Fin.ext hδ; rfl

variable (V : (c : Dev nD) → (b : Ref sig .tc) → Buf (Elt Ideal) ((c : Thread nD τ).loc b))

/-- What the region's output array ends holding: the gate's result of the arrays the region finds. -/
abbrev G (c : Dev nD) : Buf (Elt Ideal) ((c : Thread nD τ).loc main_v9) := fun i =>
  Cert.PoolGate.gateAt (V c main_arg0) (V c main_v8) (V c main_v1) (V c main_arg4) (V c main_v7) (V c main_arg10) (i 0) (i 1) (i 2)

/-- The printed index maps, decided over the grid: the query block moves with the output block (batch, row tile); the
    pooled block with its batch; the four other operands stay at block zero; the output's block indices stay in range. -/
theorem idx_facts : ∀ t : Fin cfg1.N,
    win1_0.index t (0 : Fin 3) = win1_6.index t (0 : Fin 3) ∧ win1_0.index t (1 : Fin 3) = win1_6.index t (1 : Fin 3)
    ∧ win1_0.index t (2 : Fin 3) = 0 ∧ win1_6.index t (2 : Fin 3) = 0
    ∧ win1_1.index t (0 : Fin 3) = win1_6.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 3) ≤ 7 ∧ win1_6.index t (1 : Fin 3) ≤ 3 :=
  (by decide +kernel : ∀ t : Fin grid1.N, _)

/-- Every (batch, row tile) is SOME point's output block. -/
theorem idx_onto : ∀ (q0 : Fin 8) (q1 : Fin 4), ∃ t : Fin cfg1.N, win1_6.index t = ![q0.val, q1.val, 0] :=
  (by decide +kernel : ∀ (q0 : Fin 8) (q1 : Fin 4), ∃ t : Fin grid1.N, win1_6.index t = ![q0.val, q1.val, 0])

/-- The query window's block at point t read at x is the query array at k, when k's coordinates are the block's
    index times its size plus x's. -/
theorem blkQ_apply (c : Dev nD) (t : Fin cfg1.N) (x : S1x1024x1024.Idx) (k : S8x4096x1024.Idx)
    (h0 : win1_0.index t (0 : Fin 3) * 1 + 1 * (x 0).val = (k 0).val)
    (h1 : win1_0.index t (1 : Fin 3) * 1024 + 1 * (x 1).val = (k 1).val)
    (h2 : win1_0.index t (2 : Fin 3) * 1024 + 1 * (x 2).val = (k 2).val) :
    (Cert.KernelIdeal.Gate.iblk1 V c 0 t : Vec Ideal S1x1024x1024 .f32) x = (V c main_arg0 : S8x4096x1024.Idx → EReal) k := by
  unfold Cert.KernelIdeal.Gate.iblk1
  rw [View.read_apply]
  show V c main_arg0 _ = V c main_arg0 _
  congr 1
  funext a
  apply Fin.ext
  match a with
  | ⟨0, _⟩ => exact h0
  | ⟨1, _⟩ => exact h1
  | ⟨2, _⟩ => exact h2

/-- The pooled window's block likewise. -/
theorem blkW_apply (c : Dev nD) (t : Fin cfg1.N) (x : S1x1x64.Idx) (k : S8x1x64.Idx)
    (h0 : win1_1.index t (0 : Fin 3) * 1 + 1 * (x 0).val = (k 0).val)
    (h1 : win1_1.index t (1 : Fin 3) * 1 + 1 * (x 1).val = (k 1).val)
    (h2 : win1_1.index t (2 : Fin 3) * 64 + 1 * (x 2).val = (k 2).val) :
    (Cert.KernelIdeal.Gate.iblk1 V c 1 t : Vec Ideal S1x1x64 .f32) x = (V c main_v8 : S8x1x64.Idx → EReal) k := by
  unfold Cert.KernelIdeal.Gate.iblk1
  rw [View.read_apply]
  show V c main_v8 _ = V c main_v8 _
  congr 1
  funext a
  apply Fin.ext
  match a with
  | ⟨0, _⟩ => exact h0
  | ⟨1, _⟩ => exact h1
  | ⟨2, _⟩ => exact h2

/-- The first projection's matrix, fetched once: its block at any point is the whole array. -/
theorem blkWq_apply (c : Dev nD) (t : Fin cfg1.N) (x : S1024x64.Idx)
    (h0 : win1_2.index t (0 : Fin 2) = 0) (h1 : win1_2.index t (1 : Fin 2) = 0) :
    (Cert.KernelIdeal.Gate.iblk1 V c 2 t : Vec Ideal S1024x64 .bf16) x = (V c main_v1 : S1024x64.Idx → EReal) x := by
  unfold Cert.KernelIdeal.Gate.iblk1
  rw [View.read_apply]
  show V c main_v1 _ = V c main_v1 _
  congr 1
  funext a
  apply Fin.ext
  match a with
  | ⟨0, _⟩ => show win1_2.index t (0 : Fin 2) * 1024 + 1 * (x 0).val = (x 0).val; rw [h0]; omega
  | ⟨1, _⟩ => show win1_2.index t (1 : Fin 2) * 64 + 1 * (x 1).val = (x 1).val; rw [h1]; omega

/-- Its bias likewise. -/
theorem blkBq_apply (c : Dev nD) (t : Fin cfg1.N) (x : S64.Idx) (h0 : win1_3.index t (0 : Fin 1) = 0) :
    (Cert.KernelIdeal.Gate.iblk1 V c 3 t : Vec Ideal S64 .f32) x = (V c main_arg4 : S64.Idx → EReal) x := by
  unfold Cert.KernelIdeal.Gate.iblk1
  rw [View.read_apply]
  show V c main_arg4 _ = V c main_arg4 _
  congr 1
  funext a
  apply Fin.ext
  match a with
  | ⟨0, _⟩ => show win1_3.index t (0 : Fin 1) * 64 + 1 * (x 0).val = (x 0).val; rw [h0]; omega

/-- The second projection's matrix likewise. -/
theorem blkWp_apply (c : Dev nD) (t : Fin cfg1.N) (x : S64x1024.Idx)
    (h0 : win1_4.index t (0 : Fin 2) = 0) (h1 : win1_4.index t (1 : Fin 2) = 0) :
    (Cert.KernelIdeal.Gate.iblk1 V c 4 t : Vec Ideal S64x1024 .bf16) x = (V c main_v7 : S64x1024.Idx → EReal) x := by
  unfold Cert.KernelIdeal.Gate.iblk1
  rw [View.read_apply]
  show V c main_v7 _ = V c main_v7 _
  congr 1
  funext a
  apply Fin.ext
  match a with
  | ⟨0, _⟩ => show win1_4.index t (0 : Fin 2) * 64 + 1 * (x 0).val = (x 0).val; rw [h0]; omega
  | ⟨1, _⟩ => show win1_4.index t (1 : Fin 2) * 1024 + 1 * (x 1).val = (x 1).val; rw [h1]; omega

/-- Its bias likewise. -/
theorem blkBp_apply (c : Dev nD) (t : Fin cfg1.N) (x : S1024.Idx) (h0 : win1_5.index t (0 : Fin 1) = 0) :
    (Cert.KernelIdeal.Gate.iblk1 V c 5 t : Vec Ideal S1024 .f32) x = (V c main_arg10 : S1024.Idx → EReal) x := by
  unfold Cert.KernelIdeal.Gate.iblk1
  rw [View.read_apply]
  show V c main_arg10 _ = V c main_arg10 _
  congr 1
  funext a
  apply Fin.ext
  match a with
  | ⟨0, _⟩ => show win1_5.index t (0 : Fin 1) * 1024 + 1 * (x 0).val = (x 0).val; rw [h0]; omega

/-- WHAT POINT t WRITES BACK is block t of G of the arrays as the region finds them: the point (β, T) of the grid
    holds rows 1024·T … 1024·T + 1023 of batch β. -/
theorem flushed_eq (c : Dev nD) (t : Fin cfg1.N) :
    (Cert.KernelIdeal.Gate.dat1 (F := Ideal) V c).flushed 6 t = ((cfg1.win 6).blk t).view.read (Elt Ideal) (G V c) := by
  show (cfg1.win 6).cut (grid1.coords t) ((Cert.KernelIdeal.Gate.dat1 (F := Ideal) V c).after 6 t) = _
  rw [Cert.KernelIdeal.Gate.after1_6, Cert.KernelIdeal.Gate.out1_6_eq]
  obtain ⟨e00, e01, e02, e62, e10, e11, e12, e20, e21, e30, e40, e41, e50, b0, b1⟩ := idx_facts t
  funext j
  have hj0 : (j 0).val < 1 := (j 0).isLt
  have hj1 : (j 1).val < 1024 := (j 1).isLt
  have hj2 : (j 2).val < 1024 := (j 2).isLt
  have hx : (cfg1.win 6).xinj (grid1.coords t) j = (ix3 (0 : Fin 1) (⟨(j 1).val, hj1⟩ : Fin 1024) (⟨(j 2).val, hj2⟩ : Fin 1024) : S1x1024x1024.Idx) :=
    funext fun a => Fin.ext (by
      match a with
      | ⟨0, _⟩ => show (j 0).val = 0; omega
      | ⟨1, _⟩ => rfl
      | ⟨2, _⟩ => rfl)
  show k1_pay1 (F := Ideal) (Cert.KernelIdeal.Gate.iblk1 V c 0 t) (Cert.KernelIdeal.Gate.iblk1 V c 2 t) (Cert.KernelIdeal.Gate.iblk1 V c 3 t)
      (Cert.KernelIdeal.Gate.iblk1 V c 1 t) (Cert.KernelIdeal.Gate.iblk1 V c 4 t) (Cert.KernelIdeal.Gate.iblk1 V c 5 t)
      ((cfg1.win 6).xinj (grid1.coords t) j)
    = Cert.PoolGate.gateAt (V c main_arg0) (V c main_v8) (V c main_v1) (V c main_arg4) (V c main_v7) (V c main_arg10)
      ((((cfg1.win 6).blk t).view.emb j) 0) ((((cfg1.win 6).blk t).view.emb j) 1) ((((cfg1.win 6).blk t).view.emb j) 2)
  refine (congrArg (k1_pay1 (F := Ideal) (Cert.KernelIdeal.Gate.iblk1 V c 0 t) (Cert.KernelIdeal.Gate.iblk1 V c 2 t) (Cert.KernelIdeal.Gate.iblk1 V c 3 t)
      (Cert.KernelIdeal.Gate.iblk1 V c 1 t) (Cert.KernelIdeal.Gate.iblk1 V c 4 t) (Cert.KernelIdeal.Gate.iblk1 V c 5 t)) hx).trans ?_
  refine (pay1_apply (Cert.KernelIdeal.Gate.iblk1 V c 0 t) (Cert.KernelIdeal.Gate.iblk1 V c 2 t) (Cert.KernelIdeal.Gate.iblk1 V c 3 t)
      (Cert.KernelIdeal.Gate.iblk1 V c 1 t) (Cert.KernelIdeal.Gate.iblk1 V c 4 t) (Cert.KernelIdeal.Gate.iblk1 V c 5 t) ⟨(j 1).val, hj1⟩ ⟨(j 2).val, hj2⟩).trans ?_
  refine (tile_eq_at (V c main_arg0) (V c main_v8) (V c main_v1) (V c main_arg4) (V c main_v7) (V c main_arg10)
      (Cert.KernelIdeal.Gate.iblk1 V c 0 t) (Cert.KernelIdeal.Gate.iblk1 V c 1 t) (Cert.KernelIdeal.Gate.iblk1 V c 2 t)
      (Cert.KernelIdeal.Gate.iblk1 V c 3 t) (Cert.KernelIdeal.Gate.iblk1 V c 4 t) (Cert.KernelIdeal.Gate.iblk1 V c 5 t)
      ⟨win1_6.index t (0 : Fin 3), by omega⟩ ⟨win1_6.index t (1 : Fin 3) * 1024 + (j 1).val, by omega⟩ ⟨(j 1).val, hj1⟩ ⟨(j 2).val, hj2⟩
      ?_ ?_ ?_ ?_ ?_ ?_).trans ?_
  · intro d
    refine blkQ_apply V c t _ _ ?_ ?_ ?_
    · show win1_0.index t (0 : Fin 3) * 1 + 1 * 0 = win1_6.index t (0 : Fin 3); omega
    · show win1_0.index t (1 : Fin 3) * 1024 + 1 * (j 1).val = win1_6.index t (1 : Fin 3) * 1024 + (j 1).val; omega
    · show win1_0.index t (2 : Fin 3) * 1024 + 1 * d.val = d.val; omega
  · intro h
    refine blkW_apply V c t _ _ ?_ ?_ ?_
    · show win1_1.index t (0 : Fin 3) * 1 + 1 * 0 = win1_6.index t (0 : Fin 3); omega
    · show win1_1.index t (1 : Fin 3) * 1 + 1 * 0 = 0; omega
    · show win1_1.index t (2 : Fin 3) * 64 + 1 * h.val = h.val; omega
  · intro d h; exact blkWq_apply V c t _ e20 e21
  · intro h; exact blkBq_apply V c t _ e30
  · intro h δ; exact blkWp_apply V c t _ e40 e41
  · intro δ; exact blkBp_apply V c t _ e50
  · refine gateAt_congr _ _ _ _ _ _ _ _ _ _ _ _ ?_ ?_ ?_
    · show win1_6.index t (0 : Fin 3) = win1_6.index t (0 : Fin 3) * 1 + 1 * (j 0).val; omega
    · show win1_6.index t (1 : Fin 3) * 1024 + (j 1).val = win1_6.index t (1 : Fin 3) * 1024 + 1 * (j 1).val; omega
    · show (j 2).val = win1_6.index t (2 : Fin 3) * 1024 + 1 * (j 2).val; omega

/-- An index of the array is in point t's block iff each coordinate is in the block's range on its axis. -/
theorem mem_blk (t : Fin cfg1.N) (i : S8x4096x1024.Idx) :
    i ∈ ((cfg1.win 6).blk t).view.set ↔ ∀ a : Fin 3, win1_6.index t a * S1x1024x1024.size a ≤ (i a).val ∧ (i a).val < win1_6.index t a * S1x1024x1024.size a + S1x1024x1024.size a := by
  show i ∈ ((View.whole main_v9).slice (win1_6.rect t)).set ↔ _
  rw [View.set_slice_whole, Rect.mem_set_unit]
  exact Iff.rfl

/-- Every index of the array is in some point's block: (β, n, δ) in the block of batch β and row tile n / 1024. -/
theorem cover (i : S8x4096x1024.Idx) : ∃ t : Fin cfg1.N, (cfg1.win 6).flush t = true ∧ i ∈ ((cfg1.win 6).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win1_6.index t (0 : Fin 3) = (i 0).val := congrFun ht 0
  have q1 : win1_6.index t (1 : Fin 3) = (i 1).val / 1024 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 1024 ≤ (i 2).val ∧ (i 2).val < win1_6.index t (2 : Fin 3) * 1024 + 1024; omega

/-- THE ARRAY the region leaves: the gate's result of the arrays it finds, at every index. -/
theorem gate_final (c : Dev nD) :
    (Cert.KernelIdeal.Gate.dat1 (F := Ideal) V c).arrAt 6 cfg1.N = fun i => Cert.PoolGate.gateAt (V c main_arg0) (V c main_v8) (V c main_v1) (V c main_arg4) (V c main_v7) (V c main_arg10) (i 0) (i 1) (i 2) :=
  (Cert.KernelIdeal.Gate.dat1 (F := Ideal) V c).arrAt_eq_of_cover 6 (G V c) (fun t _ => flushed_eq V c t) cover

end Cert.KernelIdeal.GateValue

end
-- ==== Proof.KernelIdeal.PoolBlocks.lean ====
/- The pooling region's blocks and its output window's cover, over the extended reals.
   The grid is 8 × 4 with the row tile innermost: point t holds batch t / 4 and row tile t % 4. The key and value
   windows' blocks at point t are rows 1024·(t % 4) … 1024·(t % 4) + 1023 of batch t / 4 of their arrays; the four
   operands fetched once are their whole arrays; the output window's block is row (t / 4, 0, ·) of the pooled array,
   written back at the last tile of each batch only, and those eight blocks cover the array. -/
import proofs.«103350_j47931835023376_2_alg».proof.Proof.KernelIdeal.PoolRegion
import proofs.«103350_j47931835023376_2_alg».proof.Proof.TileSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.PoolBlocks

open Cert.KernelIdeal Cert.KernelIdeal.Gen Cert.KernelIdeal.Pool
open Idealize.ShloMosaic Idealize.ShloMosaic.TcCoe Idealize.SL.Sem Idealize.ShloMosaic.ValueIdx
open Idealize.ShloMosaic.Pipeline (Dat Cfg Window)

/-! ## A point's batch, row tile and rows -/

theorem N_lt (t : Fin cfg0.N) : t.val < 32 := by
  have h := t.isLt
  have hN : cfg0.N = 32 := N_0
  omega

/-- The batch of point t: t / 4. -/
abbrev batchOf (t : Fin cfg0.N) : Fin 8 := ⟨t.val / 4, by have := N_lt t; omega⟩
/-- Its row tile: t % 4. -/
abbrev tileOf (t : Fin cfg0.N) : Fin 4 := ⟨t.val % 4, by omega⟩
/-- Row r of its tile, as a row of the sequence: 1024 · (t % 4) + r. -/
abbrev rowOf (t : Fin cfg0.N) (r : Fin 1024) : Fin 4096 := ⟨1024 * (t.val % 4) + r.val, by have := r.isLt; omega⟩

/-- The printed index maps, decided over the grid: the key and value blocks sit at (batch, row tile, 0); the four
    operands fetched once at block zero; the output block at (batch, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 4 ∧ win0_6.index t (1 : Fin 3) = 0 ∧ win0_6.index t (2 : Fin 3) = 0 :=
  (by decide +kernel : ∀ t : Fin grid0.N, _)

/-- Every batch's last tile is a point, and its output block is the batch's. -/
theorem idx_onto : ∀ q0 : Fin 8, ∃ t : Fin cfg0.N, t.val % 4 = 3 ∧ win0_6.index t = ![q0.val, 0, 0] :=
  (by decide +kernel : ∀ q0 : Fin 8, ∃ t : Fin grid0.N, t.val % 4 = 3 ∧ win0_6.index t = ![q0.val, 0, 0])

variable (V : (c : Dev nD) → (b : Ref sig .tc) → Buf (Elt Ideal) ((c : Thread nD τ).loc b))

/-! ## The input windows' blocks as their arrays -/

/-- The key window's block at point t, at (0, r, d): the key array at (batch, row, d). -/
theorem blkK_apply (c : Dev nD) (t : Fin cfg0.N) (r d : Fin 1024) :
    (iblk0 V c 0 t : Vec Ideal S1x1024x1024 .f32) (ix3 0 r d) = (V c main_arg1 : S8x4096x1024.Idx → EReal) (ix3 (batchOf t) (rowOf t r) d) := by
  obtain ⟨e00, e01, e02, -⟩ := idx_facts t
  unfold iblk0
  rw [View.read_apply]
  show V c main_arg1 _ = V c main_arg1 _
  congr 1
  funext a
  apply Fin.ext
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 1024 + 1 * d.val = d.val; omega

/-- The value window's block likewise. -/
theorem blkV_apply (c : Dev nD) (t : Fin cfg0.N) (r d : Fin 1024) :
    (iblk0 V c 1 t : Vec Ideal S1x1024x1024 .f32) (ix3 0 r d) = (V c main_arg2 : S8x4096x1024.Idx → EReal) (ix3 (batchOf t) (rowOf t r) d) := by
  obtain ⟨-, -, -, e10, e11, e12, -⟩ := idx_facts t
  unfold iblk0
  rw [View.read_apply]
  show V c main_arg2 _ = V c main_arg2 _
  congr 1
  funext a
  apply Fin.ext
  match a with
  | ⟨0, _⟩ => show win0_1.index t (0 : Fin 3) * 1 + 1 * 0 = t.val / 4; omega
  | ⟨1, _⟩ => show win0_1.index t (1 : Fin 3) * 1024 + 1 * r.val = 1024 * (t.val % 4) + r.val; omega
  | ⟨2, _⟩ => show win0_1.index t (2 : Fin 3) * 1024 + 1 * d.val = d.val; omega

/-- The key projection's matrix, fetched once: its block at any point is the whole array. -/
theorem blkWk_eq (c : Dev nD) (t : Fin cfg0.N) :
    (iblk0 V c 2 t : S1024x64.Idx → EReal) = (V c main_v3 : S1024x64.Idx → EReal) := by
  obtain ⟨-, -, -, -, -, -, e20, e21, -⟩ := idx_facts t
  funext x
  unfold iblk0
  rw [View.read_apply]
  show V c main_v3 _ = V c main_v3 _
  congr 1
  funext a
  apply Fin.ext
  match a with
  | ⟨0, _⟩ => show win0_2.index t (0 : Fin 2) * 1024 + 1 * (x 0).val = (x 0).val; omega
  | ⟨1, _⟩ => show win0_2.index t (1 : Fin 2) * 64 + 1 * (x 1).val = (x 1).val; omega

/-- Its bias likewise. -/
theorem blkBk_eq (c : Dev nD) (t : Fin cfg0.N) :
    (iblk0 V c 3 t : S64.Idx → EReal) = (V c main_arg6 : S64.Idx → EReal) := by
  obtain ⟨-, -, -, -, -, -, -, -, e30, -⟩ := idx_facts t
  funext x
  unfold iblk0
  rw [View.read_apply]
  show V c main_arg6 _ = V c main_arg6 _
  congr 1
  funext a
  apply Fin.ext
  match a with
  | ⟨0, _⟩ => show win0_3.index t (0 : Fin 1) * 64 + 1 * (x 0).val = (x 0).val; omega

/-- The value projection's matrix likewise. -/
theorem blkWv_eq (c : Dev nD) (t : Fin cfg0.N) :
    (iblk0 V c 4 t : S1024x64.Idx → EReal) = (V c main_v5 : S1024x64.Idx → EReal) := by
  obtain ⟨-, -, -, -, -, -, -, -, -, e40, e41, -⟩ := idx_facts t
  funext x
  unfold iblk0
  rw [View.read_apply]
  show V c main_v5 _ = V c main_v5 _
  congr 1
  funext a
  apply Fin.ext
  match a with
  | ⟨0, _⟩ => show win0_4.index t (0 : Fin 2) * 1024 + 1 * (x 0).val = (x 0).val; omega
  | ⟨1, _⟩ => show win0_4.index t (1 : Fin 2) * 64 + 1 * (x 1).val = (x 1).val; omega

/-- Its bias likewise. -/
theorem blkBv_eq (c : Dev nD) (t : Fin cfg0.N) :
    (iblk0 V c 5 t : S64.Idx → EReal) = (V c main_arg8 : S64.Idx → EReal) := by
  obtain ⟨-, -, -, -, -, -, -, -, -, -, -, e50, -⟩ := idx_facts t
  funext x
  unfold iblk0
  rw [View.read_apply]
  show V c main_arg8 _ = V c main_arg8 _
  congr 1
  funext a
  apply Fin.ext
  match a with
  | ⟨0, _⟩ => show win0_5.index t (0 : Fin 1) * 64 + 1 * (x 0).val = (x 0).val; omega

/-! ## A point's projections as rows of the whole arrays' projections -/

/-- The key tile's projection at row r is row 1024·(t % 4) + r of batch t / 4 of the key's projection. -/
theorem tileK_eq (c : Dev nD) (t : Fin cfg0.N) (r : Fin 1024) (h : Fin 64) :
    Cert.PoolGate.tileProj (iblk0 V c 0 t) (iblk0 V c 2 t) (iblk0 V c 3 t) r h
      = Cert.PoolGate.tile (fun n => Cert.PoolGate.projT (V c main_arg1) (V c main_v3) (V c main_arg6) (batchOf t) n h) (tileOf t) r := by
  unfold Cert.PoolGate.tileProj Cert.PoolGate.tile Cert.PoolGate.projT
  beta_reduce
  refine congrArg₂ (· + ·) (Finset.sum_congr rfl fun d _ => congrArg₂ (· * ·) (blkK_apply V c t r d) ?_) ?_
  · exact congrFun (blkWk_eq V c t) (ix2 d h)
  · exact congrFun (blkBk_eq V c t) (ix1 h)

/-- The value tile's projection likewise. -/
theorem tileV_eq (c : Dev nD) (t : Fin cfg0.N) (r : Fin 1024) (h : Fin 64) :
    Cert.PoolGate.tileProj (iblk0 V c 1 t) (iblk0 V c 4 t) (iblk0 V c 5 t) r h
      = Cert.PoolGate.tile (fun n => Cert.PoolGate.projT (V c main_arg2) (V c main_v5) (V c main_arg8) (batchOf t) n h) (tileOf t) r := by
  unfold Cert.PoolGate.tileProj Cert.PoolGate.tile Cert.PoolGate.projT
  beta_reduce
  refine congrArg₂ (· + ·) (Finset.sum_congr rfl fun d _ => congrArg₂ (· * ·) (blkV_apply V c t r d) ?_) ?_
  · exact congrFun (blkWv_eq V c t) (ix2 d h)
  · exact congrFun (blkBv_eq V c t) (ix1 h)

/-! ## The output window: what a last tile writes back, and the cover -/

/-- WHAT A FLUSHING POINT WRITES BACK is its block of G, for ANY whole-array G that the output buffer after each
    batch's last tile is row (batch, 0, ·) of. -/
theorem flushed6_of (c : Dev nD) (G : Buf (Elt Ideal) ((cfg0.win 6).arr.view.loc (c.tc : Thread nD τ)))
    (hG : ∀ t : Fin cfg0.N, t.val % 4 = 3 → ∀ h : Fin 64,
      ((outsAt0 V c t.val t.isLt).1 : Vec Ideal S1x1x64 .f32) (ix3 0 0 h) = (G : S8x1x64.Idx → EReal) (ix3 (batchOf t) 0 h)) :
    ∀ t, (cfg0.win 6).flush t = true → (dat0 V c).flushed 6 t = ((cfg0.win 6).blk t).view.read (Elt Ideal) G := by
  intro t hf
  have h3 : t.val % 4 = 3 := (flush0_6 t).mp hf
  obtain ⟨-, -, -, -, -, -, -, -, -, -, -, -, e60, e61, e62⟩ := idx_facts t
  show (cfg0.win 6).cut (grid0.coords t) ((dat0 V c).after 6 t) = _
  rw [after0_6]
  funext j
  have hj0 : (j 0).val < 1 := (j 0).isLt
  have hj1 : (j 1).val < 1 := (j 1).isLt
  have hj2 : (j 2).val < 64 := (j 2).isLt
  have hx : (cfg0.win 6).xinj (grid0.coords t) j = (ix3 (0 : Fin 1) (0 : Fin 1) (⟨(j 2).val, hj2⟩ : Fin 64) : S1x1x64.Idx) :=
    funext fun a => Fin.ext (by
      match a with
      | ⟨0, _⟩ => show (j 0).val = 0; omega
      | ⟨1, _⟩ => show (j 1).val = 0; omega
      | ⟨2, _⟩ => rfl)
  show ((outsAt0 V c t.val t.isLt).1 : Vec Ideal S1x1x64 .f32) ((cfg0.win 6).xinj (grid0.coords t) j)
    = (G : S8x1x64.Idx → EReal) (((cfg0.win 6).blk t).view.emb j)
  refine (congrArg ((outsAt0 V c t.val t.isLt).1 : Vec Ideal S1x1x64 .f32) hx).trans ?_
  refine (hG t h3 ⟨(j 2).val, hj2⟩).trans ?_
  refine congrArg (G : S8x1x64.Idx → EReal) (funext fun a => Fin.ext ?_)
  match a with
  | ⟨0, _⟩ => show t.val / 4 = win0_6.index t (0 : Fin 3) * 1 + 1 * (j 0).val; omega
  | ⟨1, _⟩ => show 0 = win0_6.index t (1 : Fin 3) * 1 + 1 * (j 1).val; omega
  | ⟨2, _⟩ => show (j 2).val = win0_6.index t (2 : Fin 3) * 64 + 1 * (j 2).val; omega

/-- An index of the pooled array is in point t's block iff each coordinate is in the block's range on its axis. -/
theorem mem_blk6 (t : Fin cfg0.N) (i : S8x1x64.Idx) :
    i ∈ ((cfg0.win 6).blk t).view.set ↔ ∀ a : Fin 3, win0_6.index t a * S1x1x64.size a ≤ (i a).val ∧ (i a).val < win0_6.index t a * S1x1x64.size a + S1x1x64.size a := by
  show i ∈ ((View.whole main_v8).slice (win0_6.rect t)).set ↔ _
  rw [View.set_slice_whole, Rect.mem_set_unit]
  exact Iff.rfl

/-- Every index of the pooled array is in some FLUSHING point's block: (β, 0, h) in the block of point 4β + 3. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro i
  have hi0 : (i 0).val < 8 := (i 0).isLt
  have hi1 : (i 1).val < 1 := (i 1).isLt
  have hi2 : (i 2).val < 64 := (i 2).isLt
  obtain ⟨t, h3, ht⟩ := idx_onto ⟨(i 0).val, hi0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, (flush0_6 t).mpr h3, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 64 ≤ (i 2).val ∧ (i 2).val < win0_6.index t (2 : Fin 3) * 64 + 64; omega

/-- THE ARRAY the pooling region leaves is G, for any G as above. -/
theorem arr6_of (c : Dev nD) (G : Buf (Elt Ideal) ((cfg0.win 6).arr.view.loc (c.tc : Thread nD τ)))
    (hG : ∀ t : Fin cfg0.N, t.val % 4 = 3 → ∀ h : Fin 64,
      ((outsAt0 V c t.val t.isLt).1 : Vec Ideal S1x1x64 .f32) (ix3 0 0 h) = (G : S8x1x64.Idx → EReal) (ix3 (batchOf t) 0 h)) :
    (dat0 V c).arrAt 6 cfg0.N = G :=
  (dat0 V c).arrAt_eq_of_cover 6 G (flushed6_of V c G hG) (cover6 c)

end Cert.KernelIdeal.PoolBlocks

end
-- ==== Proof.KernelIdeal.PoolRows.lean ====
/-
  What each running row holds after a point, as a pure term of the point's blocks.

  At a middle or last tile each row is one whole-row store: the new maximum `max m (tile max)`, the new normaliser
  `exp (m − m') · l + Σ exp (k − m')` and the new weighted sum `exp (m − m') · acc + Σ exp (k − m') · v`, over the
  rows `m`, `l`, `acc` the point before left. At a first tile the same terms over the reset values (−∞, 0, 0), which the
  body stores first and reads back. At a last tile the output block receives the quotient of the new weighted sum by
  the new normaliser.
-/
import proofs.«103350_j47931835023376_2_alg».proof.Proof.KernelIdeal.PoolRegion
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin S64.rank → Nat) = fun _ => 0 := by funext a; fin_cases a; rfl
theorem hz2 : (![0, 0] : Fin S1x64.rank → Nat) = fun _ => 0 := by funext a; fin_cases a <;> rfl
theorem hz2w : (![0, 0] : Fin S1024x64.rank → Nat) = fun _ => 0 := by funext a; fin_cases a <;> rfl
theorem hz3 : (![0, 0, 0] : Fin S1x1024x1024.rank → Nat) = fun _ => 0 := by funext a; fin_cases a <;> rfl
theorem hz3o : (![0, 0, 0] : Fin S1x1x64.rank → Nat) = fun _ => 0 := by funext a; fin_cases a <;> rfl

/-- Running row 0 after a point of case A. -/
theorem row0_A (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) :
    v.read (Elt F) (v.writes (Elt F) v.junk (kernelRun0_A c i arg2 harg2 arg3 harg3 arg4 harg4 arg5 harg5 arg6 harg6 arg7 harg7 arg8 harg8 arg9 harg9 arg10 harg10 arg11 harg11 hc0 hc1 x0 x1 x2 x3 x4 x5).2.1) = k0_pay3 (k0_pay10 x0 x2 x3 (k0_pay5 (F := F))) := by
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  refine (View.canon_cons_unit_zero hz2 _ _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 1 after a point of case A. -/
theorem row1_A (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) :
    v.read (Elt F) (v.writes (Elt F) v.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1) = k0_pay1 (k0_pay13 x0 x2 x3 (k0_pay5 (F := F)) (k0_pay6 (F := F))) (k0_pay14 x0 x2 x3 (k0_pay5 (F := F))) := by
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  refine (View.canon_cons_unit_zero hz2 _ _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 2 after a point of case A. -/
theorem row2_A (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) :
    v.read (Elt F) (v.writes (Elt F) v.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1) = k0_pay2 (k0_pay9 x1 x4 x5) (k0_pay11 x0 x2 x3 (k0_pay5 (F := F))) (k0_pay12 x0 x2 x3 (k0_pay5 (F := F))) (k0_pay7 (F := F)) := by
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  refine (View.canon_cons_unit_zero hz2 _ _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 0 after a point of case B. -/
theorem row0_B (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1) = k0_pay3 (k0_pay10 x0 x2 x3 xs0) := by
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 1 after a point of case B. -/
theorem row1_B (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1) = k0_pay1 (k0_pay13 x0 x2 x3 xs0 xs1) (k0_pay14 x0 x2 x3 xs0) := by
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 2 after a point of case B. -/
theorem row2_B (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1) = k0_pay2 (k0_pay9 x1 x4 x5) (k0_pay11 x0 x2 x3 xs0) (k0_pay12 x0 x2 x3 xs0) xs2 := by
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 0 after a point of case C. -/
theorem row0_C (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1) = k0_pay3 (k0_pay10 x0 x2 x3 xs0) := by
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 1 after a point of case C. -/
theorem row1_C (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1) = k0_pay1 (k0_pay13 x0 x2 x3 xs0 xs1) (k0_pay14 x0 x2 x3 xs0) := by
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- Running row 2 after a point of case C. -/
theorem row2_C (v : View sig .tc .vmem S1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1) = k0_pay2 (k0_pay9 x1 x4 x5) (k0_pay11 x0 x2 x3 xs0) (k0_pay12 x0 x2 x3 xs0) xs2 := by
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C; dsimp only; sl_unfold_words
  refine (View.canon_unit_zero hz2 _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

/-- The output block's buffer after a last tile: the new weighted sum over the new normaliser. -/
theorem out6_C (v : View sig .tc .vmem S1x1x64 .f32) (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1024x64 .bf16) (harg4 : arg4.IsWhole) (arg5 : Memref sig .tc .vmem S64 .f32) (harg5 : arg5.IsWhole) (arg6 : Memref sig .tc .vmem S1024x64 .bf16) (harg6 : arg6.IsWhole) (arg7 : Memref sig .tc .vmem S64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S1x1024x1024 .f32) (x1 : Vec F S1x1024x1024 .f32) (x2 : Vec F S1024x64 .bf16) (x3 : Vec F S64 .f32) (x4 : Vec F S1024x64 .bf16) (x5 : Vec F S64 .f32) (xs0 xs1 xs2 : Vec F S1x64 .f32) :
    v.read (Elt F) (v.writes (Elt F) v.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1)
      = k0_pay4 (k0_pay2 (k0_pay9 x1 x4 x5) (k0_pay11 x0 x2 x3 xs0) (k0_pay12 x0 x2 x3 xs0) xs2) (k0_pay1 (k0_pay13 x0 x2 x3 xs0 xs1) (k0_pay14 x0 x2 x3 xs0)) := by
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C; dsimp only; sl_unfold_words
  refine (View.canon_unit_zero hz3o _ _).trans ?_
  simp only [View.readAt_eq_ld, harg2.read_unread, harg3.read_unread, harg4.read_unread, harg5.read_unread, harg6.read_unread, harg7.read_unread, harg9.read_unread, harg10.read_unread, harg11.read_unread,
    View.readCov_unit_zero (S := S1x64) _ hz2,
    View.ld_unit_zero (S := S1x1024x1024) hz3, View.ld_unit_zero (S := S1024x64) hz2w, View.ld_unit_zero (S := S64) hz1, View.ld_unit_zero (S := S1x64) hz2]

end Cert.KernelIdeal.Pool

end
-- ==== Proof.KernelIdeal.PoolProj.lean ====
/-
  The pool kernel's two projections over the extended reals.

  A grid point holds a [1, 1024, 1024] tile `x`, transposed weights `WT` ∈ [1024, 64] and a bias `b` ∈ [64]; the kernel
  forms `x · WT + b` as a matrix product into a zero accumulator plus the bias broadcast over the rows. Read at row `r`,
  unit `h`, that is `Σ_d x(0, r, d) · WT(d, h) + b(h)`, the specification's `tileProj` (rounding the operands to bf16 is
  the identity on the extended reals).
-/
import proofs.«103350_j47931835023376_2_alg».proof.Proof.Gen.KernelIdeal.Skeleton
import proofs.«103350_j47931835023376_2_alg».proof.Proof.TileSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PoolValue

open Cert.KernelIdeal Cert.KernelIdeal.Gen Idealize.ShloMosaic Idealize.ShloMosaic.ValueIdx

/-! ## The matrix product read at an index

The product contracts axis 1 of the left operand with axis 0 of the right: at output index `i` and contraction index `q`
the left operand is read at `(i 0, q)` and the right at `(q, i 1)`. -/

theorem dot_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem dot_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem dot_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem dot_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The kernel's matrix product into the zero splat, read at row `r`, column `h`: the sum over the contracted
    coordinate `d` of the left operand at `(r, d)` times the right operand at `(d, h)`. -/
theorem matmul_zero_ix2 (A : FVec Ideal S1024x1024 .bf16) (B : FVec Ideal S1024x64 .bf16) (r : Fin 1024) (h : Fin 64) :
    matmul dot_S1024x1024_S1024x64_S1024x64_1_0_0_1_n_n none A B (constant (F := Ideal) S1024x64 .f32 0x00000000#32) (ix2 r h)
      = ∑ d : Fin 1024, A (ix2 r d) * B (ix2 d h) := by
  refine (Ideal.matmul_constant_zero_apply dot_S1024x1024_S1024x64_S1024x64_1_0_0_1_n_n none A B (ix2 r h)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r h)
      ((contrEquiv1 dot_S1024x1024_S1024x64_S1024x64_1_0_0_1_n_n 1024 rfl rfl).symm k) = ix2 r k :=
    funext fun a => Fin.ext (by
      match a with
      | ⟨0, _⟩ => exact dot_lhs_0 _ _
      | ⟨1, _⟩ => exact (dot_lhs_1 _ _).trans hk)
  have er : dot_S1024x1024_S1024x64_S1024x64_1_0_0_1_n_n.rhsIdx (ix2 r h)
      ((contrEquiv1 dot_S1024x1024_S1024x64_S1024x64_1_0_0_1_n_n 1024 rfl rfl).symm k) = ix2 k h :=
    funext fun a => Fin.ext (by
      match a with
      | ⟨0, _⟩ => exact (dot_rhs_0 _ _).trans hk
      | ⟨1, _⟩ => exact dot_rhs_1 _ _)
  rw [el, er]

/-! ## The two projections -/

/-- The key tile's projection at row `r`, unit `h`: the block's row against the transposed weights' column, plus
    the bias (rounding to bf16 is the identity on the extended reals). -/
theorem pay8_apply (v3 : Vec Ideal S1x1024x1024 .f32) (v9 : Vec Ideal S1024x64 .bf16) (v13 : Vec Ideal S64 .f32)
    (r : Fin 1024) (h : Fin 64) :
    k0_pay8 (F := Ideal) v3 v9 v13 (ix2 r h) = Cert.PoolGate.tileProj v3 v9 v13 r h := by
  unfold k0_pay8 Cert.PoolGate.tileProj
  refine (addf_apply _ _ _).trans ?_
  refine congrArg₂ (· + ·) ?_ ?_
  · refine (matmul_zero_ix2 _ _ r h).trans ?_
    refine Finset.sum_congr rfl fun d _ => ?_
    refine congrArg₂ (· * ·) ?_ ?_
    · exact (truncf_apply (ψ := .bf16) (shapeCast S1024x1024 v3 shapeCasts_S1x1024x1024_S1024x1024) bitsLt_bf16_f32 (ix2 r d)).trans
        (shapeCast_1ab_ab_apply v3 _ r d)
    · exact congrFun (shapeCast_self v9 _) (ix2 d h)
  · exact (broadcastTo_1b_ab_apply _ _ r h).trans (shapeCast_a_1a_apply v13 _ 0 h)

/-- The value tile's projection, likewise. -/
theorem pay9_apply (v6 : Vec Ideal S1x1024x1024 .f32) (v11 : Vec Ideal S1024x64 .bf16) (v14 : Vec Ideal S64 .f32)
    (r : Fin 1024) (h : Fin 64) :
    k0_pay9 (F := Ideal) v6 v11 v14 (ix2 r h) = Cert.PoolGate.tileProj v6 v11 v14 r h := by
  unfold k0_pay9 Cert.PoolGate.tileProj
  refine (addf_apply _ _ _).trans ?_
  refine congrArg₂ (· + ·) ?_ ?_
  · refine (matmul_zero_ix2 _ _ r h).trans ?_
    refine Finset.sum_congr rfl fun d _ => ?_
    refine congrArg₂ (· * ·) ?_ ?_
    · exact (truncf_apply (ψ := .bf16) (shapeCast S1024x1024 v6 shapeCasts_S1x1024x1024_S1024x1024) bitsLt_bf16_f32 (ix2 r d)).trans
        (shapeCast_1ab_ab_apply v6 _ r d)
    · exact congrFun (shapeCast_self v11 _) (ix2 d h)
  · exact (broadcastTo_1b_ab_apply _ _ r h).trans (shapeCast_a_1a_apply v14 _ 0 h)

end Cert.KernelIdeal.PoolValue

end
-- ==== Proof.KernelIdeal.PoolPayloads.lean ====
/-
  The pool kernel's arithmetic over the extended reals: each stored value, read at an index, as the
  specification's tile step.

  A grid point projects its key and value tiles (`tileProj`), moves the running maximum to
  `m' = max m (max over the tile)`, rescales the running normaliser and weighted sum by `exp (m − m')` and adds the
  tile's terms `exp (k r − m')` and `exp (k r − m') · v r`; the last tile divides the weighted sum by the normaliser,
  and the first tile of a batch starts the three running values from −∞, 0, 0.
  Every lemma here is over variables standing for the loaded blocks.
-/
import proofs.«103350_j47931835023376_2_alg».proof.Proof.KernelIdeal.PoolProj

noncomputable section

namespace Cert.KernelIdeal.PoolValue

open Cert.KernelIdeal Cert.KernelIdeal.Gen Idealize.ShloMosaic Idealize.ShloMosaic.ValueIdx

/-! ## The two reductions over the tile's rows -/

/-- The word `0xFF800000` is −∞. -/
theorem ofBits_neg_inf_f32 : FloatOps.ofBits (F := Ideal) .f32 0xFF800000#32 = (⊥ : EReal) := by
  simp [Ideal.ofBits, Ideal.ieee]

/-- The reduced index `h` with row `r` put back on axis 0 is `(r, h)`. -/
theorem lift_ix1 (r : Fin 1024) (h : Fin 64) : reduces_S1024x64_S64.lift (ix1 h) r = ix2 r h :=
  funext fun a => Fin.ext (by match a with | ⟨0, _⟩ => rfl | ⟨1, _⟩ => rfl)

/-- The maximum over the rows, at unit `h`: the fold of `max` from −∞ over the column. -/
theorem colMax_apply (src : FVec Ideal S1024x64 .f32) (hφ : FKind.Formats .f32)
    (hacc : (0xFF800000#32 : BitVec 32) = 0xFF800000#32) (h : Fin 64) :
    multiReduction .maximumf [0] S64 src 0xFF800000#32 reduces_S1024x64_S64 hφ hacc (ix1 h)
      = (Finset.univ : Finset (Fin 1024)).fold max ⊥ (fun r => src (ix2 r h)) := by
  refine (Ideal.multiReduction_maximumf_single src 0xFF800000#32 reduces_S1024x64_S64 hφ hacc (ix1 h)).trans ?_
  rw [ofBits_neg_inf_f32]
  exact congrArg (Finset.fold max ⊥ · Finset.univ) (funext fun r => congrArg src (lift_ix1 r h))

/-- The sum over the rows, at unit `h`. -/
theorem colSum_apply (src : FVec Ideal S1024x64 .f32) (hφ : FKind.Formats .f32)
    (hacc : (0x00000000#32 : BitVec 32) = 0x00000000#32) (h : Fin 64) :
    multiReduction .add [0] S64 src 0x00000000#32 reduces_S1024x64_S64 hφ hacc (ix1 h)
      = ∑ r : Fin 1024, src (ix2 r h) := by
  refine (Ideal.multiReduction_add_single src 0x00000000#32 reduces_S1024x64_S64 hφ hacc (ix1 h)).trans ?_
  exact Finset.sum_congr rfl fun r _ => congrArg src (lift_ix1 r h)

/-! ## The step, value by value -/

/-- The exponential of a vector at an index. -/
theorem exp_apply {s : Shape} {φ : FTy} (a : FVec Ideal s φ) (i : s.Idx) : exp a i = Ideal.exp (a i) := rfl

/-- The new maximum at unit `h`: the old one against the maximum of the key tile's column. -/
theorem pay10_apply (v3 : Vec Ideal S1x1024x1024 .f32) (v9 : Vec Ideal S1024x64 .bf16) (v13 : Vec Ideal S64 .f32)
    (v25 : Vec Ideal S1x64 .f32) (h : Fin 64) :
    k0_pay10 (F := Ideal) v3 v9 v13 v25 (ix2 0 h)
      = max (v25 (ix2 0 h))
          ((Finset.univ : Finset (Fin 1024)).fold max ⊥ fun r => Cert.PoolGate.tileProj v3 v9 v13 r h) := by
  unfold k0_pay10
  refine (maximumf_apply (φ := .f32) v25 _ (ix2 0 h)).trans ?_
  refine congrArg (max (v25 (ix2 0 h))) ?_
  refine (shapeCast_a_1a_apply _ shapeCasts_S64_S1x64 0 h).trans ?_
  refine (colMax_apply _ _ _ h).trans ?_
  exact congrArg (Finset.fold max ⊥ · Finset.univ) (funext fun r => pay8_apply v3 v9 v13 r h)

/-- The rescaling factor `exp (m − m')` at unit `h`. -/
theorem pay11_apply (v3 : Vec Ideal S1x1024x1024 .f32) (v9 : Vec Ideal S1024x64 .bf16) (v13 : Vec Ideal S64 .f32)
    (v25 : Vec Ideal S1x64 .f32) (h : Fin 64) :
    k0_pay11 (F := Ideal) v3 v9 v13 v25 (ix2 0 h)
      = Ideal.exp (v25 (ix2 0 h) - k0_pay10 (F := Ideal) v3 v9 v13 v25 (ix2 0 h)) := by
  unfold k0_pay11
  exact (exp_apply (φ := .f32) _ (ix2 0 h)).trans (congrArg Ideal.exp (subf_apply (φ := .f32) v25 _ (ix2 0 h)))

/-- The tile's term `exp (k r − m')` at row `r`, unit `h`. -/
theorem pay12_apply (v3 : Vec Ideal S1x1024x1024 .f32) (v9 : Vec Ideal S1024x64 .bf16) (v13 : Vec Ideal S64 .f32)
    (v25 : Vec Ideal S1x64 .f32) (r : Fin 1024) (h : Fin 64) :
    k0_pay12 (F := Ideal) v3 v9 v13 v25 (ix2 r h)
      = Ideal.exp (Cert.PoolGate.tileProj v3 v9 v13 r h - k0_pay10 (F := Ideal) v3 v9 v13 v25 (ix2 0 h)) := by
  unfold k0_pay12
  refine (exp_apply (φ := .f32) _ (ix2 r h)).trans (congrArg Ideal.exp ?_)
  refine (subf_apply (φ := .f32) _ _ (ix2 r h)).trans ?_
  exact congrArg₂ (· - ·) (pay8_apply v3 v9 v13 r h)
    (broadcastTo_1b_ab_apply (k0_pay10 (F := Ideal) v3 v9 v13 v25) broadcasts_S1x64_S1024x64 r h)

/-- The rescaled old normaliser at unit `h`. -/
theorem pay13_apply (v3 : Vec Ideal S1x1024x1024 .f32) (v9 : Vec Ideal S1024x64 .bf16) (v13 : Vec Ideal S64 .f32)
    (v25 v32 : Vec Ideal S1x64 .f32) (h : Fin 64) :
    k0_pay13 (F := Ideal) v3 v9 v13 v25 v32 (ix2 0 h)
      = k0_pay11 (F := Ideal) v3 v9 v13 v25 (ix2 0 h) * v32 (ix2 0 h) := by
  unfold k0_pay13
  exact mulf_apply (φ := .f32) _ v32 (ix2 0 h)

/-- The sum of the tile's terms at unit `h`. -/
theorem pay14_apply (v3 : Vec Ideal S1x1024x1024 .f32) (v9 : Vec Ideal S1024x64 .bf16) (v13 : Vec Ideal S64 .f32)
    (v25 : Vec Ideal S1x64 .f32) (h : Fin 64) :
    k0_pay14 (F := Ideal) v3 v9 v13 v25 (ix1 h)
      = ∑ r : Fin 1024, Ideal.exp (Cert.PoolGate.tileProj v3 v9 v13 r h - k0_pay10 (F := Ideal) v3 v9 v13 v25 (ix2 0 h)) := by
  unfold k0_pay14
  refine (colSum_apply _ _ _ h).trans ?_
  exact Finset.sum_congr rfl fun r _ => pay12_apply v3 v9 v13 v25 r h

/-! ## The three stored values are the specification's step -/

section Step

variable (v3 v6 : Vec Ideal S1x1024x1024 .f32) (v9 v11 : Vec Ideal S1024x64 .bf16) (v13 v14 : Vec Ideal S64 .f32)
  (v25 v32 v40 : Vec Ideal S1x64 .f32) (h : Fin 64)

/-- The maximum stored back is the step's. -/
theorem step_max :
    k0_pay3 (F := Ideal) (k0_pay10 v3 v9 v13 v25) (ix2 0 h)
      = (Cert.PoolGate.step (fun r => Cert.PoolGate.tileProj v3 v9 v13 r h)
          (fun r => Cert.PoolGate.tileProj v6 v11 v14 r h) (v25 (ix2 0 h), v32 (ix2 0 h), v40 (ix2 0 h))).1 := by
  unfold k0_pay3
  refine (congrFun (shapeCast_self _ shapeCasts_S1x64_S1x64) (ix2 0 h)).trans ?_
  exact pay10_apply v3 v9 v13 v25 h

/-- The normaliser stored back is the step's. -/
theorem step_norm :
    k0_pay1 (F := Ideal) (k0_pay13 v3 v9 v13 v25 v32) (k0_pay14 v3 v9 v13 v25) (ix2 0 h)
      = (Cert.PoolGate.step (fun r => Cert.PoolGate.tileProj v3 v9 v13 r h)
          (fun r => Cert.PoolGate.tileProj v6 v11 v14 r h) (v25 (ix2 0 h), v32 (ix2 0 h), v40 (ix2 0 h))).2.1 := by
  unfold k0_pay1
  refine (congrFun (shapeCast_self _ shapeCasts_S1x64_S1x64) (ix2 0 h)).trans ?_
  refine (addf_apply (φ := .f32) _ _ (ix2 0 h)).trans ?_
  refine (congrArg₂ (· + ·)
    ((pay13_apply v3 v9 v13 v25 v32 h).trans (congrArg (· * v32 (ix2 0 h)) (pay11_apply v3 v9 v13 v25 h)))
    ((shapeCast_a_1a_apply _ shapeCasts_S64_S1x64 0 h).trans (pay14_apply v3 v9 v13 v25 h))).trans ?_
  rw [pay10_apply v3 v9 v13 v25 h]
  rfl

/-- The weighted sum stored back is the step's. -/
theorem step_acc :
    k0_pay2 (F := Ideal) (k0_pay9 v6 v11 v14) (k0_pay11 v3 v9 v13 v25) (k0_pay12 v3 v9 v13 v25) v40 (ix2 0 h)
      = (Cert.PoolGate.step (fun r => Cert.PoolGate.tileProj v3 v9 v13 r h)
          (fun r => Cert.PoolGate.tileProj v6 v11 v14 r h) (v25 (ix2 0 h), v32 (ix2 0 h), v40 (ix2 0 h))).2.2 := by
  unfold k0_pay2
  refine (congrFun (shapeCast_self _ shapeCasts_S1x64_S1x64) (ix2 0 h)).trans ?_
  refine (addf_apply (φ := .f32) _ _ (ix2 0 h)).trans ?_
  refine (congrArg₂ (· + ·)
    ((mulf_apply (φ := .f32) _ v40 (ix2 0 h)).trans (congrArg (· * v40 (ix2 0 h)) (pay11_apply v3 v9 v13 v25 h)))
    ((shapeCast_a_1a_apply _ shapeCasts_S64_S1x64 0 h).trans ((colSum_apply _ _ _ h).trans
      (Finset.sum_congr rfl fun r _ => (mulf_apply (φ := .f32) _ _ (ix2 r h)).trans
        (congrArg₂ (· * ·) (pay12_apply v3 v9 v13 v25 r h) (pay9_apply v6 v11 v14 r h)))))).trans ?_
  rw [pay10_apply v3 v9 v13 v25 h]
  rfl

end Step

/-- The three values a grid point stores to the running maximum, normaliser and weighted sum, at unit `h`, are the
    specification's step applied to the three values it loaded, over the projected key and value columns of its tile. -/
theorem step_payloads (v3 v6 : Vec Ideal S1x1024x1024 .f32) (v9 v11 : Vec Ideal S1024x64 .bf16) (v13 v14 : Vec Ideal S64 .f32)
    (v25 v32 v40 : Vec Ideal S1x64 .f32) (h : Fin 64) :
    ( k0_pay3 (F := Ideal) (k0_pay10 v3 v9 v13 v25) (ix2 0 h),
      k0_pay1 (F := Ideal) (k0_pay13 v3 v9 v13 v25 v32) (k0_pay14 v3 v9 v13 v25) (ix2 0 h),
      k0_pay2 (F := Ideal) (k0_pay9 v6 v11 v14) (k0_pay11 v3 v9 v13 v25) (k0_pay12 v3 v9 v13 v25) v40 (ix2 0 h) )
      = Cert.PoolGate.step (fun r => Cert.PoolGate.tileProj v3 v9 v13 r h)
          (fun r => Cert.PoolGate.tileProj v6 v11 v14 r h) (v25 (ix2 0 h), v32 (ix2 0 h), v40 (ix2 0 h)) :=
  Prod.ext (step_max v3 v6 v9 v11 v13 v14 v25 v32 v40 h)
    (Prod.ext (step_norm v3 v6 v9 v11 v13 v14 v25 v32 v40 h) (step_acc v3 v6 v9 v11 v13 v14 v25 v32 v40 h))

/-! ## The last tile's quotient and the first tile's initial values -/

/-- The output at unit `h`: the weighted sum over the normaliser. -/
theorem pay4_apply (v55 v56 : Vec Ideal S1x64 .f32) (h : Fin 64) :
    k0_pay4 (F := Ideal) v55 v56 (ix3 0 0 h) = Ideal.div (v55 (ix2 0 h)) (v56 (ix2 0 h)) := by
  unfold k0_pay4
  refine (shapeCast_ab_1ab_apply _ shapeCasts_S1x64_S1x1x64 0 0 h).trans ?_
  exact divf_apply (φ := .f32) v55 v56 (ix2 0 h)

/-- The running maximum starts from −∞. -/
theorem pay5_apply (h : Fin 64) : k0_pay5 (F := Ideal) (ix2 0 h) = (⊥ : EReal) := by
  unfold k0_pay5
  refine (congrFun (shapeCast_self _ shapeCasts_S1x64_S1x64) (ix2 0 h)).trans ?_
  exact ofBits_neg_inf_f32

/-- The running normaliser starts from 0. -/
theorem pay6_apply (h : Fin 64) : k0_pay6 (F := Ideal) (ix2 0 h) = (0 : EReal) := by
  unfold k0_pay6
  refine (congrFun (shapeCast_self _ shapeCasts_S1x64_S1x64) (ix2 0 h)).trans ?_
  exact Ideal.ofBits_zero_f32

/-- The running weighted sum starts from 0. -/
theorem pay7_apply (h : Fin 64) : k0_pay7 (F := Ideal) (ix2 0 h) = (0 : EReal) := by
  unfold k0_pay7
  refine (congrFun (shapeCast_self _ shapeCasts_S1x64_S1x64) (ix2 0 h)).trans ?_
  exact Ideal.ofBits_zero_f32

end Cert.KernelIdeal.PoolValue

end
-- ==== Proof.KernelIdeal.PoolPoints.lean ====
/-
  What a grid point of the pooling region leaves in the three running rows, and in the output block at a last tile,
  as the specification's tile step.

  At unit h the point's key tile and value tile are the columns r ↦ tileProj (key block) WkT bk r h and
  r ↦ tileProj (value block) WvT bv r h.  A first tile leaves step (key column) (value column) (−∞, 0, 0) in the rows
  (maximum, normaliser, weighted sum); every other tile leaves the step applied to the rows the point before left; a last
  tile also leaves, in the output block, the new weighted sum over the new normaliser.
-/
import proofs.«103350_j47931835023376_2_alg».proof.Proof.KernelIdeal.PoolRows
import proofs.«103350_j47931835023376_2_alg».proof.Proof.KernelIdeal.PoolPayloads
import proofs.«103350_j47931835023376_2_alg».proof.Proof.TileSpec

set_option maxRecDepth 16384

noncomputable section

namespace Cert.KernelIdeal.PoolFinal

open Cert.KernelIdeal Cert.KernelIdeal.Gen Cert.KernelIdeal.Pool
open Idealize.ShloMosaic Idealize.ShloMosaic.TcCoe Idealize.ShloMosaic.ValueIdx
open Idealize.ShloMosaic.Pipeline (Dat)

open Cert.KernelIdeal.PoolValue Cert.PoolGate

section Points

variable (V : (c : Dev nD) → (b : Ref sig .tc) → Buf (Elt Ideal) ((c : Thread nD τ).loc b))

/-- The key tile's column at unit h, over the point's blocks. -/
def keyTile (c : Dev nD) (t : Fin cfg0.N) (h : Fin 64) : Fin 1024 → EReal :=
  fun r => tileProj (iblk0 V c 0 t) (iblk0 V c 2 t) (iblk0 V c 3 t) r h
/-- The value tile's column at unit h, over the point's blocks. -/
def valueTile (c : Dev nD) (t : Fin cfg0.N) (h : Fin 64) : Fin 1024 → EReal :=
  fun r => tileProj (iblk0 V c 1 t) (iblk0 V c 4 t) (iblk0 V c 5 t) r h

/-- A first tile: the rows hold the step from (−∞, 0, 0). -/
theorem ptA_rows (c : Dev nD) (t : Fin cfg0.N) (h0 : t.val % 4 = 0) (h1 : ¬t.val % 4 = 3) (h : Fin 64) :
    ((ptA V c t h0 h1).2.1 (ix2 0 h), (ptA V c t h0 h1).2.2.1 (ix2 0 h), (ptA V c t h0 h1).2.2.2 (ix2 0 h))
      = step (keyTile V c t h) (valueTile V c t h) (⊥, 0, 0) := by
  have e0 : (ptA V c t h0 h1).2.1 = k0_pay3 (k0_pay10 (iblk0 V c 0 t) (iblk0 V c 2 t) (iblk0 V c 3 t) (k0_pay5 (F := Ideal))) := by
    unfold ptA runA
    exact row0_A VS0_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  have e1 : (ptA V c t h0 h1).2.2.1 = k0_pay1 (k0_pay13 (iblk0 V c 0 t) (iblk0 V c 2 t) (iblk0 V c 3 t) (k0_pay5 (F := Ideal)) (k0_pay6 (F := Ideal))) (k0_pay14 (iblk0 V c 0 t) (iblk0 V c 2 t) (iblk0 V c 3 t) (k0_pay5 (F := Ideal))) := by
    unfold ptA runA
    exact row1_A VS0_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  have e2 : (ptA V c t h0 h1).2.2.2 = k0_pay2 (k0_pay9 (iblk0 V c 1 t) (iblk0 V c 4 t) (iblk0 V c 5 t)) (k0_pay11 (iblk0 V c 0 t) (iblk0 V c 2 t) (iblk0 V c 3 t) (k0_pay5 (F := Ideal))) (k0_pay12 (iblk0 V c 0 t) (iblk0 V c 2 t) (iblk0 V c 3 t) (k0_pay5 (F := Ideal))) (k0_pay7 (F := Ideal)) := by
    unfold ptA runA
    exact row2_A VS0_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  rw [e0, e1, e2]
  refine (step_payloads (iblk0 V c 0 t) (iblk0 V c 1 t) (iblk0 V c 2 t) (iblk0 V c 4 t) (iblk0 V c 3 t) (iblk0 V c 5 t) (k0_pay5 (F := Ideal)) (k0_pay6 (F := Ideal)) (k0_pay7 (F := Ideal)) h).trans ?_
  rw [pay5_apply, pay6_apply, pay7_apply]
  rfl

/-- A middle tile: the rows hold the step from the rows `p` the point before left. -/
theorem ptB_rows (c : Dev nD) (t : Fin cfg0.N) (h0 : ¬t.val % 4 = 0) (h1 : ¬t.val % 4 = 3)
    (p : Vec Ideal S1x64 .f32 × Vec Ideal S1x64 .f32 × Vec Ideal S1x64 .f32) (h : Fin 64) :
    ((ptB V c t h0 h1 p).2.1 (ix2 0 h), (ptB V c t h0 h1 p).2.2.1 (ix2 0 h), (ptB V c t h0 h1 p).2.2.2 (ix2 0 h))
      = step (keyTile V c t h) (valueTile V c t h) (p.1 (ix2 0 h), p.2.1 (ix2 0 h), p.2.2 (ix2 0 h)) := by
  have e0 : (ptB V c t h0 h1 p).2.1 = k0_pay3 (k0_pay10 (iblk0 V c 0 t) (iblk0 V c 2 t) (iblk0 V c 3 t) p.1) := by
    unfold ptB runB
    exact row0_B VS0_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.1 p.2.1 p.2.2
  have e1 : (ptB V c t h0 h1 p).2.2.1 = k0_pay1 (k0_pay13 (iblk0 V c 0 t) (iblk0 V c 2 t) (iblk0 V c 3 t) p.1 p.2.1) (k0_pay14 (iblk0 V c 0 t) (iblk0 V c 2 t) (iblk0 V c 3 t) p.1) := by
    unfold ptB runB
    exact row1_B VS0_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.1 p.2.1 p.2.2
  have e2 : (ptB V c t h0 h1 p).2.2.2 = k0_pay2 (k0_pay9 (iblk0 V c 1 t) (iblk0 V c 4 t) (iblk0 V c 5 t)) (k0_pay11 (iblk0 V c 0 t) (iblk0 V c 2 t) (iblk0 V c 3 t) p.1) (k0_pay12 (iblk0 V c 0 t) (iblk0 V c 2 t) (iblk0 V c 3 t) p.1) p.2.2 := by
    unfold ptB runB
    exact row2_B VS0_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) p.1 p.2.1 p.2.2
  rw [e0, e1, e2]
  exact step_payloads (iblk0 V c 0 t) (iblk0 V c 1 t) (iblk0 V c 2 t) (iblk0 V c 4 t) (iblk0 V c 3 t) (iblk0 V c 5 t) p.1 p.2.1 p.2.2 h

/-- A last tile: the rows likewise. -/
theorem ptC_rows (c : Dev nD) (t : Fin cfg0.N) (h0 : ¬t.val % 4 = 0) (h1 : t.val % 4 = 3)
    (p : Vec Ideal S1x64 .f32 × Vec Ideal S1x64 .f32 × Vec Ideal S1x64 .f32) (h : Fin 64) :
    ((ptC V c t h0 h1 p).2.1 (ix2 0 h), (ptC V c t h0 h1 p).2.2.1 (ix2 0 h), (ptC V c t h0 h1 p).2.2.2 (ix2 0 h))
      = step (keyTile V c t h) (valueTile V c t h) (p.1 (ix2 0 h), p.2.1 (ix2 0 h), p.2.2 (ix2 0 h)) := by
  have e0 : (ptC V c t h0 h1 p).2.1 = k0_pay3 (k0_pay10 (iblk0 V c 0 t) (iblk0 V c 2 t) (iblk0 V c 3 t) p.1) := by
    unfold ptC runC
    exact row0_C VS0_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
  have e1 : (ptC V c t h0 h1 p).2.2.1 = k0_pay1 (k0_pay13 (iblk0 V c 0 t) (iblk0 V c 2 t) (iblk0 V c 3 t) p.1 p.2.1) (k0_pay14 (iblk0 V c 0 t) (iblk0 V c 2 t) (iblk0 V c 3 t) p.1) := by
    unfold ptC runC
    exact row1_C VS0_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
  have e2 : (ptC V c t h0 h1 p).2.2.2 = k0_pay2 (k0_pay9 (iblk0 V c 1 t) (iblk0 V c 4 t) (iblk0 V c 5 t)) (k0_pay11 (iblk0 V c 0 t) (iblk0 V c 2 t) (iblk0 V c 3 t) p.1) (k0_pay12 (iblk0 V c 0 t) (iblk0 V c 2 t) (iblk0 V c 3 t) p.1) p.2.2 := by
    unfold ptC runC
    exact row2_C VS0_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
  rw [e0, e1, e2]
  exact step_payloads (iblk0 V c 0 t) (iblk0 V c 1 t) (iblk0 V c 2 t) (iblk0 V c 4 t) (iblk0 V c 3 t) (iblk0 V c 5 t) p.1 p.2.1 p.2.2 h

/-- A last tile: the output block holds the new weighted sum over the new normaliser. -/
theorem ptC_out (c : Dev nD) (t : Fin cfg0.N) (h0 : ¬t.val % 4 = 0) (h1 : t.val % 4 = 3)
    (p : Vec Ideal S1x64 .f32 × Vec Ideal S1x64 .f32 × Vec Ideal S1x64 .f32) (h : Fin 64) :
    (ptC V c t h0 h1 p).1 (ix3 0 0 h)
      = Ideal.div (step (keyTile V c t h) (valueTile V c t h) (p.1 (ix2 0 h), p.2.1 (ix2 0 h), p.2.2 (ix2 0 h))).2.2
          (step (keyTile V c t h) (valueTile V c t h) (p.1 (ix2 0 h), p.2.1 (ix2 0 h), p.2.2 (ix2 0 h))).2.1 := by
  have e : (ptC V c t h0 h1 p).1 = k0_pay4 (k0_pay2 (k0_pay9 (iblk0 V c 1 t) (iblk0 V c 4 t) (iblk0 V c 5 t)) (k0_pay11 (iblk0 V c 0 t) (iblk0 V c 2 t) (iblk0 V c 3 t) p.1) (k0_pay12 (iblk0 V c 0 t) (iblk0 V c 2 t) (iblk0 V c 3 t) p.1) p.2.2) (k0_pay1 (k0_pay13 (iblk0 V c 0 t) (iblk0 V c 2 t) (iblk0 V c 3 t) p.1 p.2.1) (k0_pay14 (iblk0 V c 0 t) (iblk0 V c 2 t) (iblk0 V c 3 t) p.1)) := by
    unfold ptC runC
    exact out6_C VO0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) p.1 p.2.1 p.2.2
  rw [e, pay4_apply]
  exact congrArg₂ Ideal.div
    (step_acc (iblk0 V c 0 t) (iblk0 V c 1 t) (iblk0 V c 2 t) (iblk0 V c 4 t) (iblk0 V c 3 t) (iblk0 V c 5 t) p.1 p.2.1 p.2.2 h)
    (step_norm (iblk0 V c 0 t) (iblk0 V c 1 t) (iblk0 V c 2 t) (iblk0 V c 4 t) (iblk0 V c 3 t) (iblk0 V c 5 t) p.1 p.2.1 p.2.2 h)

end Points

end Cert.KernelIdeal.PoolFinal

end
-- ==== Proof.KernelIdeal.PoolOnline.lean ====
/-
  The running rows over the points of a batch are the specification's tile-by-tile recursion.

  Point t is batch β = t / 4, tile T = t % 4.  Over the whole arrays the key and value columns of batch β at unit h are
  n ↦ projT key WkT bk (β, n, h) and n ↦ projT value WvT bv (β, n, h); the point's tile columns are their rows
  1024·T … 1024·T + 1023.  By induction over the points, after point t the three running rows hold, at unit h, the
  recursion's triple after T + 1 tiles; so after a last tile the output block holds the pooled value of (β, h).
-/
import proofs.«103350_j47931835023376_2_alg».proof.Proof.KernelIdeal.PoolPoints

set_option maxRecDepth 16384

noncomputable section

namespace Cert.KernelIdeal.PoolFinal

open Cert.KernelIdeal Cert.KernelIdeal.Gen Cert.KernelIdeal.Pool
open Idealize.ShloMosaic Idealize.ShloMosaic.TcCoe Idealize.ShloMosaic.ValueIdx
open Idealize.ShloMosaic.Pipeline (Dat)

open Cert.KernelIdeal.PoolValue Cert.PoolGate

section Induction

variable (V : (c : Dev nD) → (b : Ref sig .tc) → Buf (Elt Ideal) ((c : Thread nD τ).loc b)) (c : Dev nD)

/-- The key column of batch β at unit h, over the whole arrays. -/
def kcol (β : Fin 8) (h : Fin 64) : Fin 4096 → EReal :=
  fun n => projT (V c main_arg1) (V c main_v3) (V c main_arg6) β n h
/-- The value column of batch β at unit h, over the whole arrays. -/
def vcol (β : Fin 8) (h : Fin 64) : Fin 4096 → EReal :=
  fun n => projT (V c main_arg2) (V c main_v5) (V c main_arg8) β n h

/-- The recursion at equal tile counts. -/
theorem online_congr (k v : Fin 4096 → EReal) {a b : ℕ} (e : a = b) (ha : a ≤ 4) (hb : b ≤ 4) :
    online k v a ha = online k v b hb := by
  subst e; rfl

/-- One more tile is one more step. -/
theorem online_succ (k v : Fin 4096 → EReal) (a : ℕ) (ha : a + 1 ≤ 4) :
    online k v (a + 1) ha = step (tile k ⟨a, ha⟩) (tile v ⟨a, ha⟩) (online k v a (Nat.le_of_succ_le ha)) := rfl

variable
  (hK : ∀ (t : Fin cfg0.N) (β : Fin 8) (T : Fin 4), β.val = t.val / 4 → T.val = t.val % 4 → ∀ (r : Fin 1024) (h : Fin 64),
    tileProj (iblk0 V c 0 t) (iblk0 V c 2 t) (iblk0 V c 3 t) r h = tile (kcol V c β h) T r)
  (hV : ∀ (t : Fin cfg0.N) (β : Fin 8) (T : Fin 4), β.val = t.val / 4 → T.val = t.val % 4 → ∀ (r : Fin 1024) (h : Fin 64),
    tileProj (iblk0 V c 1 t) (iblk0 V c 4 t) (iblk0 V c 5 t) r h = tile (vcol V c β h) T r)

include hK hV

/-- After point n (batch β = n / 4, tile n % 4) the three running rows hold, at unit h, the recursion's triple after
    n % 4 + 1 tiles of batch β's columns. -/
theorem rows_online : ∀ (n : ℕ) (hn : n < cfg0.N) (β : Fin 8) (hβ : β.val = n / 4) (h : Fin 64),
    ((outsAt0 V c n hn).2.1 (ix2 0 h), (outsAt0 V c n hn).2.2.1 (ix2 0 h), (outsAt0 V c n hn).2.2.2 (ix2 0 h))
      = online (kcol V c β h) (vcol V c β h) (n % 4 + 1) (by omega) := by
  intro n
  induction n using Nat.strong_induction_on with
  | _ n ih =>
    intro hn β hβ h
    have hN : cfg0.N = 32 := N_0
    have hstep : online (kcol V c β h) (vcol V c β h) (n % 4 + 1) (by omega)
        = step (keyTile V c ⟨n, hn⟩ h) (valueTile V c ⟨n, hn⟩ h)
            (online (kcol V c β h) (vcol V c β h) (n % 4) (by omega)) := by
      have eK : keyTile V c ⟨n, hn⟩ h = tile (kcol V c β h) ⟨n % 4, by omega⟩ :=
        funext fun r => hK ⟨n, hn⟩ β ⟨n % 4, by omega⟩ hβ rfl r h
      have eV : valueTile V c ⟨n, hn⟩ h = tile (vcol V c β h) ⟨n % 4, by omega⟩ :=
        funext fun r => hV ⟨n, hn⟩ β ⟨n % 4, by omega⟩ hβ rfl r h
      rw [eK, eV]
      rfl
    rw [hstep]
    by_cases h0 : n % 4 = 0
    · have h1 : ¬n % 4 = 3 := by omega
      rw [outsAt0_A V c ⟨n, hn⟩ h0 h1, ptA_rows V c ⟨n, hn⟩ h0 h1 h]
      exact congrArg _ (online_congr _ _ h0.symm (Nat.zero_le 4) _)
    · have ih' := ih (n - 1) (by omega) (by omega) β (by omega) h
      by_cases h1 : n % 4 = 3
      · rw [outsAt0_C V c ⟨n, hn⟩ h0 h1]
        refine (ptC_rows V c ⟨n, hn⟩ h0 h1 _ h).trans (congrArg _ ?_)
        exact ih'.trans (online_congr _ _ (by omega) _ _)
      · rw [outsAt0_B V c ⟨n, hn⟩ h0 h1]
        refine (ptB_rows V c ⟨n, hn⟩ h0 h1 _ h).trans (congrArg _ ?_)
        exact ih'.trans (online_congr _ _ (by omega) _ _)

/-- After a last tile (n % 4 = 3) the output block holds, at unit h, the pooled value of batch β = n / 4. -/
theorem out_pool (n : ℕ) (hn : n < cfg0.N) (h3 : n % 4 = 3) (β : Fin 8) (hβ : β.val = n / 4) (h : Fin 64) :
    (outsAt0 V c n hn).1 (ix3 0 0 h)
      = poolAt (V c main_arg1) (V c main_arg2) (V c main_v3) (V c main_arg6) (V c main_v5) (V c main_arg8) β h := by
  have h0 : ¬n % 4 = 0 := by omega
  have hR := rows_online V c hK hV n hn β hβ h
  rw [outsAt0_C V c ⟨n, hn⟩ h0 h3] at hR ⊢
  have hS := (ptC_rows V c ⟨n, hn⟩ h0 h3 _ h).symm.trans hR
  refine (ptC_out V c ⟨n, hn⟩ h0 h3 _ h).trans ?_
  rw [hS, online_congr (kcol V c β h) (vcol V c β h) (show n % 4 + 1 = 4 by omega) _ le_rfl]
  rfl

end Induction

end Cert.KernelIdeal.PoolFinal

end
-- ==== Proof.KernelIdeal.PoolFinal.lean ====
/-
  The pooling region's result array.

  After the region's 32 points the output array [8, 1, 64] holds, at (β, 0, h), the pooled value of batch β at unit h as
  the tiles leave it: each last tile of a batch writes back its output block, which holds that value at every unit, and
  the eight blocks cover the array.
-/
import proofs.«103350_j47931835023376_2_alg».proof.Proof.KernelIdeal.PoolBlocks
import proofs.«103350_j47931835023376_2_alg».proof.Proof.KernelIdeal.PoolOnline

set_option maxRecDepth 16384

noncomputable section

namespace Cert.KernelIdeal.PoolFinal

open Cert.KernelIdeal Cert.KernelIdeal.Gen Cert.KernelIdeal.Pool
open Idealize.ShloMosaic Idealize.ShloMosaic.TcCoe Idealize.ShloMosaic.ValueIdx
open Idealize.ShloMosaic.Pipeline (Dat)

open Cert.KernelIdeal.PoolBlocks Cert.PoolGate

/-- The output array of the pooling region after its last point. -/
theorem pool_final (V : (c : Dev nD) → (b : Ref sig .tc) → Buf (Elt Ideal) ((c : Thread nD τ).loc b)) (c : Dev nD) :
    (Cert.KernelIdeal.Pool.dat0 (F := Ideal) V c).arrAt 6 cfg0.N
      = fun j => Cert.PoolGate.poolAt (V c main_arg1) (V c main_arg2) (V c main_v3) (V c main_arg6) (V c main_v5)
          (V c main_arg8) (j 0) (j 2) := by
  have hK : ∀ (t : Fin cfg0.N) (β : Fin 8) (T : Fin 4), β.val = t.val / 4 → T.val = t.val % 4 →
      ∀ (r : Fin 1024) (h : Fin 64),
      tileProj (iblk0 V c 0 t) (iblk0 V c 2 t) (iblk0 V c 3 t) r h = tile (kcol V c β h) T r := by
    intro t β T hβ hT r h
    obtain rfl : β = batchOf t := Fin.ext hβ
    obtain rfl : T = tileOf t := Fin.ext hT
    exact tileK_eq V c t r h
  have hV : ∀ (t : Fin cfg0.N) (β : Fin 8) (T : Fin 4), β.val = t.val / 4 → T.val = t.val % 4 →
      ∀ (r : Fin 1024) (h : Fin 64),
      tileProj (iblk0 V c 1 t) (iblk0 V c 4 t) (iblk0 V c 5 t) r h = tile (vcol V c β h) T r := by
    intro t β T hβ hT r h
    obtain rfl : β = batchOf t := Fin.ext hβ
    obtain rfl : T = tileOf t := Fin.ext hT
    exact tileV_eq V c t r h
  exact arr6_of V c
    (fun j => Cert.PoolGate.poolAt (V c main_arg1) (V c main_arg2) (V c main_v3) (V c main_arg6) (V c main_v5)
      (V c main_arg8) (j 0) (j 2))
    (fun t h3 h => out_pool V c hK hV t.val t.isLt h3 (batchOf t) rfl h)

end Cert.KernelIdeal.PoolFinal

end
-- ==== Proof.OnlinePoolReal.lean ====
/-
  The real-analysis identities behind a running softmax pool, over an arbitrary finite index set.

  A column of reals `kr` is read in blocks.  The carried maximum over the rows read so far is a `Finset.fold max ⊥`
  of the coerced column; over a non-empty set of rows it is (the coercion of) a real.  When the maximum moves from
  `a` to `b` the sums `Σ exp (k n − a)` and `Σ exp (k n − a) · v n` are rescaled by `exp (a − b)`, and
  `exp (a − b) · exp (k n − a) = exp (k n − b)` over the reals.  Sums of coerced reals are coerced real sums, so all
  of the algebra is done in ℝ and the coercions are pushed outwards.
-/
import Idealize.ShloMosaic.PureOps.Ideal

noncomputable section

namespace Cert.PoolGate.Online

open Idealize.ShloMosaic

variable {ι : Type*}

/-- A finite sum of coerced reals is the coercion of the real sum. -/
theorem coe_finset_sum (S : Finset ι) (f : ι → ℝ) :
    ∑ n ∈ S, ((f n : ℝ) : EReal) = ((∑ n ∈ S, f n : ℝ) : EReal) := by
  classical
  induction S using Finset.induction_on with
  | empty => simp
  | insert a s ha ih => rw [Finset.sum_insert ha, Finset.sum_insert ha, ih, EReal.coe_add]

/-- The maximum (from −∞) of a non-empty family of reals is a real. -/
theorem fold_max_coe (S : Finset ι) (hS : S.Nonempty) (f : ι → ℝ) :
    ∃ r : ℝ, S.fold max ⊥ (fun n => ((f n : ℝ) : EReal)) = (r : EReal) := by
  induction hS using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr]; exact (EReal.coe_strictMono.monotone.map_max).symm⟩

/-- The maximum over a union is the maximum of the two maxima. -/
theorem fold_max_union [DecidableEq ι] (S T : Finset ι) (k : ι → EReal) :
    (S ∪ T).fold max ⊥ k = max (S.fold max ⊥ k) (T.fold max ⊥ k) := by
  induction S using Finset.induction_on with
  | empty => rw [Finset.empty_union, Finset.fold_empty, max_bot_left]
  | insert a s ha ih => rw [Finset.insert_union, Finset.fold_insert_idem, Finset.fold_insert_idem, ih, max_assoc]

/-- Moving the reference point of the exponentials from `a` to `b` rescales their sum by `exp (a − b)`. -/
theorem rescale_sum (S : Finset ι) (kr : ι → ℝ) (a b : ℝ) :
    Ideal.exp ((a : EReal) - (b : EReal)) * ∑ n ∈ S, Ideal.exp (((kr n : ℝ) : EReal) - (a : EReal))
      = ∑ n ∈ S, Ideal.exp (((kr n : ℝ) : EReal) - (b : EReal)) := by
  simp only [← EReal.coe_sub, Ideal.exp_coe, coe_finset_sum, ← EReal.coe_mul]
  congr 1
  rw [Finset.mul_sum]
  refine Finset.sum_congr rfl fun n _ => ?_
  rw [← Real.exp_add]
  congr 1
  ring

/-- The same for the weighted sum. -/
theorem rescale_wsum (S : Finset ι) (kr vr : ι → ℝ) (a b : ℝ) :
    Ideal.exp ((a : EReal) - (b : EReal))
        * ∑ n ∈ S, Ideal.exp (((kr n : ℝ) : EReal) - (a : EReal)) * ((vr n : ℝ) : EReal)
      = ∑ n ∈ S, Ideal.exp (((kr n : ℝ) : EReal) - (b : EReal)) * ((vr n : ℝ) : EReal) := by
  simp only [← EReal.coe_sub, Ideal.exp_coe, coe_finset_sum, ← EReal.coe_mul]
  congr 1
  rw [Finset.mul_sum]
  refine Finset.sum_congr rfl fun n _ => ?_
  rw [← mul_assoc, ← Real.exp_add]
  congr 2
  ring

/-- Dividing the weighted sum by the (positive, real) normaliser is the sum of the divided weights. -/
theorem div_wsum (S : Finset ι) (hS : S.Nonempty) (kr vr : ι → ℝ) (M : ℝ) :
    Ideal.div (∑ n ∈ S, Ideal.exp (((kr n : ℝ) : EReal) - (M : EReal)) * ((vr n : ℝ) : EReal))
        (∑ n ∈ S, Ideal.exp (((kr n : ℝ) : EReal) - (M : EReal)))
      = ∑ n ∈ S, Ideal.div (Ideal.exp (((kr n : ℝ) : EReal) - (M : EReal)))
          (∑ n ∈ S, Ideal.exp (((kr n : ℝ) : EReal) - (M : EReal))) * ((vr n : ℝ) : EReal) := by
  have hL : (∑ n ∈ S, Real.exp (kr n - M)) ≠ 0 :=
    (Finset.sum_pos (fun n _ => Real.exp_pos (kr n - M)) hS).ne'
  simp only [← EReal.coe_sub, Ideal.exp_coe, coe_finset_sum, ← EReal.coe_mul, Ideal.div_coe hL]
  congr 1
  rw [Finset.sum_mul]
  refine Finset.sum_congr rfl fun n _ => ?_
  ring

end Cert.PoolGate.Online

end
-- ==== Proof.OnlinePool.lean ====
/-
  The tile-by-tile pooled value equals the softmax pool, for real columns; and a projection of real data is real.

  The 4096 rows are read in four tiles of 1024.  After `t` tiles the carried triple is
  (max over the first 1024·t rows, Σ exp (k n − max), Σ exp (k n − max) · v n), the sums over those same rows:
  the empty prefix gives (−∞, 0, 0), and absorbing a tile moves the maximum to the maximum over the longer prefix and
  rescales both sums by `exp (m_old − m_new)` (which is `exp (−∞) = 0` against the zero sums of the empty prefix).
  After four tiles the prefix is every row, so the triple is (colMax k, colSum k, Σ exp (k n − colMax k) · v n), and
  dividing the last by the positive real normaliser is dividing each weight.
-/
import proofs.«103350_j47931835023376_2_alg».proof.Proof.Spec
import proofs.«103350_j47931835023376_2_alg».proof.Proof.OnlinePoolReal

noncomputable section

namespace Cert.PoolGate

open Idealize.ShloMosaic Idealize.ShloMosaic.ValueIdx

/-- Row `r` of tile `T` as a row of the whole column. -/
def tileEmb (T : Fin 4) : Fin 1024 ↪ Fin 4096 where
  toFun r := ⟨1024 * T.val + r.val, by have := T.isLt; have := r.isLt; omega⟩
  inj' := by
    intro a b h
    simp only [Fin.mk.injEq] at h
    exact Fin.ext (by omega)

theorem tileEmb_val (T : Fin 4) (r : Fin 1024) : (tileEmb T r).val = 1024 * T.val + r.val := rfl

theorem tile_eq (k : Fin 4096 → EReal) (T : Fin 4) : tile k T = k ∘ tileEmb T := rfl

/-- The rows of tile `T`. -/
def tileSet (T : Fin 4) : Finset (Fin 4096) := Finset.univ.map (tileEmb T)

/-- The rows of the first `t` tiles. -/
def pre (t : ℕ) : Finset (Fin 4096) := Finset.univ.filter (fun n => n.val < 1024 * t)

theorem mem_tileSet (T : Fin 4) (n : Fin 4096) :
    n ∈ tileSet T ↔ 1024 * T.val ≤ n.val ∧ n.val < 1024 * T.val + 1024 := by
  simp only [tileSet, Finset.mem_map, Finset.mem_univ, true_and]
  constructor
  · rintro ⟨r, rfl⟩
    have := r.isLt
    rw [tileEmb_val]
    omega
  · rintro ⟨h1, h2⟩
    refine ⟨⟨n.val - 1024 * T.val, by omega⟩, Fin.ext ?_⟩
    show 1024 * T.val + (n.val - 1024 * T.val) = n.val
    omega

theorem mem_pre (t : ℕ) (n : Fin 4096) : n ∈ pre t ↔ n.val < 1024 * t := by
  simp only [pre, Finset.mem_filter, Finset.mem_univ, true_and]

theorem pre_zero : pre 0 = ∅ := by
  ext n; simp only [mem_pre]; simp

theorem pre_succ (t : ℕ) (ht : t < 4) : pre (t + 1) = pre t ∪ tileSet ⟨t, ht⟩ := by
  ext n
  rw [Finset.mem_union, mem_pre, mem_pre, mem_tileSet]
  show n.val < 1024 * (t + 1) ↔ n.val < 1024 * t ∨ (1024 * t ≤ n.val ∧ n.val < 1024 * t + 1024)
  omega

theorem pre_disjoint (t : ℕ) (ht : t < 4) : Disjoint (pre t) (tileSet ⟨t, ht⟩) := by
  rw [Finset.disjoint_left]
  intro n h1 h2
  rw [mem_pre] at h1
  rw [mem_tileSet] at h2
  have h3 : 1024 * t ≤ n.val := h2.1
  omega

theorem pre_four : pre 4 = Finset.univ := by
  ext n
  have := n.isLt
  simp only [mem_pre, Finset.mem_univ, iff_true]
  omega

theorem tileSet_nonempty (T : Fin 4) : (tileSet T).Nonempty :=
  ⟨tileEmb T 0, by simp only [tileSet, Finset.mem_map, Finset.mem_univ, true_and]; exact ⟨0, rfl⟩⟩

/-- The carried triple over a set of rows. -/
def st (k v : Fin 4096 → EReal) (S : Finset (Fin 4096)) : EReal × EReal × EReal :=
  (S.fold max ⊥ k, ∑ n ∈ S, Ideal.exp (k n - S.fold max ⊥ k), ∑ n ∈ S, Ideal.exp (k n - S.fold max ⊥ k) * v n)

/-- Absorbing tile `T` into the triple over a disjoint set of rows gives the triple over the union. -/
theorem step_st (kr vr : Fin 4096 → ℝ) (S : Finset (Fin 4096)) (T : Fin 4) (hd : Disjoint S (tileSet T)) :
    step (tile (fun n => ((kr n : ℝ) : EReal)) T) (tile (fun n => ((vr n : ℝ) : EReal)) T)
        (st (fun n => ((kr n : ℝ) : EReal)) (fun n => ((vr n : ℝ) : EReal)) S)
      = st (fun n => ((kr n : ℝ) : EReal)) (fun n => ((vr n : ℝ) : EReal)) (S ∪ tileSet T) := by
  have hfold : (Finset.univ : Finset (Fin 1024)).fold max ⊥ (tile (fun n => ((kr n : ℝ) : EReal)) T)
      = (tileSet T).fold max ⊥ (fun n => ((kr n : ℝ) : EReal)) := by
    rw [tileSet, Finset.fold_map, tile_eq]
  have hsum : ∀ c : EReal, ∑ r : Fin 1024, Ideal.exp (tile (fun n => ((kr n : ℝ) : EReal)) T r - c)
      = ∑ n ∈ tileSet T, Ideal.exp (((kr n : ℝ) : EReal) - c) := by
    intro c
    rw [tileSet, Finset.sum_map]
    rfl
  have hwsum : ∀ c : EReal, ∑ r : Fin 1024, Ideal.exp (tile (fun n => ((kr n : ℝ) : EReal)) T r - c)
        * tile (fun n => ((vr n : ℝ) : EReal)) T r
      = ∑ n ∈ tileSet T, Ideal.exp (((kr n : ℝ) : EReal) - c) * ((vr n : ℝ) : EReal) := by
    intro c
    rw [tileSet, Finset.sum_map]
    rfl
  obtain ⟨b, hb⟩ := Online.fold_max_coe (tileSet T) (tileSet_nonempty T) kr
  simp only [step, st, hfold, hsum, hwsum]
  rw [← Online.fold_max_union, Finset.sum_union hd, Finset.sum_union hd]
  rcases S.eq_empty_or_nonempty with rfl | hS
  · simp only [Finset.sum_empty, mul_zero]
  · obtain ⟨a, ha⟩ := Online.fold_max_coe S hS kr
    have hm : (S ∪ tileSet T).fold max ⊥ (fun n => ((kr n : ℝ) : EReal)) = ((max a b : ℝ) : EReal) := by
      rw [Online.fold_max_union, ha, hb]
      exact (EReal.coe_strictMono.monotone.map_max).symm
    rw [hm, ha, Online.rescale_sum, Online.rescale_wsum]

/-- The triple carried after `t` tiles is the triple over the first `1024·t` rows. -/
theorem online_eq_st (kr vr : Fin 4096 → ℝ) : ∀ (t : ℕ) (ht : t ≤ 4),
    online (fun n => ((kr n : ℝ) : EReal)) (fun n => ((vr n : ℝ) : EReal)) t ht
      = st (fun n => ((kr n : ℝ) : EReal)) (fun n => ((vr n : ℝ) : EReal)) (pre t)
  | 0, _ => by
    rw [pre_zero]
    simp only [online, st, Finset.fold_empty, Finset.sum_empty]
  | t + 1, ht => by
    rw [online, online_eq_st kr vr t (Nat.le_of_succ_le ht), pre_succ t ht, step_st kr vr _ _ (pre_disjoint t ht)]

/-- For real columns the tile-by-tile pooled value is the softmax pool. -/
theorem online_eq_pool (k v : Fin 4096 → EReal) (hk : ∀ n, ∃ r : ℝ, k n = (r : EReal))
    (hv : ∀ n, ∃ r : ℝ, v n = (r : EReal)) : onlinePool k v = pool k v := by
  choose kr hkr using hk
  choose vr hvr using hv
  obtain rfl : k = fun n => ((kr n : ℝ) : EReal) := funext hkr
  obtain rfl : v = fun n => ((vr n : ℝ) : EReal) := funext hvr
  obtain ⟨M, hM⟩ := Online.fold_max_coe (Finset.univ : Finset (Fin 4096)) Finset.univ_nonempty kr
  rw [onlinePool, online_eq_st kr vr 4 le_rfl, pre_four]
  simp only [st, pool, colSum, colMax, hM]
  exact Online.div_wsum Finset.univ Finset.univ_nonempty kr vr M

/-- A projection of real data with real weights and bias is real. -/
theorem proj_real (x : Seq) (W : Wt) (b : Bias) (hx : ∀ i, ∃ r : ℝ, x i = (r : EReal))
    (hW : ∀ i, ∃ r : ℝ, W i = (r : EReal)) (hb : ∀ i, ∃ r : ℝ, b i = (r : EReal))
    (β : Fin 8) (n : Fin 4096) (h : Fin 64) : ∃ r : ℝ, proj x W b β n h = (r : EReal) := by
  choose xr hxr using hx
  choose wr hwr using hW
  choose br hbr using hb
  refine ⟨(∑ d : Fin 1024, xr (ix3 β n d) * wr (ix2 h d)) + br (ix1 h), ?_⟩
  simp only [proj, hxr, hwr, hbr, ← EReal.coe_mul, Online.coe_finset_sum, ← EReal.coe_add]

end Cert.PoolGate

end
-- ==== Proof.SpecGlue.lean ====
/-
  The two regions' results over whole arrays against the specification.

  The kernel holds each weight matrix transposed: `WT (d, h) = W (h, d)`.  A projection against the transposed weights
  is then the projection against the weights, term by term; the gate's result with a pooled array that holds the
  specification's pooled values is the specification's result; and the tile-by-tile pooled value of real data is the
  softmax pool of the projected key and value columns (the projections of real data being real).
-/
import proofs.«103350_j47931835023376_2_alg».proof.Proof.Spec
import proofs.«103350_j47931835023376_2_alg».proof.Proof.TileSpec
import proofs.«103350_j47931835023376_2_alg».proof.Proof.OnlinePool

noncomputable section

namespace Cert.PoolGate

open Idealize.ShloMosaic Idealize.ShloMosaic.ValueIdx

/-- A projection against transposed weights is the projection against the weights. -/
theorem projT_eq_proj (x x' : Seq) (ex : x = x') (WT : (⟨2, ![1024, 64]⟩ : Shape).Idx → EReal) (W : Wt)
    (hW : ∀ (d : Fin 1024) (h : Fin 64), WT (ix2 d h) = W (ix2 h d)) (b b' : Bias) (eb : b = b')
    (β : Fin 8) (n : Fin 4096) (h : Fin 64) : projT x WT b β n h = proj x' W b' β n h := by
  subst ex eb
  unfold projT proj
  congr 1
  exact Finset.sum_congr rfl fun d _ => by rw [hW]

/-- The tile-by-tile pooled value of real data, against transposed weights, is the specification's pooled value. -/
theorem poolAt_eq_pooled (key key' : Seq) (ek : key = key') (value value' : Seq) (ev : value = value')
    (WkT : (⟨2, ![1024, 64]⟩ : Shape).Idx → EReal) (Wk : Wt)
    (hWk : ∀ (d : Fin 1024) (h : Fin 64), WkT (ix2 d h) = Wk (ix2 h d)) (bk bk' : Bias) (ebk : bk = bk')
    (WvT : (⟨2, ![1024, 64]⟩ : Shape).Idx → EReal) (Wv : Wt)
    (hWv : ∀ (d : Fin 1024) (h : Fin 64), WvT (ix2 d h) = Wv (ix2 h d)) (bv bv' : Bias) (ebv : bv = bv')
    (rk : ∀ i, ∃ r : ℝ, key' i = (r : EReal)) (rv : ∀ i, ∃ r : ℝ, value' i = (r : EReal))
    (rWk : ∀ i, ∃ r : ℝ, Wk i = (r : EReal)) (rbk : ∀ i, ∃ r : ℝ, bk' i = (r : EReal))
    (rWv : ∀ i, ∃ r : ℝ, Wv i = (r : EReal)) (rbv : ∀ i, ∃ r : ℝ, bv' i = (r : EReal))
    (β : Fin 8) (h : Fin 64) :
    poolAt key value WkT bk WvT bv β h = pooled key' value' Wk bk' Wv bv' β h := by
  unfold poolAt pooled
  have e1 : (fun n => projT key WkT bk β n h) = fun n => proj key' Wk bk' β n h :=
    funext fun n => projT_eq_proj key key' ek WkT Wk hWk bk bk' ebk β n h
  have e2 : (fun n => projT value WvT bv β n h) = fun n => proj value' Wv bv' β n h :=
    funext fun n => projT_eq_proj value value' ev WvT Wv hWv bv bv' ebv β n h
  rw [e1, e2]
  exact online_eq_pool _ _ (fun n => proj_real key' Wk bk' rk rWk rbk β n h)
    (fun n => proj_real value' Wv bv' rv rWv rbv β n h)

/-- The gate's result over a pooled array that holds the specification's pooled values is the specification's result. -/
theorem gateAt_eq_outAt (q q' : Seq) (eq : q = q') (w : (⟨3, ![8, 1, 64]⟩ : Shape).Idx → EReal)
    (key value : Seq) (Wk : Wt) (bk : Bias) (Wv : Wt) (bv : Bias)
    (hw : ∀ (β : Fin 8) (h : Fin 64), w (ix3 β 0 h) = pooled key value Wk bk Wv bv β h)
    (WqT : (⟨2, ![1024, 64]⟩ : Shape).Idx → EReal) (Wq : Wt)
    (hWq : ∀ (d : Fin 1024) (h : Fin 64), WqT (ix2 d h) = Wq (ix2 h d)) (bq bq' : Bias) (ebq : bq = bq')
    (WpT : (⟨2, ![64, 1024]⟩ : Shape).Idx → EReal) (Wp : WtOut)
    (hWp : ∀ (h : Fin 64) (δ : Fin 1024), WpT (ix2 h δ) = Wp (ix2 δ h)) (bp bp' : BiasOut) (ebp : bp = bp')
    (β : Fin 8) (n : Fin 4096) (δ : Fin 1024) :
    gateAt q w WqT bq WpT bp β n δ = outAt q' key value Wq bq' Wk bk Wv bv Wp bp' β n δ := by
  subst ebp
  unfold gateAt outAt
  congr 1
  exact Finset.sum_congr rfl fun h _ => by
    rw [projT_eq_proj q q' eq WqT Wq hWq bq bq' ebq β n h, hw, hWp]

end Cert.PoolGate

end
-- ==== Proof.FiniteInputs.lean ====
/-
  From the precondition to "every entry is a real".

  The precondition evaluates, per argument array x, the conjunction over every index of `|x i| < +∞` (an
  and-reduction over all axes, from 1, of the comparison of `max (x i) (−x i)` against the pattern 0x7F800000, which
  denotes +∞), and ands the eleven results together.  The whole being 1, each conjunct is 1, so each reduction is 1, so
  each comparison is 1; and an extended real with `max x (−x) < ⊤` is neither ⊥ (whose negation is ⊤) nor ⊤: it is real.
-/
import proofs.«103350_j47931835023376_2_alg».proof.Defs
import Idealize.ShloMosaic.Lib.ReduceAll
import Idealize.ShloMosaic.Lib.ValueIdx

noncomputable section

namespace Cert.KernelIdeal.Finite

open Idealize.ShloMosaic Idealize.SL.Sem

/-- The rank-0 shape has one index. -/
instance : Subsingleton Cert.Pre_finite_inputs.S_.Idx := ⟨fun a b => funext fun d => d.elim0⟩

/-- The pattern 0x7F800000 denotes +∞. -/
theorem inf_bits : Ideal.ofBits .f32 0x7F800000#32 = ⊤ := by
  simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array whose `all (|x| < +∞)` came out 1 holds only reals. -/
theorem real_of_all {s : Shape} (x : FVec Ideal s .f32)
    (hb : Cert.Pre_finite_inputs.S_.BroadcastsInDim s (![] : Fin 0 → Fin s.rank))
    {axes : List (Fin s.rank)} (hr : s.ReducesTo axes Cert.Pre_finite_inputs.S_)
    (hS : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hS ValueIdx.ix0 = 1#1)
    (i : s.Idx) : ∃ r : ℝ, x i = (r : EReal) :=
  real_of_lt (x i) (Host.reduce_andi_all _ _ hr hS _ e i)

/-- Under the precondition the key and value arrays and their projection weights and biases hold only reals. -/
theorem real_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h1⟩, h2⟩, h3⟩, h4⟩, h5⟩, h6⟩, h7⟩, h8⟩, h9⟩, h10⟩ := e
  exact ⟨real_of_all _ _ _ _ h1, real_of_all _ _ _ _ h2, real_of_all _ _ _ _ h5, real_of_all _ _ _ _ h6,
    real_of_all _ _ _ _ h7, real_of_all _ _ _ _ h8⟩

end Cert.KernelIdeal.Finite

end
-- ==== Proof.KernelIdeal.ResultEq.lean ====
/-
  The program's result array is the specification's.

  The gating region leaves, at (β, n, δ), the gate of the query's projection over the pooled array, read through the
  transposed weights; the pooled array is what the pooling region left, the tile-by-tile pooled value of the key and
  value projections.  Every argument array reads back through the regions and the host stretch to the launch memory, and
  every transposed weight matrix to its argument at the swapped index.  Under the precondition the key and value arrays
  and their projection weights and biases are real, so the tile-by-tile pooled value is the softmax pool, and the gate
  over it is the specification's result.
-/
import proofs.«103350_j47931835023376_2_alg».proof.Proof.KernelIdeal.HostGlue
import proofs.«103350_j47931835023376_2_alg».proof.Proof.KernelIdeal.WholeRun
import proofs.«103350_j47931835023376_2_alg».proof.Proof.KernelIdeal.GateValue
import proofs.«103350_j47931835023376_2_alg».proof.Proof.KernelIdeal.PoolFinal
import proofs.«103350_j47931835023376_2_alg».proof.Proof.Spec
import proofs.«103350_j47931835023376_2_alg».proof.Proof.TileSpec
import proofs.«103350_j47931835023376_2_alg».proof.Proof.OnlinePool
import proofs.«103350_j47931835023376_2_alg».proof.Proof.SpecGlue
import proofs.«103350_j47931835023376_2_alg».proof.Proof.FiniteInputs

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem

/-- The result array against the specification, given what the pooling region leaves in the pooled array. -/
theorem result_eq_of [hPre_finite_inputs : Cert.Pre_finite_inputs.Facts]
    (hpool : ∀ (V : (c : Dev nD) → (b : Ref sig .tc) → Buf (Elt Ideal) ((c : Thread nD τ).loc b)) (c : Dev nD),
      (Cert.KernelIdeal.Pool.dat0 (F := Ideal) V c).arrAt 6 cfg0.N = fun j => Cert.PoolGate.poolAt (V c main_arg1) (V c main_arg2) (V c main_v3) (V c main_arg6) (V c main_v5) (V c main_arg8) (j 0) (j 2))
    (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gate.dat1 (F := Ideal) (Cert.KernelIdeal.Whole.V2 m) c).arrAt 6 Cert.KernelIdeal.cfg1.N
      = Cert.PoolGate.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨r1, r2, r5, r6, r7, r8⟩ := Cert.KernelIdeal.Finite.real_of_pre m hpre c
  -- an argument array reads back through the host stretch to the launch memory
  have a1 : ∀ (b : Ref sig .tc) (h : b ∉ Gen.hostOps0_W), Whole.V1 m c b = m ((c : Thread nD τ).loc b) :=
    fun b h => (Gen.V1_of m c b h).trans rfl
  -- a buffer that is no array of the pooling region leaves it as it entered
  have a2 : ∀ (b : Ref sig .tc) (hb : ∀ w, Pipeline.arrRef spec0 w ≠ b), Whole.V2 m c b = Whole.V1 m c b :=
    fun b hb => Whole.W2_of_ne m c b hb
  -- the pooled array is what the pooling region's write-backs leave
  have e8 : Whole.V2 m c main_v8 = (Pool.dat0 (Whole.V1 m) c).arrAt 6 cfg0.N := Whole.W2_arr m c 6
  refine (Cert.KernelIdeal.GateValue.gate_final (Whole.V2 m) c).trans ?_
  funext i
  show _ = Cert.PoolGate.outAt _ _ _ _ _ _ _ _ _ _ _ (i 0) (i 1) (i 2)
  refine Cert.PoolGate.gateAt_eq_outAt _ _ ((a2 main_arg0 (by decide)).trans (a1 main_arg0 (by decide))) _
    _ _ _ _ _ _ (fun β h => ?_)
    _ _ (fun d h => (congrFun (a2 main_v1 (by decide)) (ix2 d h)).trans (v1_apply m c d h))
    _ _ ((a2 main_arg4 (by decide)).trans (a1 main_arg4 (by decide)))
    _ _ (fun h δ => (congrFun (a2 main_v7 (by decide)) (ix2 h δ)).trans (v7_apply m c h δ))
    _ _ ((a2 main_arg10 (by decide)).trans (a1 main_arg10 (by decide))) (i 0) (i 1) (i 2)
  refine (congrFun (e8.trans (hpool (Whole.V1 m) c)) (ix3 β 0 h)).trans ?_
  exact Cert.PoolGate.poolAt_eq_pooled _ _ (a1 main_arg1 (by decide)) _ _ (a1 main_arg2 (by decide))
    _ _ (v3_apply m c) _ _ (a1 main_arg6 (by decide)) _ _ (v5_apply m c) _ _ (a1 main_arg8 (by decide))
    r1 r2 r5 r6 r7 r8 β h

/-- The program's result array is the specification's result on the argument arrays. -/
theorem result_eq [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gate.dat1 (F := Ideal) (Cert.KernelIdeal.Whole.V2 m) c).arrAt 6 Cert.KernelIdeal.cfg1.N
      = Cert.PoolGate.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  result_eq_of Cert.KernelIdeal.PoolFinal.pool_final m hpre c

end Cert.KernelIdeal.Final

end
-- ==== Proof.RefProj.lean ====
/-
  The reference's three projections, read at coordinates.

  Each of the query, key and value arrays is contracted with its weight matrix along the feature axis and the bias is
  added along the hidden axis; at (β, n, h) that is the specification's `proj`.  The two float words the later stages
  meet, −∞ and 1, are evaluated here as well.
-/
import proofs.«103350_j47931835023376_2_alg».proof.Proof.Gen.ReferenceIdeal.Read
import proofs.«103350_j47931835023376_2_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Cert.PoolGate

/-- The word 0xFF800000 is −∞. -/
theorem ofBits_negInf : Ideal.ofBits .f32 0xFF800000#32 = ⊥ := by
  simp [Ideal.ofBits, Ideal.ieee]

/-- The word 0x3F800000 is 1. -/
theorem ofBits_one : Ideal.ofBits .f32 0x3F800000#32 = 1 := by
  simp [Ideal.ofBits, Ideal.ieee]
  rw [← EReal.coe_mul]
  norm_num

/-! ## Where a projection reads its operands -/

theorem lidx0_ix (β : Fin 8) (n : Fin 4096) (h : Fin 64) (k : Fin 1024) :
    lidx_main_v0 (ix3 β n h) k = ix3 β n k :=
  funext fun a => Fin.ext (by match a with | ⟨0, _⟩ => rfl | ⟨1, _⟩ => rfl | ⟨2, _⟩ => rfl)
theorem ridx0_ix (β : Fin 8) (n : Fin 4096) (h : Fin 64) (k : Fin 1024) :
    ridx_main_v0 (ix3 β n h) k = ix2 h k :=
  funext fun a => Fin.ext (by match a with | ⟨0, _⟩ => rfl | ⟨1, _⟩ => rfl)
theorem bidx0_ix (β : Fin 8) (n : Fin 4096) (h : Fin 64) :
    idx_main_v1 (idx_main_v2 (ix3 β n h)) = ix1 h :=
  funext fun a => Fin.ext (by match a with | ⟨0, _⟩ => rfl)

theorem lidx4_ix (β : Fin 8) (n : Fin 4096) (h : Fin 64) (k : Fin 1024) :
    lidx_main_v4 (ix3 β n h) k = ix3 β n k :=
  funext fun a => Fin.ext (by match a with | ⟨0, _⟩ => rfl | ⟨1, _⟩ => rfl | ⟨2, _⟩ => rfl)
theorem ridx4_ix (β : Fin 8) (n : Fin 4096) (h : Fin 64) (k : Fin 1024) :
    ridx_main_v4 (ix3 β n h) k = ix2 h k :=
  funext fun a => Fin.ext (by match a with | ⟨0, _⟩ => rfl | ⟨1, _⟩ => rfl)
theorem bidx4_ix (β : Fin 8) (n : Fin 4096) (h : Fin 64) :
    idx_main_v5 (idx_main_v6 (ix3 β n h)) = ix1 h :=
  funext fun a => Fin.ext (by match a with | ⟨0, _⟩ => rfl)

theorem lidx8_ix (β : Fin 8) (n : Fin 4096) (h : Fin 64) (k : Fin 1024) :
    lidx_main_v8 (ix3 β n h) k = ix3 β n k :=
  funext fun a => Fin.ext (by match a with | ⟨0, _⟩ => rfl | ⟨1, _⟩ => rfl | ⟨2, _⟩ => rfl)
theorem ridx8_ix (β : Fin 8) (n : Fin 4096) (h : Fin 64) (k : Fin 1024) :
    ridx_main_v8 (ix3 β n h) k = ix2 h k :=
  funext fun a => Fin.ext (by match a with | ⟨0, _⟩ => rfl | ⟨1, _⟩ => rfl)
theorem bidx8_ix (β : Fin 8) (n : Fin 4096) (h : Fin 64) :
    idx_main_v9 (idx_main_v10 (ix3 β n h)) = ix1 h :=
  funext fun a => Fin.ext (by match a with | ⟨0, _⟩ => rfl)

/-! ## The three projections -/

/-- The query's projection at (β, n, h). -/
theorem query_proj (x0 : (⟨Cert.ReferenceIdeal.S8x4096x1024, .f32⟩ : BufTy).Contents (Elt Ideal)) (x3 : (⟨Cert.ReferenceIdeal.S64x1024, .f32⟩ : BufTy).Contents (Elt Ideal)) (x4 : (⟨Cert.ReferenceIdeal.S64, .f32⟩ : BufTy).Contents (Elt Ideal))
    (β : Fin 8) (n : Fin 4096) (h : Fin 64) :
    val_main_v3 (F := Ideal) x0 x3 x4 (ix3 β n h) = proj x0 x3 x4 β n h := by
  rw [val_main_v3_apply, val_main_v0_apply, val_main_v2_apply, val_main_v1_apply]
  simp only [Ideal.addf_def, lidx0_ix, ridx0_ix, bidx0_ix]
  rfl

/-- The key's projection at (β, n, h). -/
theorem key_proj (x1 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal))
    (β : Fin 8) (n : Fin 4096) (h : Fin 64) :
    val_main_v7 (F := Ideal) x1 x5 x6 (ix3 β n h) = proj x1 x5 x6 β n h := by
  rw [val_main_v7_apply, val_main_v4_apply, val_main_v6_apply, val_main_v5_apply]
  simp only [Ideal.addf_def, lidx4_ix, ridx4_ix, bidx4_ix]
  rfl

/-- The value's projection at (β, n, h). -/
theorem value_proj (x2 : (⟨Cert.ReferenceIdeal.S8x4096x1024, .f32⟩ : BufTy).Contents (Elt Ideal)) (x7 : (⟨Cert.ReferenceIdeal.S64x1024, .f32⟩ : BufTy).Contents (Elt Ideal)) (x8 : (⟨Cert.ReferenceIdeal.S64, .f32⟩ : BufTy).Contents (Elt Ideal))
    (β : Fin 8) (n : Fin 4096) (h : Fin 64) :
    val_main_v11 (F := Ideal) x2 x7 x8 (ix3 β n h) = proj x2 x7 x8 β n h := by
  rw [val_main_v11_apply, val_main_v8_apply, val_main_v10_apply, val_main_v9_apply]
  simp only [Ideal.addf_def, lidx8_ix, ridx8_ix, bidx8_ix]
  rfl

end Cert.ReferenceIdeal.RefValue

end
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefPool.lean ====
/-
  The reference's softmax over the rows and the pooled value, read at coordinates.

  For a batch β and a hidden unit h the key column is k n = proj key Wk bk (β, n, h).  The reference takes its maximum
  over the 4096 rows (a reduce from −∞, then a maximum against −∞ once more), subtracts it, exponentiates, sums the
  exponentials from 0, divides, multiplies by the value column and sums from 0 again: the specification's `colMax`,
  `colSum` and `pool`.
-/
import proofs.«103350_j47931835023376_2_alg».proof.Proof.RefProj
import proofs.«103350_j47931835023376_2_alg».proof.Proof.LibHostMaxForms

noncomputable section

namespace Cert.ReferenceIdeal.RefValue

open Cert.ReferenceIdeal Cert.ReferenceIdeal.Gen Cert.ReferenceIdeal.Read Idealize.ShloMosaic
  Idealize.ShloMosaic.ValueIdx Cert.PoolGate

/-! ## Where the broadcasts and the row sums read -/

/-- A [8, 64] array broadcast along the rows is read at (β, h). -/
theorem bidx16_ix (β : Fin 8) (n : Fin 4096) (h : Fin 64) :
    idx_main_v15 (idx_main_v16 (ix3 β n h)) = ix2 β h :=
  funext fun a => Fin.ext (by match a with | ⟨0, _⟩ => rfl | ⟨1, _⟩ => rfl)
theorem bidx21_ix (β : Fin 8) (n : Fin 4096) (h : Fin 64) :
    idx_main_v20 (idx_main_v21 (ix3 β n h)) = ix2 β h :=
  funext fun a => Fin.ext (by match a with | ⟨0, _⟩ => rfl | ⟨1, _⟩ => rfl)
/-- The row sum at (β, h) runs over the entries (β, n, h). -/
theorem sidx19_ix (β : Fin 8) (h : Fin 64) (n : Fin 4096) :
    idx_main_v19 (ix2 β h) n = ix3 β n h :=
  funext fun a => Fin.ext (by match a with | ⟨0, _⟩ => rfl | ⟨1, _⟩ => rfl | ⟨2, _⟩ => rfl)
theorem sidx24_ix (β : Fin 8) (h : Fin 64) (n : Fin 4096) :
    idx_main_v24 (ix2 β h) n = ix3 β n h :=
  funext fun a => Fin.ext (by match a with | ⟨0, _⟩ => rfl | ⟨1, _⟩ => rfl | ⟨2, _⟩ => rfl)

/-! ## Maximum, normaliser, pooled value -/

/-- The key column's maximum at (β, h): the fold from −∞ over the rows; the further maximum against −∞ changes
    nothing. -/
theorem key_max (x1 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (β : Fin 8) (h : Fin 64) :
    val_main_v14 (F := Ideal) x1 x5 x6 (ix2 β h) = colMax (fun n => proj x1 x5 x6 β n h) := by
  rw [val_main_v14_apply, val_main_v13_apply, val_main_cst_0_apply]
  unfold val_main_v12
  rw [hostReduceMax3_middle (A := 8) (B := 4096) (C := 64) (val_main_v7 (F := Ideal) x1 x5 x6)
    (val_main_cst (F := Ideal)) reducesTo_S8x4096x64_S8x64_d1 (by decide) h_S_ β h]
  simp only [Ideal.maximumf_def, Ideal.ofBits_def, val_main_cst_apply, ofBits_negInf, key_proj, max_bot_left]
  rfl

/-- The shifted exponential at (β, n, h). -/
theorem key_exp (x1 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (β : Fin 8) (n : Fin 4096) (h : Fin 64) :
    val_main_v18 (F := Ideal) x1 x5 x6 (ix3 β n h)
      = Ideal.exp (proj x1 x5 x6 β n h - colMax (fun n' => proj x1 x5 x6 β n' h)) := by
  rw [val_main_v18_apply, val_main_v17_apply, val_main_v16_apply, val_main_v15_apply, bidx16_ix, key_max, key_proj]
  rfl

/-- The normaliser at (β, h): the sum of the shifted exponentials from 0. -/
theorem key_sum (x1 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (β : Fin 8) (h : Fin 64) :
    val_main_v19 (F := Ideal) x1 x5 x6 (ix2 β h) = colSum (fun n => proj x1 x5 x6 β n h) := by
  rw [val_main_v19_apply, val_main_cst_1_apply]
  simp only [Ideal.ofBits_def, Ideal.ofBits_zero_f32, zero_add, sidx19_ix, key_exp]
  rfl

/-- The softmax weight at (β, n, h). -/
theorem key_weight (x1 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (β : Fin 8) (n : Fin 4096) (h : Fin 64) :
    val_main_v22 (F := Ideal) x1 x5 x6 (ix3 β n h)
      = Ideal.div (Ideal.exp (proj x1 x5 x6 β n h - colMax (fun n' => proj x1 x5 x6 β n' h)))
          (colSum (fun n' => proj x1 x5 x6 β n' h)) := by
  rw [val_main_v22_apply, val_main_v21_apply, val_main_v20_apply, bidx21_ix, key_sum, key_exp]
  rfl

/-- The pooled value at (β, h). -/
theorem pooled_at (x1 x2 : (⟨Cert.ReferenceIdeal.S8x4096x1024, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (x7 : (⟨Cert.ReferenceIdeal.S64x1024, .f32⟩ : BufTy).Contents (Elt Ideal)) (x8 : (⟨Cert.ReferenceIdeal.S64, .f32⟩ : BufTy).Contents (Elt Ideal))
    (β : Fin 8) (h : Fin 64) :
    val_main_v24 (F := Ideal) x1 x2 x5 x6 x7 x8 (ix2 β h) = pooled x1 x2 x5 x6 x7 x8 β h := by
  rw [val_main_v24_apply, val_main_cst_2_apply]
  simp only [Ideal.ofBits_def, Ideal.ofBits_zero_f32, zero_add, sidx24_ix, val_main_v23_apply, Ideal.mulf_def,
    key_weight, value_proj]
  rfl

end Cert.ReferenceIdeal.RefValue

end
-- ==== Proof.RefValue.lean ====
/-
  The reference program computes the specification.

  At (β, n, h) the reference forms 1 / (1 + exp (−q)) for the query's projection q, which is the logistic by
  definition, and multiplies it by the pooled value of (β, h) broadcast along the rows; the result is contracted with
  the output weights along the hidden axis and the output bias is added along the feature axis.  Index by index this is
  the specification's `out`, and the reference's run leaves that array in its result buffer.
-/
import proofs.«103350_j47931835023376_2_alg».proof.Proof.RefPool

noncomputable section

namespace Cert.ReferenceIdeal.RefValue

open Cert.ReferenceIdeal Cert.ReferenceIdeal.Gen Cert.ReferenceIdeal.Read Idealize.ShloMosaic
  Idealize.ShloMosaic.ValueIdx Cert.PoolGate Idealize.ShloMosaic.TcCoe Idealize.SL.Sem Idealize.ShloMosaic.StableHlo

/-! ## Where the last stages read -/

/-- The pooled row broadcast along the rows is read at (β, h). -/
theorem bidx32_ix (β : Fin 8) (n : Fin 4096) (h : Fin 64) :
    idx_main_v25 (idx_main_v32 (ix3 β n h)) = ix2 β h :=
  funext fun a => Fin.ext (by match a with | ⟨0, _⟩ => rfl | ⟨1, _⟩ => rfl)
theorem lidx34_ix (β : Fin 8) (n : Fin 4096) (δ : Fin 1024) (k : Fin 64) :
    lidx_main_v34 (ix3 β n δ) k = ix3 β n k :=
  funext fun a => Fin.ext (by match a with | ⟨0, _⟩ => rfl | ⟨1, _⟩ => rfl | ⟨2, _⟩ => rfl)
theorem ridx34_ix (β : Fin 8) (n : Fin 4096) (δ : Fin 1024) (k : Fin 64) :
    ridx_main_v34 (ix3 β n δ) k = ix2 δ k :=
  funext fun a => Fin.ext (by match a with | ⟨0, _⟩ => rfl | ⟨1, _⟩ => rfl)
theorem bidx36_ix (β : Fin 8) (n : Fin 4096) (δ : Fin 1024) :
    idx_main_v35 (idx_main_v36 (ix3 β n δ)) = ix1 δ :=
  funext fun a => Fin.ext (by match a with | ⟨0, _⟩ => rfl)

/-! ## The gate and the result -/

/-- The gate at (β, n, h): 1 / (1 + exp (−q)) is the logistic of the query's projection. -/
theorem gate_at (x0 : (⟨Cert.ReferenceIdeal.S8x4096x1024, .f32⟩ : BufTy).Contents (Elt Ideal)) (x3 : (⟨Cert.ReferenceIdeal.S64x1024, .f32⟩ : BufTy).Contents (Elt Ideal)) (x4 : (⟨Cert.ReferenceIdeal.S64, .f32⟩ : BufTy).Contents (Elt Ideal)) (β : Fin 8) (n : Fin 4096) (h : Fin 64) :
    val_main_v31 (F := Ideal) x0 x3 x4 (ix3 β n h) = Ideal.logistic (proj x0 x3 x4 β n h) := by
  rw [val_main_v31_apply, val_main_v30_apply, val_main_cst_4_apply, val_main_v29_apply, val_main_v28_apply,
    val_main_cst_3_apply, val_main_v27_apply, val_main_v26_apply, query_proj]
  simp only [Ideal.ofBits_def, ofBits_one, Ideal.hostDivf_def, Ideal.addf_def, Ideal.hostUnary_exp_def,
    Ideal.hostNegf_def, Ideal.negf_def]
  rfl

/-- The gated pooled row at (β, n, h). -/
theorem gated_at (x0 x1 x2 : (⟨Cert.ReferenceIdeal.S8x4096x1024, .f32⟩ : BufTy).Contents (Elt Ideal)) (x3 : (⟨Cert.ReferenceIdeal.S64x1024, .f32⟩ : BufTy).Contents (Elt Ideal)) (x4 : (⟨Cert.ReferenceIdeal.S64, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (x7 : (⟨Cert.ReferenceIdeal.S64x1024, .f32⟩ : BufTy).Contents (Elt Ideal)) (x8 : (⟨Cert.ReferenceIdeal.S64, .f32⟩ : BufTy).Contents (Elt Ideal))
    (β : Fin 8) (n : Fin 4096) (h : Fin 64) :
    val_main_v33 (F := Ideal) x0 x1 x2 x3 x4 x5 x6 x7 x8 (ix3 β n h)
      = Ideal.logistic (proj x0 x3 x4 β n h) * pooled x1 x2 x5 x6 x7 x8 β h := by
  rw [val_main_v33_apply, val_main_v32_apply, val_main_v25_apply, bidx32_ix, gate_at, pooled_at]
  rfl

/-- The result at (β, n, δ). -/
theorem out_at (x0 x1 x2 : (⟨Cert.ReferenceIdeal.S8x4096x1024, .f32⟩ : BufTy).Contents (Elt Ideal)) (x3 : (⟨Cert.ReferenceIdeal.S64x1024, .f32⟩ : BufTy).Contents (Elt Ideal)) (x4 : (⟨Cert.ReferenceIdeal.S64, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (x7 : (⟨Cert.ReferenceIdeal.S64x1024, .f32⟩ : BufTy).Contents (Elt Ideal)) (x8 : (⟨Cert.ReferenceIdeal.S64, .f32⟩ : BufTy).Contents (Elt Ideal)) (x9 : (⟨Cert.ReferenceIdeal.S1024x64, .f32⟩ : BufTy).Contents (Elt Ideal)) (x10 : (⟨Cert.ReferenceIdeal.S1024, .f32⟩ : BufTy).Contents (Elt Ideal))
    (β : Fin 8) (n : Fin 4096) (δ : Fin 1024) :
    val_main_v37 (F := Ideal) x0 x1 x2 x3 x4 x5 x6 x7 x8 x9 x10 (ix3 β n δ)
      = outAt x0 x1 x2 x3 x4 x5 x6 x7 x8 x9 x10 β n δ := by
  rw [val_main_v37_apply, val_main_v34_apply, val_main_v36_apply, val_main_v35_apply, bidx36_ix]
  simp only [Ideal.addf_def, lidx34_ix, ridx34_ix, gated_at]
  rfl

/-- The reference's result array is the specification's. -/
theorem ref_eq (x0 x1 x2 : (⟨Cert.ReferenceIdeal.S8x4096x1024, .f32⟩ : BufTy).Contents (Elt Ideal)) (x3 : (⟨Cert.ReferenceIdeal.S64x1024, .f32⟩ : BufTy).Contents (Elt Ideal)) (x4 : (⟨Cert.ReferenceIdeal.S64, .f32⟩ : BufTy).Contents (Elt Ideal)) (x5 : (⟨Cert.ReferenceIdeal.S64x1024, .f32⟩ : BufTy).Contents (Elt Ideal)) (x6 : (⟨Cert.ReferenceIdeal.S64, .f32⟩ : BufTy).Contents (Elt Ideal)) (x7 : (⟨Cert.ReferenceIdeal.S64x1024, .f32⟩ : BufTy).Contents (Elt Ideal)) (x8 : (⟨Cert.ReferenceIdeal.S64, .f32⟩ : BufTy).Contents (Elt Ideal)) (x9 : (⟨Cert.ReferenceIdeal.S1024x64, .f32⟩ : BufTy).Contents (Elt Ideal)) (x10 : (⟨Cert.ReferenceIdeal.S1024, .f32⟩ : BufTy).Contents (Elt Ideal)) :
    Cert.ReferenceIdeal.Read.val_main_v37 (F := Ideal) x0 x1 x2 x3 x4 x5 x6 x7 x8 x9 x10
      = Cert.PoolGate.out x0 x1 x2 x3 x4 x5 x6 x7 x8 x9 x10 := by
  funext i
  obtain ⟨β, n, δ, rfl⟩ : ∃ (β : Fin 8) (n : Fin 4096) (δ : Fin 1024), i = ix3 β n δ := ⟨i 0, i 1, i 2, eq_ix3 i⟩
  exact out_at x0 x1 x2 x3 x4 x5 x6 x7 x8 x9 x10 β n δ

/-- The reference's run: its result buffer holds the specification's array of the arguments, which are left as they
    were. -/
theorem run_out (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v37)
        = Cert.PoolGate.out (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) :=
  (θ_run _ _ _).mono (fun _ h c => ⟨by rw [(h c).1, Read.val_main_v37_eq, ref_eq], (h c).2⟩)
    (Cert.ReferenceIdeal.Value.run (F := Ideal) m ρ)

end Cert.ReferenceIdeal.RefValue

end
-- ==== Proof.lean ====
/-
  The certificate of the pooled-attention kernel against its plain reference.

  Both programs compute, at (batch β, row n, feature δ),
      Σ_h (logistic (q(β, n, h)) · pooled(β, h)) · Wp(δ, h) + bp(δ),
  where q, k, v are the query, key and value sequences projected onto 64 hidden units and
  pooled(β, h) = Σ_n softmax_n(k(β, ·, h)) · v(β, n, h) is the value column averaged with the softmax weights of the
  key column over the 4096 rows. The reference forms the softmax whole. The kernel never does: its first region
  walks the rows in four tiles of 1024, keeping a running maximum, normaliser and weighted sum that it rescales
  whenever the maximum moves, and divides once at the end; its second region applies the gate and the output
  projection tile by tile. Over the extended reals every change of number format is the identity and a matrix product
  is a plain sum, so the two agree as soon as the rescaling identity exp(m − m') · exp(k − m) = exp(k − m') may be used,
  that is, as soon as the projected key and value columns are real: this is where the finiteness of the inputs enters,
  and the only place.

  The frames: each kernel program is a stretch of host operations followed by the two regions; each region's body is
  run symbolically once per control case, and the pooling region's invariant carries its three running rows from one
  grid point to the next. The same text proves the word-level program's frame and the idealized program's, being
  generic in the number model. The reference is a straight line of host operations; its run and its result, read
  operation by operation, are the specification.
-/
import proofs.«103350_j47931835023376_2_alg».proof.Defs
import proofs.«103350_j47931835023376_2_alg».proof.Proof.Gen.Kernel
import proofs.«103350_j47931835023376_2_alg».proof.Proof.Gen.KernelIdeal
import proofs.«103350_j47931835023376_2_alg».proof.Proof.Gen.ReferenceIdeal
import proofs.«103350_j47931835023376_2_alg».proof.Proof.Gen.Pre_finite_inputs
import proofs.«103350_j47931835023376_2_alg».proof.Proof.Kernel.WholeRun
import proofs.«103350_j47931835023376_2_alg».proof.Proof.KernelIdeal.WholeRun
import proofs.«103350_j47931835023376_2_alg».proof.Proof.KernelIdeal.ResultEq
import proofs.«103350_j47931835023376_2_alg».proof.Proof.RefValue
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel : Cert.frame_Kernel := fun m ρ _ => Cert.Kernel.Whole.frame m ρ

/-- So does the idealized kernel program: the same argument read at the extended reals. -/
theorem frame_kernel_ideal : Cert.frame_KernelIdeal := fun m ρ _ => Cert.KernelIdeal.Whole.frame m ρ

/-- The reference is a line of host operations: its run with the result dropped. -/
theorem frame_reference : Cert.frame_ReferenceIdeal := fun m ρ _ =>
  (θ_run Cert.ReferenceIdeal.defs _ _).mono (fun _ h c => (h c).2) (Cert.ReferenceIdeal.RefValue.run_out m ρ)

/-- The idealization rewrote nothing. -/
theorem preserves : Cert.preserves_Kernel_KernelIdeal := trivial

/-- From memories agreeing on the arguments both idealized programs end with the specification's array of the kernel
    program's arguments: the kernel's by the two regions' values joined (finiteness used for the rescaling identity),
    the reference's by its operations read one at a time. -/
theorem algebraic : Cert.algebraic_KernelIdeal_ReferenceIdeal := by
  intro m ρ m' ρ' hpre hagree
  refine ⟨fun c => Cert.PoolGate.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Final.result_eq m hpre c), (h c).2⟩)
      (Cert.KernelIdeal.Whole.run_result (F := Ideal) m ρ)
  · refine (θ_run Cert.ReferenceIdeal.defs _ _).mono (fun _ h c => ⟨?_, (h c).2⟩)
      (Cert.ReferenceIdeal.RefValue.run_out m' ρ')
    obtain ⟨e0, e1, e2, e3, e4, e5, e6, e7, e8, e9, e10⟩ := hagree c
    rw [(h c).1, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
